-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S26x1 : Shape := ⟨2, ![26, 1]⟩
abbrev S16384x26x128 : Shape := ⟨3, ![16384, 26, 128]⟩
abbrev S100 : Shape := ⟨1, ![100]⟩
abbrev S_ : Shape := ⟨0, ![]⟩

class Facts : Prop where
  bcast_S_S16384x26x128 : S_.BroadcastsInDim S16384x26x128 (![] : Fin 0 → Fin S16384x26x128.rank)
  reducesTo_S16384x26x128_S_d0_1_2 : S16384x26x128.ReducesTo [0, 1, 2] S_
  h_S_ : 0 < S_.numel
  bcast_S_S100 : S_.BroadcastsInDim S100 (![] : Fin 0 → Fin S100.rank)
  reducesTo_S100_S_d0 : S100.ReducesTo [0] S_
  bcast_S_S26x1 : S_.BroadcastsInDim S26x1 (![] : Fin 0 → Fin S26x1.rank)
  reducesTo_S26x1_S_d0_1 : S26x1.ReducesTo [0, 1] S_

variable [Facts]

def fn {F : FTy → Type} [FloatOps F] (main_arg0 : IVec S26x1 32) (main_arg1 : FVec F S16384x26x128 .f32) (main_arg2 : FVec F S100 .f32) : IVec S_ 1 :=
  let main_v0 : FVec F S16384x26x128 .f32 := Host.absf main_arg1
  let main_cst : FVec F S_ .f32 := constant S_ .f32 0x7F800000#32
  let main_v1 : FVec F S16384x26x128 .f32 := broadcastInDim S16384x26x128 ![] bcast_S_S16384x26x128 main_cst
  let main_v2 : IVec S16384x26x128 1 := cmpf .olt main_v0 main_v1
  let main_c : IVec S_ 1 := constantI S_ 1 1#1
  let main_v3 : IVec S_ 1 := (fun x v => Host.reduce IntOp.andi x v reducesTo_S16384x26x128_S_d0_1_2 h_S_) main_v2 main_c
  let main_v4 : FVec F S100 .f32 := Host.absf main_arg2
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_c_2 : IVec S_ 32 := constantI S_ 32 0#32
  let main_v9 : IVec S26x1 32 := broadcastInDim S26x1 ![] bcast_S_S26x1 main_c_2
  let main_v10 : IVec S26x1 1 := cmpi .sge main_arg0 main_v9
  let main_c_3 : IVec S_ 32 := constantI S_ 32 99#32
  let main_v11 : IVec S26x1 32 := broadcastInDim S26x1 ![] bcast_S_S26x1 main_c_3
  let main_v12 : IVec S26x1 1 := cmpi .sle main_arg0 main_v11
  let main_v13 : IVec S26x1 1 := andi main_v10 main_v12
  let main_c_4 : IVec S_ 1 := constantI S_ 1 1#1
  let main_v14 : IVec S_ 1 := (fun x v => Host.reduce IntOp.andi x v reducesTo_S26x1_S_d0_1 h_S_) main_v13 main_c_4
  let main_v15 : IVec S_ 1 := andi main_v8 main_v14
  main_v15
-- ==== Kernel.lean ====
abbrev S26x1 : Shape := ⟨2, ![26, 1]⟩
abbrev S16384x26x128 : Shape := ⟨3, ![16384, 26, 128]⟩
abbrev S100 : Shape := ⟨1, ![100]⟩
abbrev S_ : Shape := ⟨0, ![]⟩
abbrev S32 : Shape := ⟨1, ![32]⟩
abbrev S26 : Shape := ⟨1, ![26]⟩
abbrev S1 : Shape := ⟨1, ![1]⟩
abbrev S16 : Shape := ⟨1, ![16]⟩
abbrev S26x16384x128 : Shape := ⟨3, ![26, 16384, 128]⟩
abbrev S26x1024x128 : Shape := ⟨3, ![26, 1024, 128]⟩
abbrev S1x1024x128 : Shape := ⟨3, ![1, 1024, 128]⟩
abbrev S1024x128 : Shape := ⟨2, ![1024, 128]⟩

abbrev nBuf : Table → Nat
  | .hbm => 13
  | .local .tc .vmem => 4
  | .local .tc .smem => 1
  | .local .scVector .vmem => 2
  | _ => 0

abbrev bufTy : (tb : Table) → Fin (nBuf tb) → BufTy
  | .hbm, ⟨0, _⟩ => ⟨S26x1, .i32⟩
  | .hbm, ⟨1, _⟩ => ⟨S16384x26x128, .f32⟩
  | .hbm, ⟨2, _⟩ => ⟨S100, .f32⟩
  | .hbm, ⟨3, _⟩ => ⟨S_, .i32⟩
  | .hbm, ⟨4, _⟩ => ⟨S32, .i32⟩
  | .hbm, ⟨5, _⟩ => ⟨S26, .i32⟩
  | .hbm, ⟨6, _⟩ => ⟨S_, .i32⟩
  | .hbm, ⟨7, _⟩ => ⟨S1, .i32⟩
  | .hbm, ⟨8, _⟩ => ⟨S32, .i32⟩
  | .hbm, ⟨9, _⟩ => ⟨S32, .f32⟩
  | .hbm, ⟨10, _⟩ => ⟨S26x16384x128, .f32⟩
  | .hbm, ⟨11, _⟩ => ⟨S26x16384x128, .f32⟩
  | .hbm, ⟨12, _⟩ => ⟨S16384x26x128, .f32⟩
  | .local .tc .vmem, ⟨0, _⟩ => ⟨S26x1024x128, .f32⟩
  | .local .tc .vmem, ⟨1, _⟩ => ⟨S26x1024x128, .f32⟩
  | .local .tc .vmem, ⟨2, _⟩ => ⟨S26x1024x128, .f32⟩
  | .local .tc .vmem, ⟨3, _⟩ => ⟨S26x1024x128, .f32⟩
  | .local .tc .smem, ⟨0, _⟩ => ⟨S32, .f32⟩
  | .local .scVector .vmem, ⟨0, _⟩ => ⟨S32, .i32⟩
  | .local .scVector .vmem, ⟨1, _⟩ => ⟨S32, .f32⟩
  | _, _ => ⟨S26x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v3_scv : Ref sig .scVector := ⟨.hbm, 8, rfl⟩
abbrev main_arg2_scv : Ref sig .scVector := ⟨.hbm, 2, rfl⟩
abbrev main_v4_scv : Ref sig .scVector := ⟨.hbm, 9, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev grid1 : Pipeline.Grid := ⟨1, ![16], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .smem S32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S26x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S26x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S32 : S_.BroadcastsInDim S32 (![] : Fin 0 → Fin S32.rank)
  shapeCasts_S26x1_S26 : S26x1.ShapeCasts S26
  bcast_S_S1 : S_.BroadcastsInDim S1 (![] : Fin 0 → Fin S1.rank)
  inb_S100_S100_0 : ∀ a, (![0] : Fin 1 → Nat) a + S100.size a ≤ S100.size a
  gathers_S100_S32 : S100.Gathers 0 S32
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  transposes_S16384x26x128_S26x16384x128_1_0_2 : S16384x26x128.Transposes [1, 0, 2] S26x16384x128
  inb_S26x1024x128_S1x1024x128_0_0_0 : ∀ a, (![0, 0, 0] : Fin 3 → Nat) a + S1x1024x128.size a ≤ S26x1024x128.size a
  h_S1x1024x128 : 0 < S1x1024x128.numel
  shapeCasts_S1x1024x128_S1024x128 : S1x1024x128.ShapeCasts S1024x128
  inb_S32_S1_0 : ∀ a, (![0] : Fin 1 → Nat) a + S1.size a ≤ S32.size a
  numel1_S1 : S1.numel = 1
  shapeCasts_S1024x128_S1x1024x128 : S1024x128.ShapeCasts S1x1024x128
  inb_S26x1024x128_S1x1024x128_1_0_0 : ∀ a, (![1, 0, 0] : Fin 3 → Nat) a + S1x1024x128.size a ≤ S26x1024x128.size a
  inb_S32_S1_1 : ∀ a, (![1] : Fin 1 → Nat) a + S1.size a ≤ S32.size a
  inb_S26x1024x128_S1x1024x128_2_0_0 : ∀ a, (![2, 0, 0] : Fin 3 → Nat) a + S1x1024x128.size a ≤ S26x1024x128.size a
  inb_S32_S1_2 : ∀ a, (![2] : Fin 1 → Nat) a + S1.size a ≤ S32.size a
  inb_S26x1024x128_S1x1024x128_3_0_0 : ∀ a, (![3, 0, 0] : Fin 3 → Nat) a + S1x1024x128.size a ≤ S26x1024x128.size a
  inb_S32_S1_3 : ∀ a, (![3] : Fin 1 → Nat) a + S1.size a ≤ S32.size a
  inb_S26x1024x128_S1x1024x128_4_0_0 : ∀ a, (![4, 0, 0] : Fin 3 → Nat) a + S1x1024x128.size a ≤ S26x1024x128.size a
  inb_S32_S1_4 : ∀ a, (![4] : Fin 1 → Nat) a + S1.size a ≤ S32.size a
  inb_S26x1024x128_S1x1024x128_5_0_0 : ∀ a, (![5, 0, 0] : Fin 3 → Nat) a + S1x1024x128.size a ≤ S26x1024x128.size a
  inb_S32_S1_5 : ∀ a, (![5] : Fin 1 → Nat) a + S1.size a ≤ S32.size a
  inb_S26x1024x128_S1x1024x128_6_0_0 : ∀ a, (![6, 0, 0] : Fin 3 → Nat) a + S1x1024x128.size a ≤ S26x1024x128.size a
  inb_S32_S1_6 : ∀ a, (![6] : Fin 1 → Nat) a + S1.size a ≤ S32.size a
  inb_S26x1024x128_S1x1024x128_7_0_0 : ∀ a, (![7, 0, 0] : Fin 3 → Nat) a + S1x1024x128.size a ≤ S26x1024x128.size a
  inb_S32_S1_7 : ∀ a, (![7] : Fin 1 → Nat) a + S1.size a ≤ S32.size a
  inb_S26x1024x128_S1x1024x128_8_0_0 : ∀ a, (![8, 0, 0] : Fin 3 → Nat) a + S1x1024x128.size a ≤ S26x1024x128.size a
  inb_S32_S1_8 : ∀ a, (![8] : Fin 1 → Nat) a + S1.size a ≤ S32.size a
  inb_S26x1024x128_S1x1024x128_9_0_0 : ∀ a, (![9, 0, 0] : Fin 3 → Nat) a + S1x1024x128.size a ≤ S26x1024x128.size a
  inb_S32_S1_9 : ∀ a, (![9] : Fin 1 → Nat) a + S1.size a ≤ S32.size a
  inb_S26x1024x128_S1x1024x128_10_0_0 : ∀ a, (![10, 0, 0] : Fin 3 → Nat) a + S1x1024x128.size a ≤ S26x1024x128.size a
  inb_S32_S1_10 : ∀ a, (![10] : Fin 1 → Nat) a + S1.size a ≤ S32.size a
  inb_S26x1024x128_S1x1024x128_11_0_0 : ∀ a, (![11, 0, 0] : Fin 3 → Nat) a + S1x1024x128.size a ≤ S26x1024x128.size a
  inb_S32_S1_11 : ∀ a, (![11] : Fin 1 → Nat) a + S1.size a ≤ S32.size a
  inb_S26x1024x128_S1x1024x128_12_0_0 : ∀ a, (![12, 0, 0] : Fin 3 → Nat) a + S1x1024x128.size a ≤ S26x1024x128.size a
  inb_S32_S1_12 : ∀ a, (![12] : Fin 1 → Nat) a + S1.size a ≤ S32.size a
  inb_S26x1024x128_S1x1024x128_13_0_0 : ∀ a, (![13, 0, 0] : Fin 3 → Nat) a + S1x1024x128.size a ≤ S26x1024x128.size a
  inb_S32_S1_13 : ∀ a, (![13] : Fin 1 → Nat) a + S1.size a ≤ S32.size a
  inb_S26x1024x128_S1x1024x128_14_0_0 : ∀ a, (![14, 0, 0] : Fin 3 → Nat) a + S1x1024x128.size a ≤ S26x1024x128.size a
  inb_S32_S1_14 : ∀ a, (![14] : Fin 1 → Nat) a + S1.size a ≤ S32.size a
  inb_S26x1024x128_S1x1024x128_15_0_0 : ∀ a, (![15, 0, 0] : Fin 3 → Nat) a + S1x1024x128.size a ≤ S26x1024x128.size a
  inb_S32_S1_15 : ∀ a, (![15] : Fin 1 → Nat) a + S1.size a ≤ S32.size a
  inb_S26x1024x128_S1x1024x128_16_0_0 : ∀ a, (![16, 0, 0] : Fin 3 → Nat) a + S1x1024x128.size a ≤ S26x1024x128.size a
  inb_S32_S1_16 : ∀ a, (![16] : Fin 1 → Nat) a + S1.size a ≤ S32.size a
  inb_S26x1024x128_S1x1024x128_17_0_0 : ∀ a, (![17, 0, 0] : Fin 3 → Nat) a + S1x1024x128.size a ≤ S26x1024x128.size a
  inb_S32_S1_17 : ∀ a, (![17] : Fin 1 → Nat) a + S1.size a ≤ S32.size a
  inb_S26x1024x128_S1x1024x128_18_0_0 : ∀ a, (![18, 0, 0] : Fin 3 → Nat) a + S1x1024x128.size a ≤ S26x1024x128.size a
  inb_S32_S1_18 : ∀ a, (![18] : Fin 1 → Nat) a + S1.size a ≤ S32.size a
  inb_S26x1024x128_S1x1024x128_19_0_0 : ∀ a, (![19, 0, 0] : Fin 3 → Nat) a + S1x1024x128.size a ≤ S26x1024x128.size a
  inb_S32_S1_19 : ∀ a, (![19] : Fin 1 → Nat) a + S1.size a ≤ S32.size a
  inb_S26x1024x128_S1x1024x128_20_0_0 : ∀ a, (![20, 0, 0] : Fin 3 → Nat) a + S1x1024x128.size a ≤ S26x1024x128.size a
  inb_S32_S1_20 : ∀ a, (![20] : Fin 1 → Nat) a + S1.size a ≤ S32.size a
  inb_S26x1024x128_S1x1024x128_21_0_0 : ∀ a, (![21, 0, 0] : Fin 3 → Nat) a + S1x1024x128.size a ≤ S26x1024x128.size a
  inb_S32_S1_21 : ∀ a, (![21] : Fin 1 → Nat) a + S1.size a ≤ S32.size a
  inb_S26x1024x128_S1x1024x128_22_0_0 : ∀ a, (![22, 0, 0] : Fin 3 → Nat) a + S1x1024x128.size a ≤ S26x1024x128.size a
  inb_S32_S1_22 : ∀ a, (![22] : Fin 1 → Nat) a + S1.size a ≤ S32.size a
  inb_S26x1024x128_S1x1024x128_23_0_0 : ∀ a, (![23, 0, 0] : Fin 3 → Nat) a + S1x1024x128.size a ≤ S26x1024x128.size a
  inb_S32_S1_23 : ∀ a, (![23] : Fin 1 → Nat) a + S1.size a ≤ S32.size a
  inb_S26x1024x128_S1x1024x128_24_0_0 : ∀ a, (![24, 0, 0] : Fin 3 → Nat) a + S1x1024x128.size a ≤ S26x1024x128.size a
  inb_S32_S1_24 : ∀ a, (![24] : Fin 1 → Nat) a + S1.size a ≤ S32.size a
  inb_S26x1024x128_S1x1024x128_25_0_0 : ∀ a, (![25, 0, 0] : Fin 3 → Nat) a + S1x1024x128.size a ≤ S26x1024x128.size a
  inb_S32_S1_25 : ∀ a, (![25] : Fin 1 → Nat) a + S1.size a ≤ S32.size a
  transposes_S26x16384x128_S16384x26x128_1_0_2 : S26x16384x128.Transposes [1, 0, 2] S16384x26x128
  scatter_S32_S1_S26_0_n_0_0_wf : ScatterDims.WF S32 S1 S26 [0] [] [0] 0
  hcc0_scratch2 : 0 + S_.numel ≤ 8
  hcc0_scoped0 : 1 + S_.numel ≤ 8
  hcc0_scoped1 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S32.size a ≤ S32.size a
  hwx1_0 : ∀ i : grid1.Coords, EltTy.bits .f32 = 32 ∨ (Rect.block (s := S32) S32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S26x1024x128.size a ≤ S26x16384x128.size a
  hwx1_1 : ∀ i : grid1.Coords, EltTy.bits .f32 = 32 ∨ (Rect.block (s := S26x16384x128) S26x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S26x1024x128.size a ≤ S26x16384x128.size a
  hwx1_2 : ∀ i : grid1.Coords, EltTy.bits .f32 = 32 ∨ (Rect.block (s := S26x16384x128) S26x1024x128.size (cc1_transform_2 i) (hinb1_2 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def scatter_S32_S1_S26_0_n_0_0 : ScatterDims S32 S1 S26 where
  updateWindowDims := [0]
  insertedWindowDims := []
  scatterDimsToOperandDims := [0]
  indexVectorDim := 0
  wf := scatter_S32_S1_S26_0_n_0_0_wf

abbrev win1_0 : Pipeline.Window sig grid1 :=
  Pipeline.Window.ofSpec (Memref.whole main_v4) S32.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S26x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S26x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S26x1 : Shape := ⟨2, ![26, 1]⟩
abbrev S16384x26x128 : Shape := ⟨3, ![16384, 26, 128]⟩
abbrev S100 : Shape := ⟨1, ![100]⟩
abbrev S_ : Shape := ⟨0, ![]⟩
abbrev S26x1x1 : Shape := ⟨3, ![26, 1, 1]⟩
abbrev S1 : Shape := ⟨1, ![1]⟩
abbrev S1x1x1 : Shape := ⟨3, ![1, 1, 1]⟩
abbrev S1x26x1 : Shape := ⟨3, ![1, 26, 1]⟩

abbrev nBuf : Space → Nat
  | .hbm => 36
  | .vmem => 0
  | .smem => 0
  | _ => 0

abbrev bufTy : (tb : Table) → Fin (tcTables nBuf tb) → BufTy
  | .hbm, ⟨0, _⟩ => ⟨S26x1, .i32⟩
  | .hbm, ⟨1, _⟩ => ⟨S16384x26x128, .f32⟩
  | .hbm, ⟨2, _⟩ => ⟨S100, .f32⟩
  | .hbm, ⟨3, _⟩ => ⟨S_, .i32⟩
  | .hbm, ⟨4, _⟩ => ⟨S26x1, .i32⟩
  | .hbm, ⟨5, _⟩ => ⟨S26x1, .i1⟩
  | .hbm, ⟨6, _⟩ => ⟨S_, .i32⟩
  | .hbm, ⟨7, _⟩ => ⟨S26x1, .i32⟩
  | .hbm, ⟨8, _⟩ => ⟨S26x1, .i32⟩
  | .hbm, ⟨9, _⟩ => ⟨S26x1, .i32⟩
  | .hbm, ⟨10, _⟩ => ⟨S26x1x1, .i32⟩
  | .hbm, ⟨11, _⟩ => ⟨S1, .i32⟩
  | .hbm, ⟨12, _⟩ => ⟨S_, .i32⟩
  | .hbm, ⟨13, _⟩ => ⟨S26x1x1, .i32⟩
  | .hbm, ⟨14, _⟩ => ⟨S26x1x1, .i1⟩
  | .hbm, ⟨15, _⟩ => ⟨S1x1x1, .i32⟩
  | .hbm, ⟨16, _⟩ => ⟨S26x1x1, .i32⟩
  | .hbm, ⟨17, _⟩ => ⟨S26x1x1, .i1⟩
  | .hbm, ⟨18, _⟩ => ⟨S26x1x1, .i1⟩
  | .hbm, ⟨19, _⟩ => ⟨S_, .i1⟩
  | .hbm, ⟨20, _⟩ => ⟨S26x1, .i1⟩
  | .hbm, ⟨21, _⟩ => ⟨S26x1, .f32⟩
  | .hbm, ⟨22, _⟩ => ⟨S_, .f32⟩
  | .hbm, ⟨23, _⟩ => ⟨S26x1, .f32⟩
  | .hbm, ⟨24, _⟩ => ⟨S26x1, .f32⟩
  | .hbm, ⟨25, _⟩ => ⟨S26x1, .f32⟩
  | .hbm, ⟨26, _⟩ => ⟨S26x1, .f32⟩
  | .hbm, ⟨27, _⟩ => ⟨S_, .f32⟩
  | .hbm, ⟨28, _⟩ => ⟨S26x1, .f32⟩
  | .hbm, ⟨29, _⟩ => ⟨S26x1, .f32⟩
  | .hbm, ⟨30, _⟩ => ⟨S_, .f32⟩
  | .hbm, ⟨31, _⟩ => ⟨S26x1, .f32⟩
  | .hbm, ⟨32, _⟩ => ⟨S26x1, .f32⟩
  | .hbm, ⟨33, _⟩ => ⟨S1x26x1, .f32⟩
  | .hbm, ⟨34, _⟩ => ⟨S16384x26x128, .f32⟩
  | .hbm, ⟨35, _⟩ => ⟨S16384x26x128, .f32⟩
  | _, _ => ⟨S26x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]

class Facts₀ : Prop where
  bcast_S_S26x1 : S_.BroadcastsInDim S26x1 (![] : Fin 0 → Fin S26x1.rank)
  bcast_S26x1_S26x1x1_0_1 : S26x1.BroadcastsInDim S26x1x1 (![0, 1] : Fin 2 → Fin S26x1x1.rank)
  bcast_S_S26x1x1 : S_.BroadcastsInDim S26x1x1 (![] : Fin 0 → Fin S26x1x1.rank)
  bcast_S1_S1x1x1_2 : S1.BroadcastsInDim S1x1x1 (![2] : Fin 1 → Fin S1x1x1.rank)
  bcast_S1x1x1_S26x1x1_0_1_2 : S1x1x1.BroadcastsInDim S26x1x1 (![0, 1, 2] : Fin 3 → Fin S26x1x1.rank)
  reducesTo_S26x1x1_S26x1_d2 : S26x1x1.ReducesTo [2] S26x1
  h_S_ : 0 < S_.numel
  bcast_S26x1_S1x26x1_1_2 : S26x1.BroadcastsInDim S1x26x1 (![1, 2] : Fin 2 → Fin S1x26x1.rank)
  bcast_S1x26x1_S16384x26x128_0_1_2 : S1x26x1.BroadcastsInDim S16384x26x128 (![0, 1, 2] : Fin 3 → Fin S16384x26x128.rank)
  gather_S100_S26x1x1_S26x1_n_0_n_n_0_2_1_wf : GatherDims.WF S100 S26x1x1 S26x1 [] [0] [] [0] [] 2 ![1]

variable [Facts₀]

def gather_S100_S26x1x1_S26x1_n_0_n_n_0_2_1 : GatherDims S100 S26x1x1 S26x1 where
  offsetDims := []
  collapsedSliceDims := [0]
  operandBatchingDims := []
  startIndicesBatchingDims := []
  startIndexMap := [0]
  indexVectorDim := 2
  sliceSizes := ![1]
  wf := gather_S100_S26x1x1_S26x1_n_0_n_n_0_2_1_wf

class Facts : Prop extends Facts₀ where

variable [Facts]
-- ==== Proof.Kernel.World.lean ====
/-
  The program as the launch theorem of a SparseCore program sees it, and the vocabulary the body, region and launch modules share:
  the configuration, the ghost state (the handshakes' rounds, the staging cells' rounds of the one TensorCore region, the
  transfers' counters, side by side), the locations of the arrays the SparseCore call and the TensorCore region exchange, the two
  pure functions they compute, and what the call's handshakes carry.

  The SparseCore call reads the padded index vector `ip` (32 words) and the table `lw` (100 entries) and writes the scale vector:
  lane `k` of it is `1 / (1 + exp (0 - lw (row k)))` at the table position `row k` word `k` names. Only vector subcore 0 of SparseCore 0
  works; it is handed the three arrays whole and hands them back, the scale vector written; every other subcore is handed nothing.
  The TensorCore region then multiplies row `j` of a [26, 16384, 128] array by lane `j` of the scale vector.
-/
import proofs.«205909_g45389214384387_cont_8to1c4_201_25_alg».proof.Kernel
import proofs.«205909_g45389214384387_cont_8to1c4_201_25_alg».proof.Proof.Gen.Kernel
import proofs.«205909_g45389214384387_cont_8to1c4_201_25_alg».proof.Proof.Gen.Kernel.Skeleton
import proofs.«205909_g45389214384387_cont_8to1c4_201_25_alg».proof.Proof.Gen.Kernel.Launch
import proofs.«205909_g45389214384387_cont_8to1c4_201_25_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The staging cells' rounds: the left of the right component (the counters are found by instance in its right). -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays the call and the region exchange -/

abbrev a0Loc (d : Dev nD) : Loc nD τ sig := (SparseCore.T d).loc main_arg0
abbrev a1Loc (d : Dev nD) : Loc nD τ sig := (SparseCore.T d).loc main_arg1
abbrev lwLoc (d : Dev nD) : Loc nD τ sig := (SparseCore.T d).loc main_arg2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6
abbrev v7Loc (d : Dev nD) : Loc nD τ sig := (SparseCore.T d).loc main_v7

variable [FloatOps F]

/-! ## The two pure functions -/

/-- The table position an index word names (clamped to the last position, so that it is total). -/
def rowT (w : BitVec 32) : Fin 100 := ⟨min w.toNat 99, by omega⟩

/-- One lane of the scale vector from its table entry: `1 / (1 + exp (0 - x))`, in the operations' own spelling. -/
def sigLane (x : F .f32) : F .f32 :=
  FloatOps.divf (Scalar.ofBits .f32 0x3F800000#32)
    (FloatOps.addf (Scalar.ofBits .f32 0x3F800000#32) (FloatOps.exp (FloatOps.subf (Scalar.ofBits .f32 0x00000000#32) x)))

/-- The scale vector: lane `k` from the table entry index word `k` names. -/
def sigOf (ip : IVec S32 32) (lw : FVec F S100 .f32) : FVec F S32 .f32 := fun k => sigLane (lw (ix1 (rowT (ip k))))

/-- The region's result: row `j` of `x` times lane `j` of the scale vector. -/
def tcOut (sg : FVec F S32 .f32) (x : FVec F S26x16384x128 .f32) : FVec F S26x16384x128 .f32 :=
  fun i => FloatOps.mulf (x i) (sg (ix1 (Fin.castLE (by decide) (i 0) : Fin 32)))

/-! ## What the handshakes carry -/

variable (m : (ℓ : Loc nD τ sig) → Buf (Elt F) ℓ) (ip : (d : Dev nD) → Buf (Elt F) (v3Loc d))

/-- The three arrays of the call, whole: the index vector and the table at their contents, the scale vector at anything. -/
abbrev callIn (d : Dev nD) : sProp 𝕄 :=
  iprop((v3Loc d ↦{fullShare} ip d) ∗ (lwLoc d ↦{fullShare} m (lwLoc d)) ∗ ∃ f, v4Loc d ↦{fullShare} f)
/-- The same with the scale vector written. -/
abbrev callOut (d : Dev nD) : sProp 𝕄 :=
  iprop((v3Loc d ↦{fullShare} ip d) ∗ (lwLoc d ↦{fullShare} m (lwLoc d)) ∗ v4Loc d ↦{fullShare} sigOf (ip d) (m (lwLoc d)))

/-- What SparseCore number `c` is handed and hands back: the arrays for SparseCore 0, nothing for the other. -/
def coreIn (d : Dev nD) (c : ℕ) : sProp 𝕄 := if c = 0 then callIn m ip d else iprop(emp)
def coreOut (d : Dev nD) (c : ℕ) : sProp 𝕄 := if c = 0 then callOut m ip d else iprop(emp)
/-- What vector subcore `i` of SparseCore `c` is handed and hands back: the arrays for subcore 0 of SparseCore 0, nothing for the others. -/
def tileIn (d : Dev nD) (c i : ℕ) : sProp 𝕄 := if c = 0 ∧ i = 0 then callIn m ip d else iprop(emp)
def tileOut (d : Dev nD) (c i : ℕ) : sProp 𝕄 := if c = 0 ∧ i = 0 then callOut m ip d else iprop(emp)

instance coreIn_storable (d : Dev nD) (c : ℕ) : BI.Storable (upEmb : UEmb _ 𝕄) (coreIn m ip d c) := by unfold coreIn; split <;> infer_instance
instance coreOut_storable (d : Dev nD) (c : ℕ) : BI.Storable (upEmb : UEmb _ 𝕄) (coreOut m ip d c) := by unfold coreOut; split <;> infer_instance
instance tileIn_storable (d : Dev nD) (c i : ℕ) : BI.Storable (upEmb : UEmb _ 𝕄) (tileIn m ip d c i) := by unfold tileIn; split <;> infer_instance
instance tileOut_storable (d : Dev nD) (c i : ℕ) : BI.Storable (upEmb : UEmb _ 𝕄) (tileOut m ip d c i) := by unfold tileOut; split <;> infer_instance

/-- The one call's payloads; the kernel's proof consumes nothing of the launch's. -/
def P : (K (F := F)).Pay (nD := nD) (Val := Elt F) (Name := ℕ) (U := UU) where
  st := fun _ d c => coreIn m ip d c.val
  dn := fun _ d c => coreOut m ip d c.val
  go := fun _ d c i => tileIn m ip d c.val i.val
  td := fun _ d c i => tileOut m ip d c.val i.val
  x := fun _ _ => iprop(emp)

instance P_storable : (P (F := F) m ip).IsStorable where
  st _ d c := by unfold P; infer_instance
  dn _ d c := by unfold P; infer_instance
  go _ _ _ _ := by unfold P; infer_instance
  td _ _ _ _ := by unfold P; infer_instance

end Cert.Kernel.Hand

end
-- ==== Proof.LibHeld.lean ====
/-
  Buffers held whole, read against a machine state and regrouped.

  A set of a thread's buffers held whole at a valuation determines the machine's memory on every buffer of the
  set; and a held set splits at any subset, the two parts at valuations that may differ off their own part.
-/
import Idealize.ShloMosaic.Lib.StableHlo.Run
import Idealize.ShloMosaic.Rules.Auth

noncomputable section

namespace Cert.LibHeld

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- Every buffer of a held set reads, in the machine's memory, what the valuation says. -/
theorem held_agree (c : Thread nD τ) (V : Valuation τ sig Val) (st : Phys nD τ sig Val) :
    ∀ S : Finset (DevRef τ sig), iprop(SI st ∗ (held c S V : sProp 𝕄)) ⊢ (⌜∀ b ∈ S, st.mem.mem (c.1, b) = V b⌝ : sProp 𝕄) := by
  intro S
  induction S using Finset.induction_on with
  | empty =>
    iintro -; ipureintro; intro b hb; exact absurd hb (Finset.notMem_empty b)
  | insert a s ha ih =>
    rw [show (held c (insert a s) V : sProp 𝕄) = iprop(((c.1, a) ↦{fullShare} V a) ∗ held c s V) from by unfold held; rw [bigSep_insert ha]; rfl]
    iintro ⟨HSI, Ha, Hs⟩
    ihave H := (persistent_entails_right (SI_pointsTo_agree (st := st) (ℓ := (c.1, a)) (I := Finset.univ) (q := fullShare) (f := V a))) $$ [HSI Ha]
    · isplitl [HSI] <;> iassumption
    icases H with ⟨%h1, HSI, -⟩
    ihave H2 := ih $$ [HSI Hs]
    · isplitl [HSI] <;> iassumption
    icases H2 with %h2
    ipureintro
    intro b hb
    rcases Finset.mem_insert.mp hb with rfl | hb
    · exact funext fun i => h1 i (Finset.mem_univ i)
    · exact h2 b hb

/-- A held set splits at a subset; the part outside the subset may be read at any valuation that agrees there. -/
theorem held_split_at {c : Thread nD τ} {T S : Finset (DevRef τ sig)} (hT : T ⊆ S) (V V' : Valuation τ sig Val)
    (h : ∀ b ∈ S \ T, V' b = V b) :
    (held c S V' : sProp 𝕄) = iprop(held c T V' ∗ held c (S \ T) V) := by
  rw [held_sub_split c hT V', held_congr c h]

end Cert.LibHeld

end
-- ==== Proof.Kernel.HostOps.lean ====
/-
  @main's host side on the TensorCore: the thirteen arrays it holds whole, its eight host operations as operation records
  (six before the SparseCore call: zeros, the reshape of the 26 index words, and the scatter that writes them into the first 26
  of 32 zero words; one transposition before the TensorCore region and one after it), the valuation those six leave, and the
  padded index vector the call reads.
-/
import proofs.«205909_g45389214384387_cont_8to1c4_201_25_alg».proof.Proof.Kernel.World
import proofs.«205909_g45389214384387_cont_8to1c4_201_25_alg».proof.Proof.LibHeld

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type} [FloatOps F]

local notation "𝕄" => MT nD τ sig (HIx 1) (Elt F) ℕ UU ℕ

/-! ## The TensorCore's arrays and @main's host operations -/

abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_c : DevRef τ sig := Proc.devRef .tc (main_c : Ref sig .tc)
abbrev r_v0 : DevRef τ sig := Proc.devRef .tc (main_v0 : Ref sig .tc)
abbrev r_v1 : DevRef τ sig := Proc.devRef .tc (main_v1 : Ref sig .tc)
abbrev r_c0 : DevRef τ sig := Proc.devRef .tc (main_c_0 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)

/-- The TensorCore's arrays, all unscoped. -/
abbrev S13 : Finset (DevRef τ sig) := {r_a0, r_a1, r_a2, r_c, r_v0, r_v1, r_c0, r_v2, r_v3, r_v4, r_v5, r_v6, r_v7}

abbrev op1 : HloOp τ sig (Elt F) := StableHlo.nullary main_c (constantI S_ 32 0#32)
abbrev op2 : HloOp τ sig (Elt F) := StableHlo.unary main_c main_v0 (broadcastInDim S32 ![] bcast_S_S32 : (⟨S_, .i32⟩ : BufTy).Contents (Elt F) → (⟨S32, .i32⟩ : BufTy).Contents (Elt F))
abbrev op3 : HloOp τ sig (Elt F) := StableHlo.reshape main_arg0 main_v1 rfl shapeCasts_S26x1_S26
abbrev op4 : HloOp τ sig (Elt F) := StableHlo.nullary main_c_0 (constantI S_ 32 0#32)
abbrev op5 : HloOp τ sig (Elt F) := StableHlo.unary main_c_0 main_v2 (broadcastInDim S1 ![] bcast_S_S1 : (⟨S_, .i32⟩ : BufTy).Contents (Elt F) → (⟨S1, .i32⟩ : BufTy).Contents (Elt F))
abbrev op6 : HloOp τ sig (Elt F) := StableHlo.ternary main_v0 main_v2 main_v1 main_v3 ((fun x i u => Host.scatter scatter_S32_S1_S26_0_n_0_0 (fun _ b => b) x i u) : (⟨S32, .i32⟩ : BufTy).Contents (Elt F) → (⟨S1, .i32⟩ : BufTy).Contents (Elt F) → (⟨S26, .i32⟩ : BufTy).Contents (Elt F) → (⟨S32, .i32⟩ : BufTy).Contents (Elt F))
abbrev op7 : HloOp τ sig (Elt F) := StableHlo.unary main_arg1 main_v5 ((transpose S26x16384x128 [1, 0, 2] · transposes_S16384x26x128_S26x16384x128_1_0_2) : (⟨S16384x26x128, .f32⟩ : BufTy).Contents (Elt F) → (⟨S26x16384x128, .f32⟩ : BufTy).Contents (Elt F))
abbrev op8 : HloOp τ sig (Elt F) := StableHlo.unary main_v6 main_v7 ((transpose S16384x26x128 [1, 0, 2] · transposes_S26x16384x128_S16384x26x128_1_0_2) : (⟨S26x16384x128, .f32⟩ : BufTy).Contents (Elt F) → (⟨S16384x26x128, .f32⟩ : BufTy).Contents (Elt F))

variable (m : (ℓ : Loc nD τ sig) → Buf (Elt F) ℓ) (ρ : Dev nD → PrngReg)

/-- The launch valuation of device `d`'s arrays. -/
def V0 (d : Dev nD) : Valuation τ sig (Elt F) := fun b => m (d, b)
/-- After the six host operations before the SparseCore call. -/
def V6 (d : Dev nD) : Valuation τ sig (Elt F) :=
  (op6 (F := F)).result ((op5 (F := F)).result ((op4 (F := F)).result ((op3 (F := F)).result ((op2 (F := F)).result ((op1 (F := F)).result (V0 m d))))))

/-- The padded index vector the call reads: what the six operations leave in its buffer. -/
def ipOf (d : Dev nD) : Buf (Elt F) (v3Loc d) := V6 m d r_v3

omit [FloatOps F] in
/-- What the launch deals the TensorCore is the thirteen arrays held at the launch valuation. -/
theorem unscoped_held (d : Dev nD) : (unscopedBufs d (fun b => m ((SparseCore.T d).loc b)) : sProp 𝕄) = held (T d) S13 (V0 m d) := by
  unfold unscopedBufs held S13
  rw [show (Finset.univ.filter fun b : Ref sig .tc => ¬ b.isScoped)
      = {main_arg0, main_arg1, main_arg2, main_c, main_v0, main_v1, main_c_0, main_v2, main_v3, main_v4, main_v5, main_v6, main_v7} by decide]
  repeat rw [SparseCore.bigSep_insert' (by decide)]
  rw [bigSep_singleton, bigSep_singleton]
  rfl

end Cert.Kernel.Hand

end
-- ==== Proof.Spec.lean ====
/-
  The specification both programs meet, as ONE function of the three argument arrays, index by index, on the
  extended reals. Row `j` of the 26 rows of `feat[b, j, d]` is scaled by the logistic of one table entry:
      G idx feat lw (b, j, d) = feat (b, j, d) * ( 1 / (1 + exp (-(lw (row idx j)))) ),
  where `row idx j` is the table position the index word `idx (j, 0)` names. The word is read as a natural and
  clamped to the table's last position, so that the function is total; under `InRange` (every word below 100) the
  clamp is the identity and the signed and the unsigned reading of the word agree.
  The float literal `1` stays the pattern `0x3F800000`: both programs spell it with that word, so it is never
  evaluated.
-/
import Idealize.ShloMosaic.PureOps.Ideal
import Idealize.ShloMosaic.Lib.ValueIdx

noncomputable section

namespace Cert.Spec

open Idealize.ShloMosaic Idealize.ShloMosaic.ValueIdx

abbrev S26x1 : Shape := ⟨2, ![26, 1]⟩
abbrev S16384x26x128 : Shape := ⟨3, ![16384, 26, 128]⟩
abbrev S100 : Shape := ⟨1, ![100]⟩

/-- Every index word names a position of the 100-entry table. -/
def InRange (idx : IVec S26x1 32) : Prop := ∀ j : Fin 26, (idx (ix2 j (0 : Fin 1))).toNat < 100

/-- The table position index word `j` names (clamped to the last position, so that it is total). -/
def row (idx : IVec S26x1 32) (j : Fin 26) : Fin 100 := ⟨min (idx (ix2 j (0 : Fin 1))).toNat 99, by omega⟩

theorem row_val (idx : IVec S26x1 32) (h : InRange idx) (j : Fin 26) : (row idx j).val = (idx (ix2 j (0 : Fin 1))).toNat := by
  have := h j
  show min _ 99 = _
  omega

/-- The float literal one, as both programs spell it. -/
abbrev one : EReal := Ideal.ofBits .f32 0x3F800000#32

/-- The logistic of an extended real, in the operations' own spelling: `1 / (1 + exp (-x))`. -/
def logistic (x : EReal) : EReal := Ideal.div one (one + Ideal.exp (-x))

/-- Row `j`'s scale: the logistic of the table entry its index word names. -/
def scale (idx : IVec S26x1 32) (lw : FVec Ideal S100 .f32) (j : Fin 26) : EReal := logistic (lw (ix1 (row idx j)))

/-- The result array: every entry of row `j` of `feat` times row `j`'s scale. -/
def G (idx : IVec S26x1 32) (feat : FVec Ideal S16384x26x128 .f32) (lw : FVec Ideal S100 .f32) : FVec Ideal S16384x26x128 .f32 :=
  fun i => feat i * scale idx lw (i 1)

theorem G_apply (idx : IVec S26x1 32) (feat : FVec Ideal S16384x26x128 .f32) (lw : FVec Ideal S100 .f32)
    (b : Fin 16384) (j : Fin 26) (d : Fin 128) : G idx feat lw (ix3 b j d) = feat (ix3 b j d) * scale idx lw j := rfl

end Cert.Spec

end
-- ==== Proof.LibScatterSet.lean ====
import Idealize.ShloMosaic.PureOps

/-!
# Reading a "set" scatter at an index

`Host.scatter d f x idx upd` is the left fold, over the update indices in row-major order, of the
step "replace the element at the update's result index by `f` of that element and the update's".
When the body returns the update (`f = fun _ b => b`) each step overwrites, and the value of the
result at an operand index `i` is

* the operand's own value `x i`, or the update's value `upd j` at some update index `j` whose
  result index is `i` (`scatter_set_cases`);
* `upd j` when `j` is the only update index whose result index is `i` (`scatter_set_of_unique`);
* `x i` when no update index has result index `i` (`scatter_set_of_none`).

The proofs go by induction along the fold, for an arbitrary list of update positions and an
arbitrary starting array, and then specialise to the list of all positions, in which every update
index `j` occurs (as position `u.rowMajor j`).
-/

namespace Cert.ScatterSet

open Idealize.ShloMosaic

variable {s si u : Shape} {α : Type} {w : Nat}

/-- One step of the fold of a scatter whose body returns the update: position `n` of the updates
    (in row-major order) overwrites the element at its result index, when it has one. -/
def step (d : ScatterDims s si u) (idx : IVec si w) (upd : u.Idx → α) (r : s.Idx → α)
    (n : Fin u.numel) : s.Idx → α :=
  match d.resultIdx? (u.rowMajor.symm n) idx with
  | some i => fun i' => if i' = i then upd (u.rowMajor.symm n) else r i'
  | none => r

/-- The scatter whose body returns the update is the fold of `step` over all update positions. -/
theorem scatter_eq_foldl (d : ScatterDims s si u) (x : s.Idx → α) (idx : IVec si w)
    (upd : u.Idx → α) :
    Host.scatter d (fun _ b => b) x idx upd = (List.finRange u.numel).foldl (step d idx upd) x :=
  rfl

/-- One step at an index `i`: either the position's result index is `i` and the new value is the
    update's, or the value at `i` is unchanged. -/
theorem step_cases (d : ScatterDims s si u) (idx : IVec si w) (upd : u.Idx → α) (r : s.Idx → α)
    (n : Fin u.numel) (i : s.Idx) :
    (d.resultIdx? (u.rowMajor.symm n) idx = some i ∧ step d idx upd r n i = upd (u.rowMajor.symm n))
      ∨ (d.resultIdx? (u.rowMajor.symm n) idx ≠ some i ∧ step d idx upd r n i = r i) := by
  unfold step
  cases h : d.resultIdx? (u.rowMajor.symm n) idx with
  | none => exact Or.inr ⟨by simp, rfl⟩
  | some i0 =>
    by_cases hi : i = i0
    · subst hi; exact Or.inl ⟨rfl, by simp⟩
    · refine Or.inr ⟨fun h' => hi (Option.some.inj h').symm, ?_⟩
      simp [hi]

/-- Along the fold over any list of positions, from any starting array `r`: the value at `i` is
    the starting one, or the update's at a listed position whose result index is `i`. -/
theorem foldl_cases (d : ScatterDims s si u) (idx : IVec si w) (upd : u.Idx → α)
    (l : List (Fin u.numel)) (r : s.Idx → α) (i : s.Idx) :
    l.foldl (step d idx upd) r i = r i
      ∨ ∃ n ∈ l, d.resultIdx? (u.rowMajor.symm n) idx = some i
          ∧ l.foldl (step d idx upd) r i = upd (u.rowMajor.symm n) := by
  induction l generalizing r with
  | nil => exact Or.inl rfl
  | cons n l ih =>
    rw [List.foldl_cons]
    rcases ih (step d idx upd r n) with h | ⟨n', hn', hres, hval⟩
    · rcases step_cases d idx upd r n i with ⟨hres, hval⟩ | ⟨_, hval⟩
      · exact Or.inr ⟨n, List.mem_cons_self, hres, h.trans hval⟩
      · exact Or.inl (h.trans hval)
    · exact Or.inr ⟨n', List.mem_cons_of_mem _ hn', hres, hval⟩

/-- Along the fold over a list of positions that contains `n₀`, whose result index is `i`, and no
    other position with result index `i`: the value at `i` is the update's at `n₀`. -/
theorem foldl_of_unique (d : ScatterDims s si u) (idx : IVec si w) (upd : u.Idx → α)
    (l : List (Fin u.numel)) (r : s.Idx → α) (i : s.Idx) (n₀ : Fin u.numel) (hmem : n₀ ∈ l)
    (hres : d.resultIdx? (u.rowMajor.symm n₀) idx = some i)
    (huniq : ∀ n ∈ l, d.resultIdx? (u.rowMajor.symm n) idx = some i → n = n₀) :
    l.foldl (step d idx upd) r i = upd (u.rowMajor.symm n₀) := by
  induction l generalizing r with
  | nil => exact absurd hmem List.not_mem_nil
  | cons n l ih =>
    rw [List.foldl_cons]
    by_cases hn : n = n₀
    · subst hn
      rcases foldl_cases d idx upd l (step d idx upd r n) i with h | ⟨n', hn', hres', hval⟩
      · rcases step_cases d idx upd r n i with ⟨_, hval⟩ | ⟨hne, _⟩
        · exact h.trans hval
        · exact absurd hres hne
      · rw [huniq n' (List.mem_cons_of_mem _ hn') hres'] at hval
        exact hval
    · have hmem' : n₀ ∈ l := by
        rcases List.mem_cons.1 hmem with h | h
        · exact absurd h.symm hn
        · exact h
      exact ih (step d idx upd r n) hmem' fun n' hn' => huniq n' (List.mem_cons_of_mem _ hn')

/-- **(A)** The result of a scatter whose body returns the update, at an operand index `i`: the
    operand's value there, or the update's value at an update index whose result index is `i`. -/
theorem scatter_set_cases (d : ScatterDims s si u) (x : s.Idx → α) (idx : IVec si w)
    (upd : u.Idx → α) (i : s.Idx) :
    Host.scatter d (fun _ b => b) x idx upd i = x i
      ∨ ∃ j, d.resultIdx? j idx = some i ∧ Host.scatter d (fun _ b => b) x idx upd i = upd j := by
  rw [scatter_eq_foldl]
  rcases foldl_cases d idx upd (List.finRange u.numel) x i with h | ⟨n, _, hres, hval⟩
  · exact Or.inl h
  · exact Or.inr ⟨u.rowMajor.symm n, hres, hval⟩

/-- **(B)** When `j` is the one update index whose result index is `i`, the result at `i` is the
    update's value at `j`. -/
theorem scatter_set_of_unique (d : ScatterDims s si u) (x : s.Idx → α) (idx : IVec si w)
    (upd : u.Idx → α) (i : s.Idx) (j : u.Idx) (hres : d.resultIdx? j idx = some i)
    (huniq : ∀ j', d.resultIdx? j' idx = some i → j' = j) :
    Host.scatter d (fun _ b => b) x idx upd i = upd j := by
  rw [scatter_eq_foldl]
  have h := foldl_of_unique d idx upd (List.finRange u.numel) x i (u.rowMajor j)
    (List.mem_finRange _) (by rw [Equiv.symm_apply_apply]; exact hres)
    (fun n _ hn => by
      have := huniq _ hn
      rw [← this, Equiv.apply_symm_apply])
  rw [Equiv.symm_apply_apply] at h
  exact h

/-- **(C)** When no update index has result index `i`, the result at `i` is the operand's value. -/
theorem scatter_set_of_none (d : ScatterDims s si u) (x : s.Idx → α) (idx : IVec si w)
    (upd : u.Idx → α) (i : s.Idx) (hnone : ∀ j, d.resultIdx? j idx ≠ some i) :
    Host.scatter d (fun _ b => b) x idx upd i = x i := by
  rcases scatter_set_cases d x idx upd i with h | ⟨j, hres, _⟩
  · exact h
  · exact absurd hres (hnone j)

/-- The result index of update index `j` is `i` exactly when, on every operand axis, the start of
    the window plus the window coordinate is `i`'s coordinate. -/
theorem resultIdx?_eq_some_iff (d : ScatterDims s si u) (idx : IVec si w) (j : u.Idx) (i : s.Idx) :
    d.resultIdx? j idx = some i
      ↔ ∀ a, d.start j idx a + (d.window j a : Int) = ((i a).val : Int) := by
  unfold ScatterDims.resultIdx?
  split
  · rename_i h
    constructor
    · intro he a
      have hi := Option.some.inj he
      subst hi
      have := (h a).1
      simp only
      omega
    · intro he
      congr 1
      funext a
      apply Fin.ext
      have := he a
      simp only
      omega
  · rename_i h
    constructor
    · intro he; exact absurd he (by simp)
    · intro he
      exfalso; apply h
      intro a
      have := he a
      have := (i a).isLt
      omega

end Cert.ScatterSet
-- ==== Proof.Kernel.PadIdx.lean ====
/-
  The padded index vector, read back. Before the SparseCore call the host builds a vector of 32 words: 32 zeros, into
  which the 26 index words (the [26, 1] array reshaped to [26]) are scattered as one window starting at position 0.
  The scatter's body returns the update, its one start index is 0 and its window is the whole update, so update j
  lands at position j and nowhere else: position j < 26 holds index word j, positions 26 to 31 keep the zero.
  Hence the first 26 words are the index words, and if every index word is below 100 so is every word of the vector.
  The three argument arrays are written by none of the six operations and keep their launch contents.
-/
import proofs.«205909_g45389214384387_cont_8to1c4_201_25_alg».proof.Proof.Kernel.HostOps
import proofs.«205909_g45389214384387_cont_8to1c4_201_25_alg».proof.Proof.Kernel.World
import proofs.«205909_g45389214384387_cont_8to1c4_201_25_alg».proof.Proof.Spec
import proofs.«205909_g45389214384387_cont_8to1c4_201_25_alg».proof.Proof.LibScatterSet
import Idealize.ShloMosaic.Lib.StableHlo.Run
import Idealize.ShloMosaic.Lib.Pipeline.Value

noncomputable section

namespace Cert.Kernel.Hand

open Cert.Kernel Cert.Kernel.Gen
open Idealize.ShloMosaic Idealize.ShloMosaic.ValueIdx
open Idealize.ShloMosaic.SparseCore (S V T)
open Idealize.ShloMosaic.StableHlo

variable {F : FTy → Type} [FloatOps F]
variable (m : (ℓ : Loc nD τ sig) → Buf (Elt F) ℓ)

/-- The valuation after the six operations is the fold of the six along the line. -/
theorem V6_eq_after (d : Dev nD) :
    V6 m d = StableHlo.after [op1 (F := F), op2, op3, op4, op5, op6] (V0 m d) := rfl

/-- The index words are not written by the six operations. -/
theorem V6_a0 (d : Dev nD) : V6 m d r_a0 = m (a0Loc d) := by
  rw [V6_eq_after]
  after_results
  rfl

/-- The feature array is not written by the six operations. -/
theorem V6_a1 (d : Dev nD) : V6 m d r_a1 = m (a1Loc d) := by
  rw [V6_eq_after]
  after_results
  rfl

/-- The table is not written by the six operations. -/
theorem V6_a2 (d : Dev nD) : V6 m d r_a2 = m (lwLoc d) := by
  rw [V6_eq_after]
  after_results
  rfl

/-- The padded index vector is the scatter of the reshaped index words into 32 zeros, at start index 0. -/
theorem ipOf_eq (d : Dev nD) : (ipOf m d : IVec S32 32)
    = Host.scatter scatter_S32_S1_S26_0_n_0_0 (fun _ b => b) (broadcastInDim S32 ![] bcast_S_S32 (constantI S_ 32 0#32))
        (broadcastInDim S1 ![] bcast_S_S1 (constantI S_ 32 0#32))
        (shapeCast S26 (m (a0Loc d) : IVec S26x1 32) shapeCasts_S26x1_S26) := by
  unfold ipOf
  rw [V6_eq_after]
  after_results
  rfl

/-- With every start index 0, the window of every update index starts at 0 on the one axis. -/
theorem pad_start_zero (idx : IVec S1 32) (h0 : ∀ k, idx k = 0#32) (j : S26.Idx) (a : Fin S32.rank) :
    scatter_S32_S1_S26_0_n_0_0.start j idx a = 0 := by
  unfold ScatterDims.start
  split
  · rw [h0]; decide
  · rfl

/-- The window coordinate of update index `j` on the one axis is `j`'s own coordinate. -/
theorem pad_window_eq (j : S26.Idx) (a : Fin S32.rank) : scatter_S32_S1_S26_0_n_0_0.window j a = (j 0).val := by
  match a with
  | ⟨0, _⟩ => rfl

/-- Update index `j` lands at position `i` exactly when the two have the same coordinate. -/
theorem pad_resultIdx?_iff (idx : IVec S1 32) (h0 : ∀ k, idx k = 0#32) (j : S26.Idx) (i : S32.Idx) :
    scatter_S32_S1_S26_0_n_0_0.resultIdx? j idx = some i ↔ (j 0).val = (i 0).val := by
  rw [Cert.ScatterSet.resultIdx?_eq_some_iff]
  constructor
  · intro h
    have := h 0
    rw [pad_start_zero idx h0, pad_window_eq] at this
    omega
  · intro h a
    match a with
    | ⟨0, _⟩ =>
      rw [pad_start_zero idx h0, pad_window_eq]
      show (0 : Int) + ((j 0).val : Int) = ((i 0).val : Int)
      omega

/-- The first 26 words of the padded index vector are the index words. -/
theorem ipOf_low (d : Dev nD) (j : Fin 26) :
    (ipOf m d : IVec S32 32) (ix1 (Fin.castLE (by decide) j : Fin 32)) = (m (a0Loc d) : IVec S26x1 32) (ix2 j (0 : Fin 1)) := by
  rw [ipOf_eq]
  refine (Cert.ScatterSet.scatter_set_of_unique _ _ _ _ (ix1 (Fin.castLE (by decide) j : Fin 32)) (ix1 j)
    ((pad_resultIdx?_iff _ (fun _ => rfl) _ _).2 rfl) (fun j' hj' => ?_)).trans ?_
  · have := (pad_resultIdx?_iff _ (fun _ => rfl) _ _).1 hj'
    rw [eq_ix1 j']
    exact congrArg ix1 (Fin.ext this)
  · exact shapeCast_apply _ _ (ix1 j) (ix2 j (0 : Fin 1)) (by
      rw [Shape.rowMajor_val_two, Shape.rowMajor_val_one]
      show j.val * 1 + 0 = j.val
      omega)

/-- If every index word is below 100, so is every word of the padded vector: the other six are 0. -/
theorem ipOf_lt (d : Dev nD) (h : Cert.Spec.InRange (m (a0Loc d) : IVec S26x1 32)) (x : S32.Idx) :
    ((ipOf m d : IVec S32 32) x).toNat < 100 := by
  obtain ⟨k, rfl⟩ : ∃ k : Fin 32, x = ix1 k := ⟨x 0, eq_ix1 x⟩
  by_cases hk : k.val < 26
  · have e : k = (Fin.castLE (by decide) (⟨k.val, hk⟩ : Fin 26) : Fin 32) := Fin.ext rfl
    rw [e, ipOf_low]
    exact h ⟨k.val, hk⟩
  · rw [ipOf_eq, Cert.ScatterSet.scatter_set_of_none _ _ _ _ (ix1 k) (fun j' hj' => by
      have e : (j' 0).val = k.val := (pad_resultIdx?_iff _ (fun _ => rfl) _ _).1 hj'
      have hlt : (j' 0).val < 26 := (j' 0).isLt
      omega)]
    show (0#32 : BitVec 32).toNat < 100
    decide

end Cert.Kernel.Hand

end
-- ==== Proof.Kernel.ScBody.lean ====
/-
  The SparseCore call's two obligations of the launch theorem: what one vector subcore's task does (`tileObl`), and how the
  call's arrays split among a SparseCore's sixteen vector subcores and join back (`vecSplit`).

  The task. Only the tile at grid coordinates (0, 0) works: the kernel's condition — "both coordinates are zero", computed as a
  word and compared with zero — holds there and nowhere else (`Sc.cond_iff`); every other tile returns at once, holding
  nothing of the call's and handing nothing back. The working tile copies the 32 index words into its index scratch and
  waits; gathers, by those words, 32 entries of the 100-entry table into its value scratch and waits — every word names a
  table position, being below 100, so lane `k` lands the table's entry at the position word `k` names
  (`Sc.gather_apply`) —; then replaces lanes 0–15 and lanes 16–31 of the value scratch, half by half, by
  `1 / (1 + exp (0 - x))` of what the half held (`Sc.pay1_apply`, `Sc.pay2_apply`). After the two half-stores the scratch
  reads, at every lane, that function of the landed entry (`Sc.scratch_read`: a lane below 16 is under the first store
  and not under the second; a lane from 16 on is under the second, whose operand was read off lanes the first store does
  not reach). The tile then copies the value scratch out to the scale vector and waits. So the scale vector is left at
  `sigOf`, the index vector and the table are unchanged, the two scratch buffers and the three semaphores (at zero) are
  handed back, and the three waits are recorded at the kernel's own index.

  The split. SparseCore 0's operands go whole to its tile 0, nothing to its other fifteen tiles; SparseCore 1 is handed
  nothing, and so are its tiles. The results join back the same way.
-/
import proofs.«205909_g45389214384387_cont_8to1c4_201_25_alg».proof.Proof.Kernel.World
import Idealize.ShloMosaic.Lib.Pipeline.Value
import Idealize.ShloMosaic.Lib.Pipeline.FrameBody
import Idealize.ShloMosaic.Lib.Writes

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Sc

/-! ## The kernel's memrefs, as the body table passes them -/

abbrev ipV : Memref sig .scVector .hbm S32 .i32 := Memref.whole main_v3_scv
abbrev lwV : Memref sig .scVector .hbm S100 .f32 := Memref.whole main_arg2_scv
abbrev sgV : Memref sig .scVector .hbm S32 .f32 := Memref.whole main_v4_scv
abbrev sI : Memref sig .scVector .vmem S32 .i32 := Memref.whole cc0_scratch0
abbrev sX : Memref sig .scVector .vmem S32 .f32 := Memref.whole cc0_scratch1

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_scales (coordsV c s)
          ipV (Memref.isWhole_whole _) lwV (Memref.isWhole_whole _) sgV (Memref.isWhole_whole _)
          sI (Memref.isWhole_whole _) sX (Memref.isWhole_whole _) cc0_scratch2 cc0_scoped0 cc0_scoped1) ⟨⟩ c s := rfl

/-- Which tile works: the kernel's condition holds exactly at grid coordinates (0, 0). -/
theorem cond_iff (L : grid0.Coords) :
    (Scalar.cmpi .ne (Scalar.extui (Scalar.andi (Scalar.cmpi .eq (BitVec.ofNat 32 (L 0).val) 0#32) (Scalar.cmpi .eq (BitVec.ofNat 32 (L 1).val) 0#32))) 0#32 = 1#1)
      ↔ ((L 0).val = 0 ∧ (L 1).val = 0) := by
  have h0 : (L 0).val < 2 := (L 0).isLt
  have h1 : (L 1).val < 16 := (L 1).isLt
  generalize (L 0).val = a at h0 ⊢
  generalize (L 1).val = b at h1 ⊢
  interval_cases a <;> interval_cases b <;> decide

/-! ## The value the scratch is left with -/

section Value

variable [FloatOps F]

abbrev rLo : Rect S32 := Rect.unit (s := S32) ![0] S16.size inb_S32_S16_0
abbrev rHi : Rect S32 := Rect.unit (s := S32) ![16] S16.size inb_S32_S16_16

/-- Each half's payload is the lane function, lane by lane. -/
theorem pay1_apply (w : Vec F S16 .f32) (x : S16.Idx) : k0_pay1 w x = sigLane (w x) := by
  unfold k0_pay1 sigLane
  rw [shapeCast_self, shapeCast_self]; rfl
theorem pay2_apply (w : Vec F S16 .f32) (x : S16.Idx) : k0_pay2 w x = sigLane (w x) := by
  unfold k0_pay2 sigLane
  rw [shapeCast_self, shapeCast_self]; rfl

theorem canon_whole (g : S32.Idx → Elt F .f32) (L : List (View.Piece (Elt F) S32 .f32)) (y : S32.Idx) :
    View.canon (⟨Rect.whole S32, g⟩ :: L) y = g y := by
  have e := View.canon_cons_emb (Val := Elt F) (Rect.whole S32) g L y
  rwa [Rect.emb_whole_apply] at e

theorem canon_skip (r : Rect S32) (w : r.shape.Idx → Elt F .f32) (L : List (View.Piece (Elt F) S32 .f32)) {y : S32.Idx} (h : y ∉ r.set) :
    View.canon (⟨r, w⟩ :: L) y = View.canon L y := View.canon_cons_of_not_mem ⟨r, w⟩ L h

theorem lo_of_lt (k : S32.Idx) (h : (k 0).val < 16) : rLo.emb (ix1 (⟨(k 0).val, h⟩ : Fin 16)) = k := by
  funext a; obtain rfl : a = 0 := Subsingleton.elim _ _
  apply Fin.ext; rw [Rect.emb_apply]; simp [ix1]
theorem hi_of_ge (k : S32.Idx) (h : 16 ≤ (k 0).val) : rHi.emb (ix1 (⟨(k 0).val - 16, by have : (k 0).val < 32 := (k 0).isLt; omega⟩ : Fin 16)) = k := by
  funext a; obtain rfl : a = 0 := Subsingleton.elim _ _
  apply Fin.ext; rw [Rect.emb_apply]; simp [ix1]; omega
theorem not_mem_hi (k : S32.Idx) (h : (k 0).val < 16) : k ∉ rHi.set := by
  rw [Rect.mem_set_unit]; intro hk; have := (hk 0).1; simp at this; omega
theorem hi_not_mem_lo (x : rHi.shape.Idx) : rHi.emb x ∉ rLo.set := by
  rw [Rect.mem_set_unit]; intro hk; have := (hk 0).2; rw [Rect.emb_apply] at this; simp at this

/-- The scratch after the gather's landing `g` and the two half-stores reads, lane by lane, the lane function of `g`. -/
theorem scratch_read {κ : Kind} (v : View sig κ .vmem S32 .f32) (fx : v.ty.Contents (Elt F)) (g : S32.Idx → Elt F .f32) (k : S32.Idx) :
    v.read (Elt F) (v.writes (Elt F) fx
      (⟨rHi, k0_pay2 (v.readCov [⟨rLo, k0_pay1 (v.readCov [⟨Rect.whole S32, g⟩] rLo.toLoadRect)⟩, ⟨Rect.whole S32, g⟩] rHi.toLoadRect)⟩
        :: [⟨rLo, k0_pay1 (v.readCov [⟨Rect.whole S32, g⟩] rLo.toLoadRect)⟩, ⟨Rect.whole S32, g⟩])) k = sigLane (g k) := by
  have hv7 : v.readCov [⟨Rect.whole S32, g⟩] rLo.toLoadRect = fun x => g (rLo.emb x) := by
    rw [View.readCov_eq_canon']; funext x; exact canon_whole g [] _
  have hv19 : v.readCov [⟨rLo, k0_pay1 (v.readCov [⟨Rect.whole S32, g⟩] rLo.toLoadRect)⟩, ⟨Rect.whole S32, g⟩] rHi.toLoadRect = fun x => g (rHi.emb x) := by
    rw [View.readCov_eq_canon']; funext x
    show View.canon _ (rHi.emb x) = _
    exact (canon_skip rLo _ _ (hi_not_mem_lo x)).trans (canon_whole g [] _)
  refine (View.read_writes_apply_eq_canon v fx k _ ⟨⟨Rect.whole S32, g⟩, List.mem_cons_of_mem _ (List.mem_cons_of_mem _ List.mem_cons_self),
    by rw [Rect.set_whole]; exact Finset.mem_univ k⟩).trans ?_
  rw [hv19, hv7]
  by_cases h : (k 0).val < 16
  · refine (canon_skip rHi _ _ (not_mem_hi k h)).trans ?_
    have e := View.canon_cons_emb (Val := Elt F) rLo (k0_pay1 fun x => g (rLo.emb x)) [⟨Rect.whole S32, g⟩] (ix1 (⟨(k 0).val, h⟩ : Fin 16))
    rw [lo_of_lt k h] at e
    refine e.trans ?_
    rw [pay1_apply, lo_of_lt k h]
  · have h' : 16 ≤ (k 0).val := Nat.le_of_not_lt h
    have e := View.canon_cons_emb (Val := Elt F) rHi (k0_pay2 fun x => g (rHi.emb x))
      [⟨rLo, k0_pay1 fun x => g (rLo.emb x)⟩, ⟨Rect.whole S32, g⟩] (ix1 (⟨(k 0).val - 16, by have : (k 0).val < 32 := (k 0).isLt; omega⟩ : Fin 16))
    rw [hi_of_ge k h'] at e
    refine e.trans ?_
    rw [pay2_apply, hi_of_ge k h']

end Value

/-! ## What the gather lands -/

section Gather

variable [FloatOps F]

theorem rowMajor_symm_one (k : S32.Idx) (h : S32.size 0 = S32.numel) : S32.rowMajor.symm ((k 0).cast h) = k := by
  rw [Equiv.symm_apply_eq]; apply Fin.ext; rw [Shape.rowMajor_val_one]; rfl

/-- Lane `k` of what the gather lands is the table's entry at the position word `k` of the list names. -/
theorem gather_apply (lw : FVec F S100 .f32) (R : S32.Idx → Elt F .i32) (hn : S32.numel = S32.size gathers_S100_S32.axis')
    (hin : ∀ x, (R x).toNat < S100.size gathers_S100_S32.axis) (h3) (k : S32.Idx) :
    SparseCore.gatherPayload gathers_S100_S32
        (View.read (Elt F) ((lwV : Memref sig .scVector .hbm S100 .f32).slice (Rect.unit (s := S100) ![0] S100.size inb_S100_S100_0) h3).view lw)
        (SparseCore.rows R hn hin) k = lw (ix1 (rowT (R k))) := by
  unfold SparseCore.gatherPayload
  have hy : ∀ y : S100.Idx, View.read (Elt F) ((lwV : Memref sig .scVector .hbm S100 .f32).slice (Rect.unit (s := S100) ![0] S100.size inb_S100_S100_0) h3).view lw y = lw y := by
    intro y
    show lw ((Rect.unit (s := S100) ![0] S100.size inb_S100_S100_0).emb y) = lw y
    refine congrArg lw ?_
    funext a; obtain rfl : a = 0 := Subsingleton.elim _ _
    apply Fin.ext; rw [Rect.emb_apply]; simp
  rw [hy]
  refine congrArg lw ?_
  funext b; obtain rfl : b = 0 := Subsingleton.elim _ _
  apply Fin.ext
  have e := Shape.Gathers.idx_axis gathers_S100_S32 (SparseCore.rows R hn hin) k
  have e' : (gathers_S100_S32.idx (SparseCore.rows R hn hin) k 0).val = (R k).toNat := by
    refine (congrArg Fin.val e).trans ?_
    show (R (S32.rowMajor.symm ((k 0).cast hn.symm))).toNat = _
    rw [rowMajor_symm_one]
  rw [e']
  have := hin k
  show _ = min (R k).toNat 99
  have h100 : (R k).toNat < 100 := this
  omega

end Gather

/-! ## The working tile's storage -/

section Tile

variable (d : Dev nD) (L : grid0.Coords)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The arrays as a vector subcore's memrefs address them are the TensorCore's arrays. -/
theorem pts_ip (f : Buf (Elt F) (v3Loc d)) :
    ((ipV : Memref sig .scVector .hbm S32 .i32).view.loc (V d (cV L) (jV L)) ↦{fullShare} f : sProp 𝕄) = v3Loc d ↦{fullShare} f := rfl
theorem pts_lw (f : Buf (Elt F) (lwLoc d)) :
    ((lwV : Memref sig .scVector .hbm S100 .f32).view.loc (V d (cV L) (jV L)) ↦{fullShare} f : sProp 𝕄) = lwLoc d ↦{fullShare} f := rfl
theorem pts_sg (f : Buf (Elt F) (v4Loc d)) :
    ((sgV : Memref sig .scVector .hbm S32 .f32).view.loc (V d (cV L) (jV L)) ↦{fullShare} f : sProp 𝕄) = v4Loc d ↦{fullShare} f := rfl
theorem pts_sI (f : Buf (Elt F) ((V d (cV L) (jV L)).loc cc0_scratch0)) :
    ((sI : Memref sig .scVector .vmem S32 .i32).view.loc (V d (cV L) (jV L)) ↦{fullShare} f : sProp 𝕄) = (V d (cV L) (jV L)).loc cc0_scratch0 ↦{fullShare} f := rfl
theorem pts_sX (f : Buf (Elt F) ((V d (cV L) (jV L)).loc cc0_scratch1)) :
    ((sX : Memref sig .scVector .vmem S32 .f32).view.loc (V d (cV L) (jV L)) ↦{fullShare} f : sProp 𝕄) = (V d (cV L) (jV L)).loc cc0_scratch1 ↦{fullShare} f := rfl

variable [FloatOps F] (m : (ℓ : Loc nD τ sig) → Buf (Elt F) ℓ) (ip : (d : Dev nD) → Buf (Elt F) (v3Loc d))

/-- The working tile, at grid coordinates (0, 0): the index copy, the gather, the two half-stores, the copy out; the scale
    vector left at `sigOf`, everything else handed back as it came. -/
theorem tile_work (hF : (K (F := F)).Facts) (hip : ∀ (d : Dev nD) (x : S32.Idx), (ip d x).toNat < 100)
    (h0 : (L 0).val = 0 ∧ (L 1).val = 0) (O : CellTallies nD τ sig (HIx 1)) (W : Waits sig (HIx 1)) (hO : ∀ g, O g none = 0) :
    iprop(levAts (K (F := F)).L (K (F := F)).lev ∗ emp ∗ callIn m ip d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scales L ipV (Memref.isWhole_whole _) lwV (Memref.isWhole_whole _) sgV (Memref.isWhole_whole _)
            sI (Memref.isWhole_whole _) sX (Memref.isWhole_whole _) cc0_scratch2 cc0_scoped0 cc0_scoped1)
          fun _ => iprop(callOut m ip d ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := (cond_iff L).mpr h0
  simp only [cc0__sc_scales_eq_skeleton]; unfold cc0__sc_scales_skel
  rw [(K (F := F)).scopedBufs_V hF d (cV L) (jV L), SparseCore.Cfg.scopedSems0_V (Val := Elt F) d (cV L) (jV L), ownSems0_V, ownBufs_V]
  iintro ⟨#Hlv, -, ⟨Hip, Hlw, %fg, Hsg⟩, ⟨⟨%fi, HsI⟩, ⟨%fx, HsX⟩, Hbufs⟩, ⟨HsemG, HsemA, HsemB, Hsems⟩, HO⟩
  ihave Hmw := ((K (F := F)).mayWaits_none (thr := V d (cV L) (jV L)) hO) $$ Hlv
  ihave Hip' := (Entails.of_eq (pts_ip (F := F) d L _).symm) $$ Hip
  ihave Hlw' := (Entails.of_eq (pts_lw (F := F) d L _).symm) $$ Hlw
  ihave Hsg' := (Entails.of_eq (pts_sg (F := F) d L _).symm) $$ Hsg
  ihave HsI' := (Entails.of_eq (pts_sI (F := F) d L _).symm) $$ HsI
  ihave HsX' := (Entails.of_eq (pts_sX (F := F) d L _).symm) $$ HsX
  sl_exec
  -- the list the gather reads is the index vector the first copy landed: every word names a table position
  have hin : ∀ x, ((sI : Memref sig .scVector .vmem S32 .i32).view.read (Elt F)
      (View.write (Elt F) (sI : Memref sig .scVector .vmem S32 .i32).view fi (tile_work.sl.dma0 d ip) Finset.univ) x).toNat
        < S100.size gathers_S100_S32.axis := by
    intro x
    rw [View.write_whole_univ]
    exact hip d x
  sl_exec
  -- what the last copy carried out is the scale vector
  have hval : View.write (Elt F) (sgV : Memref sig .scVector .hbm S32 .f32).view fg (tile_work.sl.dma6 d L m ip fi fx hin) Finset.univ
      = sigOf (ip d) (m (lwLoc d)) := by
    rw [View.write_whole_univ]
    funext k
    sl_unfold_run_names
    refine (scratch_read (sX : Memref sig .scVector .vmem S32 .f32).view fx _ k).trans ?_
    unfold sigOf
    refine congrArg sigLane ?_
    refine (gather_apply (m (lwLoc d)) _ _ _ _ k).trans ?_
    rw [View.write_whole_univ]
    rfl
  rw [hval]
  sl_step
  isplitl [Hip' Hlw' Hsg']
  · isplitl [Hip']; · iapply (Entails.of_eq (pts_ip (F := F) d L _)); iexact Hip'
    isplitl [Hlw']; · iapply (Entails.of_eq (pts_lw (F := F) d L _)); iexact Hlw'
    iapply (Entails.of_eq (pts_sg (F := F) d L _)); iexact Hsg'
  isplitl [HsI' HsX' Hbufs]
  · isplitl [HsI']
    · iexists _; iapply (Entails.of_eq (pts_sI (F := F) d L _)); iexact HsI'
    isplitl [HsX']
    · iexists _; iapply (Entails.of_eq (pts_sX (F := F) d L _)); iexact HsX'
    · iexact Hbufs
  isplitl [HsemG HsemA HsemB Hsems]
  · isplitl [HsemG]; · iexact HsemG
    isplitl [HsemA]; · iexact HsemA
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

/-- Every other tile: the branch not taken. -/
theorem tile_idle (h0 : ¬ ((L 0).val = 0 ∧ (L 1).val = 0)) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_scales L ipV (Memref.isWhole_whole _) lwV (Memref.isWhole_whole _) sgV (Memref.isWhole_whole _)
            sI (Memref.isWhole_whole _) sX (Memref.isWhole_whole _) cc0_scratch2 cc0_scoped0 cc0_scoped1)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := (cond_iff L).not.mpr h0
  simp only [cc0__sc_scales_eq_skeleton]; unfold cc0__sc_scales_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

/-- The task on vector subcore `(L 0, L 1)` of device `d`. -/
theorem tile_body (hF : (K (F := F)).Facts) (hip : ∀ (d : Dev nD) (x : S32.Idx), (ip d x).toNat < 100)
    (O : CellTallies nD τ sig (HIx 1)) (W : Waits sig (HIx 1)) (hO : ∀ g, O g none = 0) :
    iprop(levAts (K (F := F)).L (K (F := F)).lev ∗ emp ∗ tileIn m ip d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scales L ipV (Memref.isWhole_whole _) lwV (Memref.isWhole_whole _) sgV (Memref.isWhole_whole _)
            sI (Memref.isWhole_whole _) sX (Memref.isWhole_whole _) cc0_scratch2 cc0_scoped0 cc0_scoped1)
          fun _ => iprop(tileOut m ip d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileIn tileOut
  by_cases h0 : (L 0).val = 0 ∧ (L 1).val = 0
  · rw [if_pos h0, if_pos h0]; exact tile_work d L m ip hF hip h0 O W hO
  · rw [if_neg h0, if_neg h0]; exact tile_idle d L h0 O W

end Tile

/-! ## Small facts the obligations use -/

section Glue

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem rest_emp (Φ : ℕ → sProp 𝕄) (h : ∀ i, i ≠ 0 → Φ i = iprop(emp)) :
    (bigSep ((Finset.univ : Finset (Fin 16)).erase 0) fun i => Φ i.val) = iprop(emp) := by
  rw [bigSep_congr (fun i hi => h i.val (fun e => (Finset.mem_erase.mp hi).1 (Fin.ext e)))]; exact bigSep_emp_const _
theorem all_emp (Φ : ℕ → sProp 𝕄) (h : ∀ i, Φ i = iprop(emp)) :
    (bigSep (Finset.univ : Finset (Fin 16)) fun i => Φ i.val) = iprop(emp) := by
  rw [bigSep_congr (fun i _ => h i.val)]; exact bigSep_emp_const _

end Glue

end Sc

/-! ## The launch theorem's obligations -/

section Obligations

open Sc

variable [FloatOps F]

theorem tileObl (m : (ℓ : Loc nD τ sig) → Buf (Elt F) ℓ) (ip : (d : Dev nD) → Buf (Elt F) (v3Loc d))
    (hip : ∀ (d : Dev nD) (x : S32.Idx), (ip d x).toNat < 100) : (K (F := F)).TileObl (D (F := F)) 𝒱 (P m ip) v₀ 0 := by
  intro d c i O W hO _ _
  -- this kernel owes nothing for a protocol of its own
  simp only [show (P m ip).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m ip facts hip O W hO).trans (wp_mono frame _ _ fun _ => obl_post)

theorem vecSplit (m : (ℓ : Loc nD τ sig) → Buf (Elt F) ℓ) (ip : (d : Dev nD) → Buf (Elt F) (v3Loc d)) :
    (K (F := F)).VecSplit' (P m ip) 0 := by
  intro d c
  show coreIn m ip d c.val ⊢ |={Set.univ}=> iprop((bigSep (Finset.univ : Finset (Fin 16)) fun i => tileIn m ip d c.val i.val)
      ∗ ((bigSep (Finset.univ : Finset (Fin 16)) fun i => tileOut m ip d c.val i.val) -∗ coreOut m ip d c.val))
  by_cases hc : c.val = 0
  · rw [hc, SparseCore.bigSep_erase' (Finset.mem_univ (0 : Fin 16)), SparseCore.bigSep_erase' (Finset.mem_univ (0 : Fin 16)),
      rest_emp (fun i => tileIn m ip d 0 i) (fun i hi => if_neg fun h => hi h.2),
      rest_emp (fun i => tileOut m ip d 0 i) (fun i hi => if_neg fun h => hi h.2)]
    unfold coreIn coreOut tileIn tileOut
    rw [if_pos rfl, if_pos rfl, if_pos ⟨rfl, rfl⟩, if_pos ⟨rfl, rfl⟩]
    iintro H; imodintro
    isplitl [H]
    · isplitl [H]; · iexact H
      iempintro
    iintro ⟨H, -⟩; iexact H
  · rw [all_emp (fun i => tileIn m ip d c.val i) (fun i => if_neg fun h => hc h.1),
      all_emp (fun i => tileOut m ip d c.val i) (fun i => if_neg fun h => hc h.1)]
    unfold coreIn coreOut
    rw [if_neg hc, if_neg hc]
    iintro -; imodintro
    isplitr; · iempintro
    iintro -; iempintro

end Obligations

end Cert.Kernel.Hand

end
-- ==== Proof.Kernel.TcData.lean ====
/-
  The TensorCore region's body: what one call of it leaves in the output block, in closed form; its triple; the pipeline's
  proof data; and the body obligation at every point of the grid.

  The body multiplies row `j` of a [26, 1024, 128] input block by lane `j` of the 32-lane scale vector, for `j` from 0 to 25,
  and stores the product as row `j` of the output block. The 26 stores tile the block, so the block ends holding, at
  (j, r, c), the input block's element there times lane `j`.
-/
import proofs.«205909_g45389214384387_cont_8to1c4_201_25_alg».proof.Proof.Kernel.World
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## One block's result in closed form -/

/-- What the body leaves in the output block, from the scale vector and the input block: row `j` of the input block
    times lane `j` of the scale vector. -/
def outB (s : Vec F S32 .f32) (xb : Vec F S26x1024x128 .f32) : Vec F S26x1024x128 .f32 :=
  fun j => FloatOps.mulf (xb j) (s (ix1 (Fin.castLE (by decide) (j 0) : Fin 32)))

/-- The one-word rectangle at lane `k` of the scale vector names the index `k`. -/
theorem lane_idx (k : ℕ) (hk : k < 32) (inb : ∀ a, (![k] : Fin 1 → Nat) a + S1.size a ≤ S32.size a) (h : 0 < (Rect.unit (s := S32) ![k] S1.size inb).toLoadRect.shape.numel) :
    (Rect.unit (s := S32) ![k] S1.size inb).toLoadRect.idx (Shape.Idx.first h) = ix1 (⟨k, hk⟩ : Fin 32) := by
  funext a
  apply Fin.ext
  match a with
  | ⟨0, _⟩ => show k + 1 * 0 = k; omega

/-- A block index whose leading coordinate is the only one of its axis is rebuilt from its other coordinates. -/
theorem cons_tail (x : S1x1024x128.Idx) : (Fin.cons ⟨0, Nat.one_pos⟩ (fun a : Fin 2 => x a.succ) : (⟨2 + 1, Matrix.vecCons 1 ![1024, 128]⟩ : Shape).Idx) = x := by
  funext a
  refine Fin.cases ?_ (fun b => ?_) a
  · apply Fin.ext; have := (x 0).isLt; show 0 = (x 0).val; change (x 0).val < 1 at this; omega
  · rfl

/-- One store's payload, read at an index: the input block's element there times the lane. -/
theorem piece_apply (xb : Vec F S26x1024x128 .f32) (s : Elt F .f32) (k : ℕ) (inb : ∀ a, (![k, 0, 0] : Fin 3 → Nat) a + S1x1024x128.size a ≤ S26x1024x128.size a)
    (x : S1x1024x128.Idx) :
    shapeCast S1x1024x128 (mulf (shapeCast S1024x128 (View.ld xb (Rect.unit (s := S26x1024x128) ![k, 0, 0] S1x1024x128.size inb)) shapeCasts_S1x1024x128_S1024x128) (broadcast S1024x128 s)) shapeCasts_S1024x128_S1x1024x128 x
      = FloatOps.mulf (xb ((Rect.unit (s := S26x1024x128) ![k, 0, 0] S1x1024x128.size inb).emb x)) s := by
  refine (shapeCast_addUnit_apply ![1024, 128] _ shapeCasts_S1024x128_S1x1024x128 x).trans ?_
  show FloatOps.mulf (shapeCast S1024x128 (View.ld xb (Rect.unit (s := S26x1024x128) ![k, 0, 0] S1x1024x128.size inb)) shapeCasts_S1x1024x128_S1024x128 (fun a => x a.succ)) s = _
  refine congrArg (fun z => FloatOps.mulf z s) ?_
  refine (shapeCast_dropUnit_apply ![1024, 128] _ shapeCasts_S1x1024x128_S1024x128 (fun a => x a.succ)).trans ?_
  show xb ((Rect.unit (s := S26x1024x128) ![k, 0, 0] S1x1024x128.size inb).emb (Fin.cons ⟨0, Nat.one_pos⟩ (fun a : Fin 2 => x a.succ))) = _
  rw [cons_tail]

/-- The leading coordinate of an index of row `k`'s rectangle is `k`. -/
theorem row_emb_zero (k : ℕ) (hk : k < 26) (inb : ∀ a, (![k, 0, 0] : Fin 3 → Nat) a + S1x1024x128.size a ≤ S26x1024x128.size a) (x : S1x1024x128.Idx) :
    ((Rect.unit (s := S26x1024x128) ![k, 0, 0] S1x1024x128.size inb).emb x) 0 = (⟨k, hk⟩ : Fin 26) := by
  apply Fin.ext
  have := (x 0).isLt; change (x 0).val < 1 at this
  show k + 1 * (x 0).val = k; omega

/-- One store's payload is the closed form on its rectangle. -/
theorem piece_outB (s : Vec F S32 .f32) (xb : Vec F S26x1024x128 .f32) (k : ℕ) (hk : k < 26) (inb : ∀ a, (![k, 0, 0] : Fin 3 → Nat) a + S1x1024x128.size a ≤ S26x1024x128.size a)
    (sv : Elt F .f32) (hs : sv = s (ix1 (⟨k, by omega⟩ : Fin 32))) (x : S1x1024x128.Idx) :
    shapeCast S1x1024x128 (mulf (shapeCast S1024x128 (View.ld xb (Rect.unit (s := S26x1024x128) ![k, 0, 0] S1x1024x128.size inb)) shapeCasts_S1x1024x128_S1024x128) (broadcast S1024x128 sv)) shapeCasts_S1024x128_S1x1024x128 x
      = outB s xb ((Rect.unit (s := S26x1024x128) ![k, 0, 0] S1x1024x128.size inb).emb x) := by
  rw [piece_apply, hs]; unfold outB; rw [row_emb_zero k hk]; rfl

/-! ## The body's triple -/

set_option maxHeartbeats 4000000 in
/-- The kernel body on whole staging memrefs — the scale vector's at read contents `x0`, the input block's at `x1`, the
    output block's at anything — runs to the continuation holding the first two as they were and the output block's at
    `outB x0 x1`: its 26 stores, one per row, each the row of the input block times its lane, cover the block. -/
theorem sound_kernel (c : Dev nD) (E : Set ℕ) (i : grid1.Coords) (arg1 : Memref sig .tc .smem S32 .f32) (harg1 : arg1.IsWhole) (arg2 : Memref sig .tc .vmem S26x1024x128 .f32) (harg2 : arg2.IsWhole) (arg3 : Memref sig .tc .vmem S26x1024x128 .f32) (harg3 : arg3.IsWhole)
    (x0 : Vec F S32 .f32) (x1 : Vec F S26x1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outB x0 x1)) -∗ K ⟨⟩))
      ⊢ wp frame (wpE (defs₀ (F := F)) Variants.none c none) E (cc1__tc_body i arg1 harg1 arg2 harg2 arg3 harg3) K := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  funext y
  refine (View.read_writes_apply_eq_canon _ _ y _ ?c).trans (View.canon_apply_of_pieces _ _ ?h y ?c)
  case c => exact View.cover_of_tiled (s := S26x1024x128) _ S1x1024x128.size (by rfl) y
  case h =>
    intro p hp
    simp only [List.mem_cons, List.mem_nil_iff, _root_.or_false] at hp
    rcases hp with rfl | rfl | rfl | rfl | rfl | rfl | rfl | rfl | rfl | rfl | rfl | rfl | rfl | rfl | rfl | rfl | rfl | rfl | rfl | rfl | rfl | rfl | rfl | rfl | rfl | rfl
    · intro x; exact piece_outB (View.read (Elt F) arg1.view f0) (View.read (Elt F) arg2.view f1) 25 (by decide) _ _ (congrArg (View.read (Elt F) arg1.view f0) (lane_idx 25 (by decide) _ _)) x
    · intro x; exact piece_outB (View.read (Elt F) arg1.view f0) (View.read (Elt F) arg2.view f1) 24 (by decide) _ _ (congrArg (View.read (Elt F) arg1.view f0) (lane_idx 24 (by decide) _ _)) x
    · intro x; exact piece_outB (View.read (Elt F) arg1.view f0) (View.read (Elt F) arg2.view f1) 23 (by decide) _ _ (congrArg (View.read (Elt F) arg1.view f0) (lane_idx 23 (by decide) _ _)) x
    · intro x; exact piece_outB (View.read (Elt F) arg1.view f0) (View.read (Elt F) arg2.view f1) 22 (by decide) _ _ (congrArg (View.read (Elt F) arg1.view f0) (lane_idx 22 (by decide) _ _)) x
    · intro x; exact piece_outB (View.read (Elt F) arg1.view f0) (View.read (Elt F) arg2.view f1) 21 (by decide) _ _ (congrArg (View.read (Elt F) arg1.view f0) (lane_idx 21 (by decide) _ _)) x
    · intro x; exact piece_outB (View.read (Elt F) arg1.view f0) (View.read (Elt F) arg2.view f1) 20 (by decide) _ _ (congrArg (View.read (Elt F) arg1.view f0) (lane_idx 20 (by decide) _ _)) x
    · intro x; exact piece_outB (View.read (Elt F) arg1.view f0) (View.read (Elt F) arg2.view f1) 19 (by decide) _ _ (congrArg (View.read (Elt F) arg1.view f0) (lane_idx 19 (by decide) _ _)) x
    · intro x; exact piece_outB (View.read (Elt F) arg1.view f0) (View.read (Elt F) arg2.view f1) 18 (by decide) _ _ (congrArg (View.read (Elt F) arg1.view f0) (lane_idx 18 (by decide) _ _)) x
    · intro x; exact piece_outB (View.read (Elt F) arg1.view f0) (View.read (Elt F) arg2.view f1) 17 (by decide) _ _ (congrArg (View.read (Elt F) arg1.view f0) (lane_idx 17 (by decide) _ _)) x
    · intro x; exact piece_outB (View.read (Elt F) arg1.view f0) (View.read (Elt F) arg2.view f1) 16 (by decide) _ _ (congrArg (View.read (Elt F) arg1.view f0) (lane_idx 16 (by decide) _ _)) x
    · intro x; exact piece_outB (View.read (Elt F) arg1.view f0) (View.read (Elt F) arg2.view f1) 15 (by decide) _ _ (congrArg (View.read (Elt F) arg1.view f0) (lane_idx 15 (by decide) _ _)) x
    · intro x; exact piece_outB (View.read (Elt F) arg1.view f0) (View.read (Elt F) arg2.view f1) 14 (by decide) _ _ (congrArg (View.read (Elt F) arg1.view f0) (lane_idx 14 (by decide) _ _)) x
    · intro x; exact piece_outB (View.read (Elt F) arg1.view f0) (View.read (Elt F) arg2.view f1) 13 (by decide) _ _ (congrArg (View.read (Elt F) arg1.view f0) (lane_idx 13 (by decide) _ _)) x
    · intro x; exact piece_outB (View.read (Elt F) arg1.view f0) (View.read (Elt F) arg2.view f1) 12 (by decide) _ _ (congrArg (View.read (Elt F) arg1.view f0) (lane_idx 12 (by decide) _ _)) x
    · intro x; exact piece_outB (View.read (Elt F) arg1.view f0) (View.read (Elt F) arg2.view f1) 11 (by decide) _ _ (congrArg (View.read (Elt F) arg1.view f0) (lane_idx 11 (by decide) _ _)) x
    · intro x; exact piece_outB (View.read (Elt F) arg1.view f0) (View.read (Elt F) arg2.view f1) 10 (by decide) _ _ (congrArg (View.read (Elt F) arg1.view f0) (lane_idx 10 (by decide) _ _)) x
    · intro x; exact piece_outB (View.read (Elt F) arg1.view f0) (View.read (Elt F) arg2.view f1) 9 (by decide) _ _ (congrArg (View.read (Elt F) arg1.view f0) (lane_idx 9 (by decide) _ _)) x
    · intro x; exact piece_outB (View.read (Elt F) arg1.view f0) (View.read (Elt F) arg2.view f1) 8 (by decide) _ _ (congrArg (View.read (Elt F) arg1.view f0) (lane_idx 8 (by decide) _ _)) x
    · intro x; exact piece_outB (View.read (Elt F) arg1.view f0) (View.read (Elt F) arg2.view f1) 7 (by decide) _ _ (congrArg (View.read (Elt F) arg1.view f0) (lane_idx 7 (by decide) _ _)) x
    · intro x; exact piece_outB (View.read (Elt F) arg1.view f0) (View.read (Elt F) arg2.view f1) 6 (by decide) _ _ (congrArg (View.read (Elt F) arg1.view f0) (lane_idx 6 (by decide) _ _)) x
    · intro x; exact piece_outB (View.read (Elt F) arg1.view f0) (View.read (Elt F) arg2.view f1) 5 (by decide) _ _ (congrArg (View.read (Elt F) arg1.view f0) (lane_idx 5 (by decide) _ _)) x
    · intro x; exact piece_outB (View.read (Elt F) arg1.view f0) (View.read (Elt F) arg2.view f1) 4 (by decide) _ _ (congrArg (View.read (Elt F) arg1.view f0) (lane_idx 4 (by decide) _ _)) x
    · intro x; exact piece_outB (View.read (Elt F) arg1.view f0) (View.read (Elt F) arg2.view f1) 3 (by decide) _ _ (congrArg (View.read (Elt F) arg1.view f0) (lane_idx 3 (by decide) _ _)) x
    · intro x; exact piece_outB (View.read (Elt F) arg1.view f0) (View.read (Elt F) arg2.view f1) 2 (by decide) _ _ (congrArg (View.read (Elt F) arg1.view f0) (lane_idx 2 (by decide) _ _)) x
    · intro x; exact piece_outB (View.read (Elt F) arg1.view f0) (View.read (Elt F) arg2.view f1) 1 (by decide) _ _ (congrArg (View.read (Elt F) arg1.view f0) (lane_idx 1 (by decide) _ _)) x
    · intro x; exact piece_outB (View.read (Elt F) arg1.view f0) (View.read (Elt F) arg2.view f1) 0 (by decide) _ _ (congrArg (View.read (Elt F) arg1.view f0) (lane_idx 0 (by decide) _ _)) x

/-! ## The proof data -/

variable (sg : Vec F S32 .f32) (x : Vec F S26x16384x128 .f32) (y0 : Vec F S26x16384x128 .f32)
  (O : CellTallies nD τ sig (HIx 1)) (W : Waits sig (HIx 1))

/-- The three arrays as the region finds them: the scale vector, the input, and the output at what it held. -/
def arrA (c : Dev nD) : (w : Fin cfg1.W) → Buf (Elt F) ((cfg1.win w).arr.view.loc (c.tc : Thread nD τ))
  | ⟨0, _⟩ => sg
  | ⟨1, _⟩ => x
  | ⟨2, _⟩ => y0

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (arrA sg x y0 c w)

/-- The pairs the core's waits may have recorded: those it came with, and any at the kernel's own index. -/
def recB : Set (SemLoc sig × HIx 1) := {p | p ∈ W ∨ p.2 = none}

/-- The proof data of the pipeline on core `c`: the arrays as the region finds them; after the body at point `t` each
    input's buffer at its block and the output's at `outB` of the two; the invariant the scoped buffers the pipeline
    does not stage; the core owing `O` throughout; full shares. -/
def dat (c : Dev nD) : Dat τ (Elt F) (HIx 1) ℕ UU ℕ cfg1 c where
  A w := arrA sg x y0 c w
  after w t := match w with
    | ⟨0, _⟩ => iblk sg x y0 c 0 t
    | ⟨1, _⟩ => iblk sg x y0 c 1 t
    | ⟨2, _⟩ => outB (iblk sg x y0 c 0 t) (iblk sg x y0 c 1 t)
  Φ _ := Pipeline.scopedRest (Ix := HIx 1) (Name := ℕ) (U := UU) (Lvl := ℕ) (Val := Elt F) spec1 c
  q _ := fullShare
  owed _ := O
  recorded _ := recB W

theorem A_eq (c : Dev nD) (w : Fin cfg1.W) : (dat sg x y0 O W c).A w = arrA sg x y0 c w := by dsimp only [dat]
theorem after_0 (c : Dev nD) (t : Fin cfg1.N) : (dat sg x y0 O W c).after 0 t = iblk sg x y0 c 0 t := by dsimp only [dat]
theorem after_1 (c : Dev nD) (t : Fin cfg1.N) : (dat sg x y0 O W c).after 1 t = iblk sg x y0 c 1 t := by dsimp only [dat]
theorem after_2 (c : Dev nD) (t : Fin cfg1.N) : (dat sg x y0 O W c).after 2 t = outB (iblk sg x y0 c 0 t) (iblk sg x y0 c 1 t) := by dsimp only [dat]

/-- Each input's current staging buffer holds its block at every point, fetched there or not: the body leaves it in place. -/
theorem before_0 (c : Dev nD) (t : Fin cfg1.N) (d) : (dat sg x y0 O W c).before 0 t d = iblk sg x y0 c 0 t :=
  ((dat sg x y0 O W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat sg x y0 O W c).before 1 t d = iblk sg x y0 c 1 t :=
  ((dat sg x y0 O W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat sg x y0 O W c).Φ t.castSucc ∗ (dat sg x y0 O W c).owesAt none t.castSucc
    ∗ (∃ d, owns (c : Thread nD τ) (st1_0 t) fullShare ((dat sg x y0 O W c).before 0 t d))
    ∗ (∃ d, owns (c : Thread nD τ) (st1_1 t) fullShare ((dat sg x y0 O W c).before 1 t d))
    ∗ (∃ d, owns (c : Thread nD τ) (st1_2 t) fullShare ((dat sg x y0 O W c).before 2 t d)))

/-- and what it returns. -/
def bodyPost (c : Dev nD) (t : Fin cfg1.N) : sProp 𝕄 :=
  iprop((dat sg x y0 O W c).Φ t.succ ∗ (dat sg x y0 O W c).owesAt none t.succ
    ∗ owns (c : Thread nD τ) (st1_0 t) fullShare ((dat sg x y0 O W c).after 0 t)
    ∗ owns (c : Thread nD τ) (st1_1 t) fullShare ((dat sg x y0 O W c).after 1 t)
    ∗ owns (c : Thread nD τ) (st1_2 t) fullShare ((dat sg x y0 O W c).after 2 t))

/-- The body at any point: the inputs' memrefs hold their blocks, so `sound_kernel` applies; the invariant and what the
    core owes pass through unread. -/
theorem sound_body (c : Dev nD) (t : Fin cfg1.N) :
    bodyPre sg x y0 O W c t ⊢ wp frame (wpE (defs₀ (F := F)) Variants.none c none) Set.univ (bodyAt1 t) (fun _ => bodyPost sg x y0 O W c t) := by
  unfold bodyPre bodyPost bodyAt1
  simp only [before_0, before_1]
  rw [show (dat sg x y0 O W c).Φ t.succ = (dat sg x y0 O W c).Φ t.castSucc from rfl,
    show (dat sg x y0 O W c).owesAt none t.succ = (dat sg x y0 O W c).owesAt none t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk sg x y0 c 0 t) (iblk sg x y0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat sg x y0 O W c) (defs₀ (F := F)) Variants.none none Set.univ := fun t => by
  rw [bigSep_W1, bigSep_W1]
  exact sound_body sg x y0 O W c t

end Cert.Kernel.Hand

end
-- ==== Proof.Kernel.TcRegion.lean ====
/-
  The TensorCore region of the program as one step of the TensorCore's thread.

  The region's pipeline runs the body at the 16 points of its grid; point `t` stages the whole scale vector (fetched at
  the first point only), block `t` of the input along its middle axis, and writes back block `t` of the output. What
  point `t` writes back is block `t` of `tcOut sg x` (row `j` of the input times lane `j` of the scale vector); the 16
  blocks cover the output, so the output array ends at `tcOut sg x`, whatever it held. The region is entered with the
  core still owing the launch's units, none at the kernel's own index, so every wait of the pipeline sits below them.
-/
import proofs.«205909_g45389214384387_cont_8to1c4_201_25_alg».proof.Proof.Kernel.TcData

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ
section Data

variable (sg : Vec F S32 .f32) (x : Vec F S26x16384x128 .f32) (y0 : Vec F S26x16384x128 .f32)
  (O : CellTallies nD τ sig (HIx 1)) (W : Waits sig (HIx 1))

/-! ## From blocks to the array -/

/-- The printed index maps, decided over the grid: the scale vector's window stays at block 0; the input's and the
    output's blocks are block `t` of the middle axis. -/
theorem idx_facts : ∀ t : Fin cfg1.N, win1_0.index t (0 : Fin 1) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0 :=
  (by decide +kernel : ∀ t : Fin grid1.N, _)

/-- WHAT POINT `t` WRITES BACK is block `t` of `tcOut sg x`. -/
theorem flushed_eq (c : Dev nD) (t : Fin cfg1.N) :
    (dat sg x y0 O W c).flushed 2 t = ((cfg1.win 2).blk t).view.read (Elt F) (tcOut sg x) := by
  show (cfg1.win 2).cut (grid1.coords t) ((dat sg x y0 O W c).after 2 t) = _
  rw [after_2]
  obtain ⟨e0, e1, e2, e3, e4, e5, e6⟩ := idx_facts t
  funext j
  show FloatOps.mulf (x (((cfg1.win 1).blk t).view.emb j)) (sg (((cfg1.win 0).blk t).view.emb (ix1 (Fin.castLE _ (j 0) : Fin 32))))
    = FloatOps.mulf (x (((cfg1.win 2).blk t).view.emb j)) (sg (ix1 (Fin.castLE _ ((((cfg1.win 2).blk t).view.emb j) 0) : Fin 32)))
  have h1 : ((cfg1.win 1).blk t).view.emb j = ((cfg1.win 2).blk t).view.emb j := by
    funext a; apply Fin.ext
    match a with
    | ⟨0, _⟩ => show win1_1.index t (0 : Fin 3) * 26 + 1 * (j 0).val = win1_2.index t (0 : Fin 3) * 26 + 1 * (j 0).val; omega
    | ⟨1, _⟩ => show win1_1.index t (1 : Fin 3) * 1024 + 1 * (j 1).val = win1_2.index t (1 : Fin 3) * 1024 + 1 * (j 1).val; omega
    | ⟨2, _⟩ => show win1_1.index t (2 : Fin 3) * 128 + 1 * (j 2).val = win1_2.index t (2 : Fin 3) * 128 + 1 * (j 2).val; omega
  have h0 : ∀ (p1 : 26 ≤ 32) (p2 : 26 ≤ 32), ((cfg1.win 0).blk t).view.emb (ix1 (Fin.castLE p1 (j 0) : Fin 32)) = ix1 (Fin.castLE p2 ((((cfg1.win 2).blk t).view.emb j) 0) : Fin 32) := by
    intro p1 p2
    funext a; apply Fin.ext
    match a with
    | ⟨0, _⟩ => show win1_0.index t (0 : Fin 1) * 32 + 1 * (j 0).val = win1_2.index t (0 : Fin 3) * 26 + 1 * (j 0).val; omega
  rw [h1]
  exact congrArg (fun z => FloatOps.mulf (x (((cfg1.win 2).blk t).view.emb j)) (sg z)) (h0 _ _)

/-- An index of the array is in point `t`'s block iff each coordinate is in the block's range on its axis. -/
theorem mem_blk (t : Fin cfg1.N) (i : S26x16384x128.Idx) :
    i ∈ ((cfg1.win 2).blk t).view.set ↔ ∀ a : Fin 3, win1_2.index t a * S26x1024x128.size a ≤ (i a).val ∧ (i a).val < win1_2.index t a * S26x1024x128.size a + S26x1024x128.size a := by
  show i ∈ ((View.whole main_v6).slice (win1_2.rect t)).set ↔ _
  rw [View.set_slice_whole, Rect.mem_set_unit]
  exact Iff.rfl

/-- Every index of the array is in some point's block. -/
theorem covered (i : S26x16384x128.Idx) : ∃ t : Fin cfg1.N, (cfg1.win 2).flush t = true ∧ i ∈ ((cfg1.win 2).blk t).view.set := by
  have hi0 : (i 0).val < 26 := (i 0).isLt
  have hi1 : (i 1).val < 16384 := (i 1).isLt
  have hi2 : (i 2).val < 128 := (i 2).isLt
  have hN : (i 1).val / 1024 < cfg1.N := by rw [show cfg1.N = 16 from N_1]; omega
  refine ⟨⟨(i 1).val / 1024, hN⟩, flush1_2 _, ?_⟩
  obtain ⟨e0, e1, e2, e3, e4, e5, e6⟩ := idx_facts ⟨(i 1).val / 1024, hN⟩
  rw [mem_blk]
  intro a
  match a with
  | ⟨0, _⟩ => show win1_2.index _ (0 : Fin 3) * 26 ≤ (i 0).val ∧ (i 0).val < win1_2.index _ (0 : Fin 3) * 26 + 26; omega
  | ⟨1, _⟩ => show win1_2.index _ (1 : Fin 3) * 1024 ≤ (i 1).val ∧ (i 1).val < win1_2.index _ (1 : Fin 3) * 1024 + 1024; rw [e5]; show (i 1).val / 1024 * 1024 ≤ (i 1).val ∧ (i 1).val < (i 1).val / 1024 * 1024 + 1024; omega
  | ⟨2, _⟩ => show win1_2.index _ (2 : Fin 3) * 128 ≤ (i 2).val ∧ (i 2).val < win1_2.index _ (2 : Fin 3) * 128 + 128; omega

/-- THE OUTPUT ARRAY after the last point is `tcOut sg x`: every block written is its block, and the blocks cover it. -/
theorem final_2 (c : Dev nD) : (dat sg x y0 O W c).arrAt 2 cfg1.N = tcOut sg x :=
  (dat sg x y0 O W c).arrAt_eq_of_cover 2 (tcOut sg x) (fun t _ => flushed_eq sg x y0 O W c t) covered

/-- The inputs' arrays are never written. -/
theorem final_0 (c : Dev nD) : (dat sg x y0 O W c).arrAt 0 cfg1.N = sg :=
  ((dat sg x y0 O W c).arrAt_in 0 rfl _).trans (A_eq sg x y0 O W c 0)
theorem final_1 (c : Dev nD) : (dat sg x y0 O W c).arrAt 1 cfg1.N = x :=
  ((dat sg x y0 O W c).arrAt_in 1 rfl _).trans (A_eq sg x y0 O W c 1)

/-! ## The region -/

abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c :=
  fun _ c => dat sg x y0 O W c

set_option backward.isDefEq.respectTransparency.types false in
/-- The region over the thread state "the scale vector, the input and the output held whole, and the core owing `O`":
    entered with the three arrays sorted into the pipeline's, left with the output at `tcOut sg x`. Nothing enters the
    invariant but the scoped buffers the pipeline does not stage; the kernel has no semaphore of its own; every wait of
    the pipeline is at the kernel's own index, below everything the core owes. -/
def reg (hO : ∀ g, O g none = 0) : Pipeline.RegionSeg (pcfgs (F := F)) adm (pdats sg x y0 O W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation sg x y0 O W c).loose
  hwaits c := Pipeline.cellsWaits_intro (Pipeline.pin (pcfgs (F := F)) adm) (pdats sg x y0 O W) none 0 c fun w s t => (K (F := F)).mayWait_none _ hO
  pre c := iprop((v4Loc c ↦{fullShare} sg) ∗ (v5Loc c ↦{fullShare} x) ∗ (v6Loc c ↦{fullShare} y0) ∗ owes (SparseCore.T c) O W)
  post c := iprop((v4Loc c ↦{fullShare} sg) ∗ (v5Loc c ↦{fullShare} x) ∗ (v6Loc c ↦{fullShare} tcOut sg x)
    ∗ ∃ W', ⌜∀ p ∈ W', p ∈ W ∨ p.2 = none⌝ ∗ owes (SparseCore.T c) O W')
  X _ := BI.emp
  Y _ := BI.emp
  Z _ := BI.emp
  hentry c := by
    rw [Pipeline.ownSems0_none, Pipeline.arrays_eq (Pipeline.pin (pcfgs (F := F)) adm) (pdats sg x y0 O W) 0 c launch1.arr_whole ((pdats sg x y0 O W 0 c).share_full fun _ => rfl), bigSep_W1]
    iintro ⟨⟨H4, H5, H6, HO⟩, -, -⟩
    imodintro
    isplitl [H4 H5 H6]
    · isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr; · iempintro
    iempintro
  hin c := by
    rw [show (pdats sg x y0 O W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats sg x y0 O W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have h0 : (pdats sg x y0 O W 0 c).arrAt 0 (Pipeline.pin (pcfgs (F := F)) adm 0).N = sg := final_0 sg x y0 O W c
    have h1 : (pdats sg x y0 O W 0 c).arrAt 1 (Pipeline.pin (pcfgs (F := F)) adm 0).N = x := final_1 sg x y0 O W c
    have h2 : (pdats sg x y0 O W 0 c).arrAt 2 (Pipeline.pin (pcfgs (F := F)) adm 0).N = tcOut sg x := final_2 sg x y0 O W c
    rw [Pipeline.arrays_eq (Pipeline.pin (pcfgs (F := F)) adm) (pdats sg x y0 O W) 0 c launch1.arr_whole ((pdats sg x y0 O W 0 c).share_full fun _ => rfl), bigSep_W1, h0, h1, h2]
    iintro ⟨⟨H4, H5, H6⟩, HO, -, -⟩
    imodintro
    isplitl [H4]; · iexact H4
    isplitl [H5]; · iexact H5
    isplitl [H6]; · iexact H6
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

end Data

/-! ## The region as one step of the TensorCore's thread -/

set_option backward.isDefEq.respectTransparency.types false in
/-- The TensorCore region of the program, inside the program's extended body table: from the region boundary, the level
    facts, the scale vector, the input and the output held whole, the core owing `O` with nothing at the kernel's own
    index, and the staging cells' ghost state, the call runs to the boundary, the three arrays with the output at
    `tcOut sg x`, and the core owing `O` still, its recorded pairs those it came with or at the kernel's own index. -/
theorem tc_region (d : Dev nD) (sg : Buf (Elt F) (v4Loc d)) (x : Buf (Elt F) (v5Loc d)) (O : CellTallies nD τ sig (HIx 1)) (W : Waits sig (HIx 1)) (hO : ∀ g, O g none = 0)
    {α : Type} (k : PUnit → Prog (TpuEff nD τ sig (Elt F) (SparseCore.Sig (ΛP (F := F)) 1) .tc) α) (Φ : α → sProp 𝕄) :
    iprop(boundary (SparseCore.T d) ∗ levAts (K (F := F)).L (K (F := F)).lev
        ∗ (v4Loc d ↦{fullShare} sg) ∗ (v5Loc d ↦{fullShare} x) ∗ (∃ f, v6Loc d ↦{fullShare} f)
        ∗ owes (SparseCore.T d) O W
        ∗ Pipeline.cellsGhost cfgs EP 0 d ∗ Pipeline.toksInit cfgs EP 0 d
        ∗ (iprop(boundary (SparseCore.T d) ∗ (v4Loc d ↦{fullShare} sg) ∗ (v5Loc d ↦{fullShare} x) ∗ (v6Loc d ↦{fullShare} tcOut sg x)
              ∗ ∃ W', ⌜∀ p ∈ W', p ∈ W ∨ p.2 = none⌝ ∗ owes (SparseCore.T d) O W')
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (.op (.customCall (SparseCore.inner (Pipeline.entry 0)) ()) k) Φ := by
  iintro ⟨Hb, #HL, H4, H5, ⟨%y0, H6⟩, HO, Hg, Ht, Hk⟩
  rw [show (Prog.op (.customCall (SparseCore.inner (Pipeline.entry 0)) ()) k : Prog (TpuEff nD τ sig (Elt F) (SparseCore.Sig (ΛP (F := F)) 1) .tc) α)
      = ((SparseCore.liftProg (Q := 1) (Prog.op (.customCall (Pipeline.entry 0) ()) Prog.ret : Prog (TpuEff nD τ sig (Elt F) (ΛP (F := F)) .tc) PUnit)) >>= k) from rfl, wp_bind]
  iapply ((K (F := F)).wp_liftProg (D (F := F)) 𝒱 (SparseCore.T d) Set.univ none _ _)
  iapply (Pipeline.RegionSeg.wp (pcfgs (F := F)) adm (pdats sg x y0 O W) none cellOf_inj EP defs₀ 𝒱₀ (K (F := F)).L (K (F := F)).lev (reg sg x y0 O W hO) d none (fun _ h => nomatch h) Prog.ret _)
  rw [show (reg sg x y0 O W hO).post d = iprop((v4Loc d ↦{fullShare} sg) ∗ (v5Loc d ↦{fullShare} x) ∗ (v6Loc d ↦{fullShare} tcOut sg x)
      ∗ ∃ W', ⌜∀ p ∈ W', p ∈ W ∨ p.2 = none⌝ ∗ owes (SparseCore.T d) O W') from rfl,
    show (reg sg x y0 O W hO).pre d = iprop((v4Loc d ↦{fullShare} sg) ∗ (v5Loc d ↦{fullShare} x) ∗ (v6Loc d ↦{fullShare} y0) ∗ owes (SparseCore.T d) O W) from rfl]
  isplitl [Hk]
  · iintro ⟨Hb, H4, H5, H6, HO⟩
    iapply (le_wp_ret _ _ _ _ _)
    iapply Hk
    isplitl [Hb]; · iexact Hb
    isplitl [H4]; · iexact H4
    isplitl [H5]; · iexact H5
    isplitl [H6]; · iexact H6
    iexact HO
  isplitl [Hb]; · iexact Hb
  isplitl [H4 H5 H6 HO]
  · isplitl [H4]; · iexact H4
    isplitl [H5]; · iexact H5
    isplitl [H6]; · iexact H6
    iexact HO
  isplitr; · iexact HL
  isplitl [Hg]; · iexact Hg
  iexact Ht

end Cert.Kernel.Hand

end
-- ==== Proof.Kernel.Launch.lean ====
/-
  The kernel program's run, through the launch theorem of a SparseCore program: the launch element of the ghost state (the
  handshakes' rounds and the one region's staging cells funded, the transfers' counters untouched), @main on the TensorCore — six
  host operations over its thirteen arrays held whole, the SparseCore call handing SparseCore 0 the padded index vector, the table
  and the scale vector's buffer and getting them back with the scale vector written, a transposition, the TensorCore region, a
  transposition —, how the final memory reads the held arrays, and the last valuation read back: the result array is the
  transposition back of the region's output, the arguments are unchanged.
-/
import proofs.«205909_g45389214384387_cont_8to1c4_201_25_alg».proof.Proof.Kernel.HostOps
import proofs.«205909_g45389214384387_cont_8to1c4_201_25_alg».proof.Proof.Kernel.PadIdx
import proofs.«205909_g45389214384387_cont_8to1c4_201_25_alg».proof.Proof.Kernel.ScBody
import proofs.«205909_g45389214384387_cont_8to1c4_201_25_alg».proof.Proof.Kernel.TcRegion
import proofs.«205909_g45389214384387_cont_8to1c4_201_25_alg».proof.Proof.LibHeld

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds, the staging cells' rounds; the counters are not used at launch -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from besides the launch's deal: the staging cells' ghost state and duty tokens of its regions (one). -/
abbrev G (d : Dev nD) : sProp 𝕄 :=
  iprop((bigSep Finset.univ fun p : Fin 1 => Pipeline.cellsGhost cfgs EP p d) ∗ (bigSep Finset.univ fun p : Fin 1 => Pipeline.toksInit cfgs EP p d))

variable (ip : (d : Dev nD) → Buf (Elt F) (v3Loc d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m ip).x q thr) := by
  unfold u₀ G EP
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) (Val := Elt F) (Ix := HIx 1) (Name := ℕ) (U := UU) (Lvl := ℕ) cfgs ((Emb.inl : Emb UP (UP × Counters)).trans embR) cellOf_inj) $$ HP with ⟨Hg, Ht⟩
  imodintro
  isplitl [HH]; · iexact HH
  isplitl [Hg Ht]
  · rw [bigSep_sep']
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The scale vector the call writes. -/
def sgOf (d : Dev nD) : Buf (Elt F) (v4Loc d) := sigOf (ipOf m d) (m (lwLoc d))
/-- After the call; after the transposition before the region; after the region; after the last transposition. -/
def V7 (d : Dev nD) : Valuation τ sig (Elt F) := Function.update (V6 m d) r_v4 (sgOf m d)
def V8 (d : Dev nD) : Valuation τ sig (Elt F) := (op7 (F := F)).result (V7 m d)
def V9 (d : Dev nD) : Valuation τ sig (Elt F) := Function.update (V8 m d) r_v6 (tcOut (V8 m d r_v4) (V8 m d r_v5))
def V10 (d : Dev nD) : Valuation τ sig (Elt F) := (op8 (F := F)).result (V9 m d)

/-- What @main leaves the claim: its thirteen arrays at the last valuation. -/
abbrev FIN (d : Dev nD) : sProp 𝕄 := held (T d) S13 (V10 m d)

theorem h1 : (op1 (F := F)).bufs ⊆ S13 := show ({r_c} : Finset (DevRef τ sig)) ⊆ S13 by decide
theorem h2 : (op2 (F := F)).bufs ⊆ S13 := show ({r_c, r_v0} : Finset (DevRef τ sig)) ⊆ S13 by decide
theorem h3 : (op3 (F := F)).bufs ⊆ S13 := show ({r_a0, r_v1} : Finset (DevRef τ sig)) ⊆ S13 by decide
theorem h4 : (op4 (F := F)).bufs ⊆ S13 := show ({r_c0} : Finset (DevRef τ sig)) ⊆ S13 by decide
theorem h5 : (op5 (F := F)).bufs ⊆ S13 := show ({r_c0, r_v2} : Finset (DevRef τ sig)) ⊆ S13 by decide
theorem h6 : (op6 (F := F)).bufs ⊆ S13 := show ({r_v0, r_v2, r_v1, r_v3} : Finset (DevRef τ sig)) ⊆ S13 by decide
theorem h7 : (op7 (F := F)).bufs ⊆ S13 := show ({r_a1, r_v5} : Finset (DevRef τ sig)) ⊆ S13 by decide
theorem h8 : (op8 (F := F)).bufs ⊆ S13 := show ({r_v6, r_v7} : Finset (DevRef τ sig)) ⊆ S13 by decide

/-- The call's three arrays and the region's three. -/
abbrev Tcall : Finset (DevRef τ sig) := {r_v3, r_a2, r_v4}
abbrev Treg : Finset (DevRef τ sig) := {r_v4, r_v5, r_v6}

omit [FloatOps F] in
theorem held_Tcall (d : Dev nD) (W : Valuation τ sig (Elt F)) :
    (held (T d) Tcall W : sProp 𝕄) = iprop((v3Loc d ↦{fullShare} W r_v3) ∗ (lwLoc d ↦{fullShare} W r_a2) ∗ v4Loc d ↦{fullShare} W r_v4) := by
  unfold held Tcall
  rw [SparseCore.bigSep_insert' (by decide), SparseCore.bigSep_insert' (by decide), bigSep_singleton]
omit [FloatOps F] in
theorem held_Treg (d : Dev nD) (W : Valuation τ sig (Elt F)) :
    (held (T d) Treg W : sProp 𝕄) = iprop((v4Loc d ↦{fullShare} W r_v4) ∗ (v5Loc d ↦{fullShare} W r_v5) ∗ v6Loc d ↦{fullShare} W r_v6) := by
  unfold held Treg
  rw [SparseCore.bigSep_insert' (by decide), SparseCore.bigSep_insert' (by decide), bigSep_singleton]

theorem st0_eq (d : Dev nD) : (bigSep Finset.univ fun c : Fin ((K (F := F)).nCore 0) => (P m ip).st 0 d c) = iprop(callIn m ip d ∗ emp) := by
  show (bigSep (Finset.univ : Finset (Fin 2)) fun c => coreIn m ip d c.val) = _
  rw [show (Finset.univ : Finset (Fin 2)) = {0, 1} by decide, SparseCore.bigSep_insert' (by decide), bigSep_singleton]
  show iprop(coreIn m ip d 0 ∗ coreIn m ip d 1) = _
  rw [show coreIn m ip d 0 = callIn m ip d from if_pos rfl, show coreIn m ip d 1 = iprop(emp) from if_neg Nat.one_ne_zero]
theorem dn0_eq (d : Dev nD) : (bigSep Finset.univ fun c : Fin ((K (F := F)).nCore 0) => (P m ip).dn 0 d c) = iprop(callOut m ip d ∗ emp) := by
  show (bigSep (Finset.univ : Finset (Fin 2)) fun c => coreOut m ip d c.val) = _
  rw [show (Finset.univ : Finset (Fin 2)) = {0, 1} by decide, SparseCore.bigSep_insert' (by decide), bigSep_singleton]
  show iprop(coreOut m ip d 0 ∗ coreOut m ip d 1) = _
  rw [show coreOut m ip d 0 = callOut m ip d from if_pos rfl, show coreOut m ip d 1 = iprop(emp) from if_neg Nat.one_ne_zero]

theorem V7_v3 (d : Dev nD) : V7 m d r_v3 = ipOf m d := Function.update_of_ne (show r_v3 ≠ r_v4 by decide) _ _
theorem V7_a2 (d : Dev nD) : V7 m d r_a2 = m (lwLoc d) := (Function.update_of_ne (show r_a2 ≠ r_v4 by decide) _ _).trans (V6_a2 m d)
theorem V7_v4 (d : Dev nD) : V7 m d r_v4 = sgOf m d := Function.update_self _ _ _
theorem V7_rest (d : Dev nD) : ∀ b ∈ S13 \ Tcall, V7 m d b = V6 m d b := by
  intro b hb
  refine Function.update_of_ne ?_ _ _
  rintro rfl
  exact (Finset.mem_sdiff.mp hb).2 (by decide)
theorem V9_v4 (d : Dev nD) : V9 m d r_v4 = V8 m d r_v4 := Function.update_of_ne (show r_v4 ≠ r_v6 by decide) _ _
theorem V9_v5 (d : Dev nD) : V9 m d r_v5 = V8 m d r_v5 := Function.update_of_ne (show r_v5 ≠ r_v6 by decide) _ _
theorem V9_v6 (d : Dev nD) : V9 m d r_v6 = tcOut (V8 m d r_v4) (V8 m d r_v5) := Function.update_self _ _ _
theorem V9_rest (d : Dev nD) : ∀ b ∈ S13 \ Treg, V9 m d b = V8 m d b := by
  intro b hb
  refine Function.update_of_ne ?_ _ _
  rintro rfl
  exact (Finset.mem_sdiff.mp hb).2 (by decide)

theorem hO1 (d : Dev nD) : ∀ g, (K (F := F)).Otc d 1 g none = 0 := by
  intro g; rw [(K (F := F)).Otc_end d (le_refl 1)]; rfl

/-- The held arrays after the six operations, with the call's three taken out. -/
theorem held_call_split (d : Dev nD) :
    (held (SparseCore.T d) S13 ((op6 (F := F)).result ((op5 (F := F)).result ((op4 (F := F)).result ((op3 (F := F)).result ((op2 (F := F)).result ((op1 (F := F)).result (V0 m d)))))) ) : sProp 𝕄)
      = iprop(((v3Loc d ↦{fullShare} ipOf m d) ∗ (lwLoc d ↦{fullShare} m (lwLoc d)) ∗ v4Loc d ↦{fullShare} V6 m d r_v4) ∗ held (SparseCore.T d) (S13 \ Tcall) (V6 m d)) := by
  rw [show (op6 (F := F)).result ((op5 (F := F)).result ((op4 (F := F)).result ((op3 (F := F)).result ((op2 (F := F)).result ((op1 (F := F)).result (V0 m d)))))) = V6 m d from rfl,
    held_sub_split (SparseCore.T d) (show Tcall ⊆ S13 by decide) (V6 m d), held_Tcall, V6_a2]
  rfl
/-- The held arrays after the call, the scale vector written. -/
theorem held_call_join (d : Dev nD) :
    (iprop(((v3Loc d ↦{fullShare} ipOf m d) ∗ (lwLoc d ↦{fullShare} m (lwLoc d)) ∗ v4Loc d ↦{fullShare} sgOf m d) ∗ held (SparseCore.T d) (S13 \ Tcall) (V6 m d)) : sProp 𝕄)
      = held (SparseCore.T d) S13 (V7 m d) := by
  rw [Cert.LibHeld.held_split_at (c := SparseCore.T d) (show Tcall ⊆ S13 by decide) (V6 m d) (V7 m d) (V7_rest m d), held_Tcall, V7_v3, V7_a2, V7_v4]
/-- The held arrays before the region, with the region's three taken out. -/
theorem held_reg_split (d : Dev nD) :
    (held (SparseCore.T d) S13 ((op7 (F := F)).result (V7 m d)) : sProp 𝕄)
      = iprop(((v4Loc d ↦{fullShare} V8 m d r_v4) ∗ (v5Loc d ↦{fullShare} V8 m d r_v5) ∗ v6Loc d ↦{fullShare} V8 m d r_v6) ∗ held (SparseCore.T d) (S13 \ Treg) (V8 m d)) := by
  rw [show (op7 (F := F)).result (V7 m d) = V8 m d from rfl, held_sub_split (SparseCore.T d) (show Treg ⊆ S13 by decide) (V8 m d), held_Treg]
/-- The held arrays after the region, the output written. -/
theorem held_reg_join (d : Dev nD) :
    (iprop(((v4Loc d ↦{fullShare} V8 m d r_v4) ∗ (v5Loc d ↦{fullShare} V8 m d r_v5) ∗ v6Loc d ↦{fullShare} tcOut (V8 m d r_v4) (V8 m d r_v5)) ∗ held (SparseCore.T d) (S13 \ Treg) (V8 m d)) : sProp 𝕄)
      = held (SparseCore.T d) S13 (V9 m d) := by
  rw [Cert.LibHeld.held_split_at (c := SparseCore.T d) (show Treg ⊆ S13 by decide) (V8 m d) (V9 m d) (V9_rest m d), held_Treg, V9_v4, V9_v5, V9_v6]

/-- The TensorCore's handshake state gives up what it owes and takes it back at any recorded waits below the same bound. -/
theorem tcSt_owes (d : Dev nD) (n : ℕ) :
    ((K (F := F)).tcSt EH d n : sProp 𝕄) ⊢ iprop(∃ W, ⌜(K (F := F)).WBelow (SparseCore.T d) W (8 * n)⌝ ∗ owes (SparseCore.T d) ((K (F := F)).Otc d n) W
      ∗ (∀ W', ⌜(K (F := F)).WBelow (SparseCore.T d) W' (8 * n)⌝ -∗ owes (SparseCore.T d) ((K (F := F)).Otc d n) W' -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' %hW' HO
  isplitl [HO]
  · iexists W'; isplitr
    · ipureintro; exact hW'
    · iexact HO
  · iexact Hrest

/-- @main on device `d`'s TensorCore. -/
theorem hmain (κ : GSem nD τ sig → ℕ) (d : Dev nD) :
    iprop((K (F := F)).ctx EH (P m (ipOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure, Prog.lift]
  iintro ⟨#Hctx, Hst, ⟨Hb, Hheld, -, -⟩, ⟨Hcg, Htk⟩⟩
  iapply (wp_hlo_within 𝒱 (SparseCore.T d) none Set.univ (op := op1) (S := S13) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S13) h2 (V := _)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S13) h3 (V := _)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S13) h4 (V := _)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S13) h5 (V := _)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S13) h6 (V := _)) $$ [Hb Hheld]
  · isplitl [Hb]; · iexact Hb
    iexact Hheld
  iintro ⟨Hb, Hheld⟩
  rw [wp_ret]; imodintro
  -- the call: the padded index vector, the table and the scale vector's buffer to SparseCore 0 and back
  ihave Hheld' := (Entails.of_eq (held_call_split m d)) $$ Hheld
  icases Hheld' with ⟨⟨Hv3, Hlw, Hv4⟩, Hrest⟩
  iapply ((K (F := F)).wp_run (D (F := F)) 𝒱 (EH := EH) (P := P m (ipOf m)) κ d 0) $$ [Hst Hv3 Hlw Hv4 Hb Hrest Hcg Htk]
  isplitr; · iexact Hctx
  isplitl [Hst]; · iexact Hst
  isplitl [Hv3 Hlw Hv4]
  · rw [st0_eq]
    isplitl [Hv3 Hlw Hv4]
    · isplitl [Hv3]; · iexact Hv3
      isplitl [Hlw]; · iexact Hlw
      iexists _; iexact Hv4
    · iempintro
  iintro ⟨Hst, Hdn⟩
  ihave Hdn' := (Entails.of_eq (dn0_eq m (ipOf m) d)) $$ Hdn
  icases Hdn' with ⟨⟨Hv3, Hlw, Hv4⟩, -⟩
  ihave Hheld := (Entails.of_eq (held_call_join m d)) $$ [Hv3 Hlw Hv4 Hrest]
  · isplitr [Hrest]
    · isplitl [Hv3]; · iexact Hv3
      isplitl [Hlw]; · iexact Hlw
      iexact Hv4
    · iexact Hrest
  iapply (wp_hlo_within 𝒱 (SparseCore.T d) none Set.univ (op := op7) (S := S13) h7 (V := V7 m d)) $$ [Hb Hheld]
  · isplitl [Hb]; · iexact Hb
    iexact Hheld
  iintro ⟨Hb, Hheld⟩
  rw [wp_ret]; imodintro
  -- the region: the scale vector, the transposed array and the output's buffer
  ihave Hheld' := (Entails.of_eq (held_reg_split m d)) $$ Hheld
  icases Hheld' with ⟨⟨Hv4, Hv5, Hv6⟩, Hrest⟩
  ihave Hst1 := (Entails.of_eq (show ((K (F := F)).tcSt EH d ((0 : Fin 1).val + 1) : sProp 𝕄) = (K (F := F)).tcSt EH d 1 from rfl)) $$ Hst
  ihave Hst' := (tcSt_owes d 1) $$ Hst1
  icases Hst' with ⟨%W, %hW, HO, Hback⟩
  ihave #Hlev := (SparseCore.Cfg.ctx_levAts κ) $$ Hctx
  ihave Hcg' := (Entails.of_eq (bigSep_univ_of_subsingleton (0 : Fin 1))) $$ Hcg
  ihave Htk' := (Entails.of_eq (bigSep_univ_of_subsingleton (0 : Fin 1))) $$ Htk
  iapply (tc_region (F := F) d (V8 m d r_v4) (V8 m d r_v5) ((K (F := F)).Otc d 1) W (hO1 d) _ _) $$ [Hb Hv4 Hv5 Hv6 HO Hcg' Htk' Hrest Hback]
  isplitl [Hb]; · iexact Hb
  isplitr; · iexact Hlev
  isplitl [Hv4]; · iexact Hv4
  isplitl [Hv5]; · iexact Hv5
  isplitl [Hv6]; · iexists _; iexact Hv6
  isplitl [HO]; · iexact HO
  isplitl [Hcg']; · iexact Hcg'
  isplitl [Htk']; · iexact Htk'
  iintro ⟨Hb, Hv4, Hv5, Hv6, %W', %hW', HO⟩
  rw [wp_ret]; imodintro
  ihave Hheld := (Entails.of_eq (held_reg_join m d)) $$ [Hv4 Hv5 Hv6 Hrest]
  · isplitr [Hrest]
    · isplitl [Hv4]; · iexact Hv4
      isplitl [Hv5]; · iexact Hv5
      iexact Hv6
    · iexact Hrest
  iapply (wp_hlo_within 𝒱 (SparseCore.T d) none Set.univ (op := op8) (S := S13) h8 (V := V9 m d)) $$ [Hb Hheld]
  · isplitl [Hb]; · iexact Hb
    iexact Hheld
  iintro ⟨Hb, Hheld⟩
  rw [wp_ret]; imodintro; imodintro
  isplitr [Hheld]
  · iapply Hback $$ [] [HO]
    · ipureintro
      intro p hp
      rcases hW' p hp with h | h
      · exact hW p h
      · show (K (F := F)).lev _ p.2 ≤ _
        rw [h]; exact Nat.zero_le _
    · iexact HO
  · iexact Hheld

/-! ## The last valuation read back -/

theorem V10_of_old (d : Dev nD) (b : DevRef τ sig) (h7 : b ≠ r_v7) (h6 : b ≠ r_v6) (h5 : b ≠ r_v5) (h4 : b ≠ r_v4) : V10 m d b = V6 m d b := by
  unfold V10
  rw [(op8 (F := F)).result_of_not_mem (V9 m d) (b := b) (show b ∉ ({r_v7} : Finset (DevRef τ sig)) by simpa using h7)]
  unfold V9
  rw [Function.update_of_ne h6]
  unfold V8
  rw [(op7 (F := F)).result_of_not_mem (V7 m d) (b := b) (show b ∉ ({r_v5} : Finset (DevRef τ sig)) by simpa using h5)]
  unfold V7
  rw [Function.update_of_ne h4]

theorem V10_a0 (d : Dev nD) : V10 m d r_a0 = m (a0Loc d) :=
  (V10_of_old m d r_a0 (by decide) (by decide) (by decide) (by decide)).trans (V6_a0 m d)
theorem V10_a1 (d : Dev nD) : V10 m d r_a1 = m (a1Loc d) :=
  (V10_of_old m d r_a1 (by decide) (by decide) (by decide) (by decide)).trans (V6_a1 m d)
theorem V10_a2 (d : Dev nD) : V10 m d r_a2 = m (lwLoc d) :=
  (V10_of_old m d r_a2 (by decide) (by decide) (by decide) (by decide)).trans (V6_a2 m d)

theorem V8_v4 (d : Dev nD) : V8 m d r_v4 = sgOf m d := by
  unfold V8
  rw [(op7 (F := F)).result_of_not_mem (V7 m d) (b := r_v4) (show r_v4 ∉ ({r_v5} : Finset (DevRef τ sig)) by decide), V7_v4]
theorem V8_v5 (d : Dev nD) :
    V8 m d r_v5 = transpose S26x16384x128 [1, 0, 2] (m (a1Loc d)) transposes_S16384x26x128_S26x16384x128_1_0_2 := by
  unfold V8
  rw [show (op7 (F := F)).result (V7 m d) r_v5 = _ from StableHlo.unary_result main_arg1 main_v5 _ _ _ (V7 m d)]
  show transpose S26x16384x128 [1, 0, 2] (V7 m d r_a1) _ = _
  rw [show V7 m d r_a1 = V6 m d r_a1 from Function.update_of_ne (show r_a1 ≠ r_v4 by decide) _ _, V6_a1]

/-- The result array: the transposition back of the region's output on the transposed input and the call's scale vector. -/
theorem V10_v7 (d : Dev nD) :
    V10 m d r_v7 = transpose S16384x26x128 [1, 0, 2]
      (tcOut (sgOf m d) (transpose S26x16384x128 [1, 0, 2] (m (a1Loc d)) transposes_S16384x26x128_S26x16384x128_1_0_2))
      transposes_S26x16384x128_S16384x26x128_1_0_2 := by
  unfold V10
  rw [show (op8 (F := F)).result (V9 m d) r_v7 = _ from StableHlo.unary_result main_v6 main_v7 _ _ _ (V9 m d)]
  show transpose S16384x26x128 [1, 0, 2] (V9 m d r_v6) _ = _
  rw [V9_v6, V8_v4, V8_v5]

/-! ## The final memory, and the program's run -/

def fq (d : Dev nD) (s' : Phys nD τ sig (Elt F)) : Prop := ∀ b ∈ S13, s'.mem.mem ((d, b) : Loc nD τ sig) = V10 m d b

theorem hfin (d : Dev nD) (s' : Phys nD τ sig (Elt F)) : iprop(FIN m d ∗ SI s') ⊢ (⌜fq m d s'⌝ : sProp 𝕄) := by
  iintro ⟨H, HSI⟩
  ihave R := (Cert.LibHeld.held_agree (SparseCore.T d) (V10 m d) s' S13) $$ [HSI H]
  · isplitl [HSI] <;> iassumption
  icases R with %h
  ipureintro; exact h

/-- The run's post: the result array at the last valuation, the three arguments unchanged. -/
def QC : PUnit × MemSt nD τ sig (Elt F) → Prop := fun r => ∀ c : Dev nD,
  r.2.mem ((c.tc : Thread nD τ).loc main_v7) = V10 m c r_v7
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem hQ (s' : Phys nD τ sig (Elt F)) (h : ∀ d, fq m d s') : QC m (⟨⟩, s'.mem) := by
  intro c
  have hc : ∀ b ∈ S13, s'.mem.mem ((c, b) : Loc nD τ sig) = V10 m c b := h c
  exact ⟨hc r_v7 (by decide), (hc r_a0 (by decide)).trans (V10_a0 m c), (hc r_a1 (by decide)).trans (V10_a1 m c), (hc r_a2 (by decide)).trans (V10_a2 m c)⟩

/-- Every weakly fair execution of the program's threads ends, nothing faulting, with the result array at the last valuation and
    the arguments unchanged — when every word of the padded index vector names a table position. -/
theorem run_main [∀ e, Nonempty (Elt F e)] (hip : ∀ (d : Dev nD) (x : S32.Idx), ((ipOf m d : IVec S32 32) x).toNat < 100) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (ipOf m)) facts v₀
    (fun q hq => match q with | 0 => nomatch hq)
    (fun q _ => match q with | 0 => tileObl m (ipOf m) hip)
    (fun q _ => match q with | 0 => SparseCore.Cfg.VecSplit.of_plain (vecSplit m (ipOf m)))
    m ρ main (G (F := F)) (FIN m) (u₀ (F := F)) (sep_elim_left.trans (hu₀ m (ipOf m))) (hmain m ρ) (fq m) (hfin m) (QC m) (hQ m)

end Cert.Kernel.Hand

end
-- ==== Proof.KernelIdeal.World.lean ====
/-
  The program as the launch theorem of a SparseCore program sees it, and the vocabulary the body, region and launch modules share:
  the configuration, the ghost state (the handshakes' rounds, the staging cells' rounds of the one TensorCore region, the
  transfers' counters, side by side), the locations of the arrays the SparseCore call and the TensorCore region exchange, the two
  pure functions they compute, and what the call's handshakes carry.

  The SparseCore call reads the padded index vector `ip` (32 words) and the table `lw` (100 entries) and writes the scale vector:
  lane `k` of it is `1 / (1 + exp (0 - lw (row k)))` at the table position `row k` word `k` names. Only vector subcore 0 of SparseCore 0
  works; it is handed the three arrays whole and hands them back, the scale vector written; every other subcore is handed nothing.
  The TensorCore region then multiplies row `j` of a [26, 16384, 128] array by lane `j` of the scale vector.
-/
import proofs.«205909_g45389214384387_cont_8to1c4_201_25_alg».proof.KernelIdeal
import proofs.«205909_g45389214384387_cont_8to1c4_201_25_alg».proof.Proof.Gen.KernelIdeal
import proofs.«205909_g45389214384387_cont_8to1c4_201_25_alg».proof.Proof.Gen.KernelIdeal.Skeleton
import proofs.«205909_g45389214384387_cont_8to1c4_201_25_alg».proof.Proof.Gen.KernelIdeal.Launch
import proofs.«205909_g45389214384387_cont_8to1c4_201_25_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The staging cells' rounds: the left of the right component (the counters are found by instance in its right). -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays the call and the region exchange -/

abbrev a0Loc (d : Dev nD) : Loc nD τ sig := (SparseCore.T d).loc main_arg0
abbrev a1Loc (d : Dev nD) : Loc nD τ sig := (SparseCore.T d).loc main_arg1
abbrev lwLoc (d : Dev nD) : Loc nD τ sig := (SparseCore.T d).loc main_arg2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6
abbrev v7Loc (d : Dev nD) : Loc nD τ sig := (SparseCore.T d).loc main_v7

variable [FloatOps F]

/-! ## The two pure functions -/

/-- The table position an index word names (clamped to the last position, so that it is total). -/
def rowT (w : BitVec 32) : Fin 100 := ⟨min w.toNat 99, by omega⟩

/-- One lane of the scale vector from its table entry: `1 / (1 + exp (0 - x))`, in the operations' own spelling. -/
def sigLane (x : F .f32) : F .f32 :=
  FloatOps.divf (Scalar.ofBits .f32 0x3F800000#32)
    (FloatOps.addf (Scalar.ofBits .f32 0x3F800000#32) (FloatOps.exp (FloatOps.subf (Scalar.ofBits .f32 0x00000000#32) x)))

/-- The scale vector: lane `k` from the table entry index word `k` names. -/
def sigOf (ip : IVec S32 32) (lw : FVec F S100 .f32) : FVec F S32 .f32 := fun k => sigLane (lw (ix1 (rowT (ip k))))

/-- The region's result: row `j` of `x` times lane `j` of the scale vector. -/
def tcOut (sg : FVec F S32 .f32) (x : FVec F S26x16384x128 .f32) : FVec F S26x16384x128 .f32 :=
  fun i => FloatOps.mulf (x i) (sg (ix1 (Fin.castLE (by decide) (i 0) : Fin 32)))

/-! ## What the handshakes carry -/

variable (m : (ℓ : Loc nD τ sig) → Buf (Elt F) ℓ) (ip : (d : Dev nD) → Buf (Elt F) (v3Loc d))

/-- The three arrays of the call, whole: the index vector and the table at their contents, the scale vector at anything. -/
abbrev callIn (d : Dev nD) : sProp 𝕄 :=
  iprop((v3Loc d ↦{fullShare} ip d) ∗ (lwLoc d ↦{fullShare} m (lwLoc d)) ∗ ∃ f, v4Loc d ↦{fullShare} f)
/-- The same with the scale vector written. -/
abbrev callOut (d : Dev nD) : sProp 𝕄 :=
  iprop((v3Loc d ↦{fullShare} ip d) ∗ (lwLoc d ↦{fullShare} m (lwLoc d)) ∗ v4Loc d ↦{fullShare} sigOf (ip d) (m (lwLoc d)))

/-- What SparseCore number `c` is handed and hands back: the arrays for SparseCore 0, nothing for the other. -/
def coreIn (d : Dev nD) (c : ℕ) : sProp 𝕄 := if c = 0 then callIn m ip d else iprop(emp)
def coreOut (d : Dev nD) (c : ℕ) : sProp 𝕄 := if c = 0 then callOut m ip d else iprop(emp)
/-- What vector subcore `i` of SparseCore `c` is handed and hands back: the arrays for subcore 0 of SparseCore 0, nothing for the others. -/
def tileIn (d : Dev nD) (c i : ℕ) : sProp 𝕄 := if c = 0 ∧ i = 0 then callIn m ip d else iprop(emp)
def tileOut (d : Dev nD) (c i : ℕ) : sProp 𝕄 := if c = 0 ∧ i = 0 then callOut m ip d else iprop(emp)

instance coreIn_storable (d : Dev nD) (c : ℕ) : BI.Storable (upEmb : UEmb _ 𝕄) (coreIn m ip d c) := by unfold coreIn; split <;> infer_instance
instance coreOut_storable (d : Dev nD) (c : ℕ) : BI.Storable (upEmb : UEmb _ 𝕄) (coreOut m ip d c) := by unfold coreOut; split <;> infer_instance
instance tileIn_storable (d : Dev nD) (c i : ℕ) : BI.Storable (upEmb : UEmb _ 𝕄) (tileIn m ip d c i) := by unfold tileIn; split <;> infer_instance
instance tileOut_storable (d : Dev nD) (c i : ℕ) : BI.Storable (upEmb : UEmb _ 𝕄) (tileOut m ip d c i) := by unfold tileOut; split <;> infer_instance

/-- The one call's payloads; the kernel's proof consumes nothing of the launch's. -/
def P : (K (F := F)).Pay (nD := nD) (Val := Elt F) (Name := ℕ) (U := UU) where
  st := fun _ d c => coreIn m ip d c.val
  dn := fun _ d c => coreOut m ip d c.val
  go := fun _ d c i => tileIn m ip d c.val i.val
  td := fun _ d c i => tileOut m ip d c.val i.val
  x := fun _ _ => iprop(emp)

instance P_storable : (P (F := F) m ip).IsStorable where
  st _ d c := by unfold P; infer_instance
  dn _ d c := by unfold P; infer_instance
  go _ _ _ _ := by unfold P; infer_instance
  td _ _ _ _ := by unfold P; infer_instance

end Cert.KernelIdeal.Hand

end
-- ==== Proof.KernelIdeal.HostOps.lean ====
/-
  @main's host side on the TensorCore: the thirteen arrays it holds whole, its eight host operations as operation records
  (six before the SparseCore call: zeros, the reshape of the 26 index words, and the scatter that writes them into the first 26
  of 32 zero words; one transposition before the TensorCore region and one after it), the valuation those six leave, and the
  padded index vector the call reads.
-/
import proofs.«205909_g45389214384387_cont_8to1c4_201_25_alg».proof.Proof.KernelIdeal.World
import proofs.«205909_g45389214384387_cont_8to1c4_201_25_alg».proof.Proof.LibHeld

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type} [FloatOps F]

local notation "𝕄" => MT nD τ sig (HIx 1) (Elt F) ℕ UU ℕ

/-! ## The TensorCore's arrays and @main's host operations -/

abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_c : DevRef τ sig := Proc.devRef .tc (main_c : Ref sig .tc)
abbrev r_v0 : DevRef τ sig := Proc.devRef .tc (main_v0 : Ref sig .tc)
abbrev r_v1 : DevRef τ sig := Proc.devRef .tc (main_v1 : Ref sig .tc)
abbrev r_c0 : DevRef τ sig := Proc.devRef .tc (main_c_0 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)

/-- The TensorCore's arrays, all unscoped. -/
abbrev S13 : Finset (DevRef τ sig) := {r_a0, r_a1, r_a2, r_c, r_v0, r_v1, r_c0, r_v2, r_v3, r_v4, r_v5, r_v6, r_v7}

abbrev op1 : HloOp τ sig (Elt F) := StableHlo.nullary main_c (constantI S_ 32 0#32)
abbrev op2 : HloOp τ sig (Elt F) := StableHlo.unary main_c main_v0 (broadcastInDim S32 ![] bcast_S_S32 : (⟨S_, .i32⟩ : BufTy).Contents (Elt F) → (⟨S32, .i32⟩ : BufTy).Contents (Elt F))
abbrev op3 : HloOp τ sig (Elt F) := StableHlo.reshape main_arg0 main_v1 rfl shapeCasts_S26x1_S26
abbrev op4 : HloOp τ sig (Elt F) := StableHlo.nullary main_c_0 (constantI S_ 32 0#32)
abbrev op5 : HloOp τ sig (Elt F) := StableHlo.unary main_c_0 main_v2 (broadcastInDim S1 ![] bcast_S_S1 : (⟨S_, .i32⟩ : BufTy).Contents (Elt F) → (⟨S1, .i32⟩ : BufTy).Contents (Elt F))
abbrev op6 : HloOp τ sig (Elt F) := StableHlo.ternary main_v0 main_v2 main_v1 main_v3 ((fun x i u => Host.scatter scatter_S32_S1_S26_0_n_0_0 (fun _ b => b) x i u) : (⟨S32, .i32⟩ : BufTy).Contents (Elt F) → (⟨S1, .i32⟩ : BufTy).Contents (Elt F) → (⟨S26, .i32⟩ : BufTy).Contents (Elt F) → (⟨S32, .i32⟩ : BufTy).Contents (Elt F))
abbrev op7 : HloOp τ sig (Elt F) := StableHlo.unary main_arg1 main_v5 ((transpose S26x16384x128 [1, 0, 2] · transposes_S16384x26x128_S26x16384x128_1_0_2) : (⟨S16384x26x128, .f32⟩ : BufTy).Contents (Elt F) → (⟨S26x16384x128, .f32⟩ : BufTy).Contents (Elt F))
abbrev op8 : HloOp τ sig (Elt F) := StableHlo.unary main_v6 main_v7 ((transpose S16384x26x128 [1, 0, 2] · transposes_S26x16384x128_S16384x26x128_1_0_2) : (⟨S26x16384x128, .f32⟩ : BufTy).Contents (Elt F) → (⟨S16384x26x128, .f32⟩ : BufTy).Contents (Elt F))

variable (m : (ℓ : Loc nD τ sig) → Buf (Elt F) ℓ) (ρ : Dev nD → PrngReg)

/-- The launch valuation of device `d`'s arrays. -/
def V0 (d : Dev nD) : Valuation τ sig (Elt F) := fun b => m (d, b)
/-- After the six host operations before the SparseCore call. -/
def V6 (d : Dev nD) : Valuation τ sig (Elt F) :=
  (op6 (F := F)).result ((op5 (F := F)).result ((op4 (F := F)).result ((op3 (F := F)).result ((op2 (F := F)).result ((op1 (F := F)).result (V0 m d))))))

/-- The padded index vector the call reads: what the six operations leave in its buffer. -/
def ipOf (d : Dev nD) : Buf (Elt F) (v3Loc d) := V6 m d r_v3

omit [FloatOps F] in
/-- What the launch deals the TensorCore is the thirteen arrays held at the launch valuation. -/
theorem unscoped_held (d : Dev nD) : (unscopedBufs d (fun b => m ((SparseCore.T d).loc b)) : sProp 𝕄) = held (T d) S13 (V0 m d) := by
  unfold unscopedBufs held S13
  rw [show (Finset.univ.filter fun b : Ref sig .tc => ¬ b.isScoped)
      = {main_arg0, main_arg1, main_arg2, main_c, main_v0, main_v1, main_c_0, main_v2, main_v3, main_v4, main_v5, main_v6, main_v7} by decide]
  repeat rw [SparseCore.bigSep_insert' (by decide)]
  rw [bigSep_singleton, bigSep_singleton]
  rfl

end Cert.KernelIdeal.Hand

end
-- ==== Proof.KernelIdeal.PadIdx.lean ====
/-
  The padded index vector, read back. Before the SparseCore call the host builds a vector of 32 words: 32 zeros, into
  which the 26 index words (the [26, 1] array reshaped to [26]) are scattered as one window starting at position 0.
  The scatter's body returns the update, its one start index is 0 and its window is the whole update, so update j
  lands at position j and nowhere else: position j < 26 holds index word j, positions 26 to 31 keep the zero.
  Hence the first 26 words are the index words, and if every index word is below 100 so is every word of the vector.
  The three argument arrays are written by none of the six operations and keep their launch contents.
-/
import proofs.«205909_g45389214384387_cont_8to1c4_201_25_alg».proof.Proof.KernelIdeal.HostOps
import proofs.«205909_g45389214384387_cont_8to1c4_201_25_alg».proof.Proof.KernelIdeal.World
import proofs.«205909_g45389214384387_cont_8to1c4_201_25_alg».proof.Proof.Spec
import proofs.«205909_g45389214384387_cont_8to1c4_201_25_alg».proof.Proof.LibScatterSet
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.StableHlo

variable {F : FTy → Type} [FloatOps F]
variable (m : (ℓ : Loc nD τ sig) → Buf (Elt F) ℓ)

/-- The valuation after the six operations is the fold of the six along the line. -/
theorem V6_eq_after (d : Dev nD) :
    V6 m d = StableHlo.after [op1 (F := F), op2, op3, op4, op5, op6] (V0 m d) := rfl

/-- The index words are not written by the six operations. -/
theorem V6_a0 (d : Dev nD) : V6 m d r_a0 = m (a0Loc d) := by
  rw [V6_eq_after]
  after_results
  rfl

/-- The feature array is not written by the six operations. -/
theorem V6_a1 (d : Dev nD) : V6 m d r_a1 = m (a1Loc d) := by
  rw [V6_eq_after]
  after_results
  rfl

/-- The table is not written by the six operations. -/
theorem V6_a2 (d : Dev nD) : V6 m d r_a2 = m (lwLoc d) := by
  rw [V6_eq_after]
  after_results
  rfl

/-- The padded index vector is the scatter of the reshaped index words into 32 zeros, at start index 0. -/
theorem ipOf_eq (d : Dev nD) : (ipOf m d : IVec S32 32)
    = Host.scatter scatter_S32_S1_S26_0_n_0_0 (fun _ b => b) (broadcastInDim S32 ![] bcast_S_S32 (constantI S_ 32 0#32))
        (broadcastInDim S1 ![] bcast_S_S1 (constantI S_ 32 0#32))
        (shapeCast S26 (m (a0Loc d) : IVec S26x1 32) shapeCasts_S26x1_S26) := by
  unfold ipOf
  rw [V6_eq_after]
  after_results
  rfl

/-- With every start index 0, the window of every update index starts at 0 on the one axis. -/
theorem pad_start_zero (idx : IVec S1 32) (h0 : ∀ k, idx k = 0#32) (j : S26.Idx) (a : Fin S32.rank) :
    scatter_S32_S1_S26_0_n_0_0.start j idx a = 0 := by
  unfold ScatterDims.start
  split
  · rw [h0]; decide
  · rfl

/-- The window coordinate of update index `j` on the one axis is `j`'s own coordinate. -/
theorem pad_window_eq (j : S26.Idx) (a : Fin S32.rank) : scatter_S32_S1_S26_0_n_0_0.window j a = (j 0).val := by
  match a with
  | ⟨0, _⟩ => rfl

/-- Update index `j` lands at position `i` exactly when the two have the same coordinate. -/
theorem pad_resultIdx?_iff (idx : IVec S1 32) (h0 : ∀ k, idx k = 0#32) (j : S26.Idx) (i : S32.Idx) :
    scatter_S32_S1_S26_0_n_0_0.resultIdx? j idx = some i ↔ (j 0).val = (i 0).val := by
  rw [Cert.ScatterSet.resultIdx?_eq_some_iff]
  constructor
  · intro h
    have := h 0
    rw [pad_start_zero idx h0, pad_window_eq] at this
    omega
  · intro h a
    match a with
    | ⟨0, _⟩ =>
      rw [pad_start_zero idx h0, pad_window_eq]
      show (0 : Int) + ((j 0).val : Int) = ((i 0).val : Int)
      omega

/-- The first 26 words of the padded index vector are the index words. -/
theorem ipOf_low (d : Dev nD) (j : Fin 26) :
    (ipOf m d : IVec S32 32) (ix1 (Fin.castLE (by decide) j : Fin 32)) = (m (a0Loc d) : IVec S26x1 32) (ix2 j (0 : Fin 1)) := by
  rw [ipOf_eq]
  refine (Cert.ScatterSet.scatter_set_of_unique _ _ _ _ (ix1 (Fin.castLE (by decide) j : Fin 32)) (ix1 j)
    ((pad_resultIdx?_iff _ (fun _ => rfl) _ _).2 rfl) (fun j' hj' => ?_)).trans ?_
  · have := (pad_resultIdx?_iff _ (fun _ => rfl) _ _).1 hj'
    rw [eq_ix1 j']
    exact congrArg ix1 (Fin.ext this)
  · exact shapeCast_apply _ _ (ix1 j) (ix2 j (0 : Fin 1)) (by
      rw [Shape.rowMajor_val_two, Shape.rowMajor_val_one]
      show j.val * 1 + 0 = j.val
      omega)

/-- If every index word is below 100, so is every word of the padded vector: the other six are 0. -/
theorem ipOf_lt (d : Dev nD) (h : Cert.Spec.InRange (m (a0Loc d) : IVec S26x1 32)) (x : S32.Idx) :
    ((ipOf m d : IVec S32 32) x).toNat < 100 := by
  obtain ⟨k, rfl⟩ : ∃ k : Fin 32, x = ix1 k := ⟨x 0, eq_ix1 x⟩
  by_cases hk : k.val < 26
  · have e : k = (Fin.castLE (by decide) (⟨k.val, hk⟩ : Fin 26) : Fin 32) := Fin.ext rfl
    rw [e, ipOf_low]
    exact h ⟨k.val, hk⟩
  · rw [ipOf_eq, Cert.ScatterSet.scatter_set_of_none _ _ _ _ (ix1 k) (fun j' hj' => by
      have e : (j' 0).val = k.val := (pad_resultIdx?_iff _ (fun _ => rfl) _ _).1 hj'
      have hlt : (j' 0).val < 26 := (j' 0).isLt
      omega)]
    show (0#32 : BitVec 32).toNat < 100
    decide

end Cert.KernelIdeal.Hand

end
-- ==== Proof.KernelIdeal.ScBody.lean ====
/-
  The SparseCore call's two obligations of the launch theorem: what one vector subcore's task does (`tileObl`), and how the
  call's arrays split among a SparseCore's sixteen vector subcores and join back (`vecSplit`).

  The task. Only the tile at grid coordinates (0, 0) works: the kernel's condition — "both coordinates are zero", computed as a
  word and compared with zero — holds there and nowhere else (`Sc.cond_iff`); every other tile returns at once, holding
  nothing of the call's and handing nothing back. The working tile copies the 32 index words into its index scratch and
  waits; gathers, by those words, 32 entries of the 100-entry table into its value scratch and waits — every word names a
  table position, being below 100, so lane `k` lands the table's entry at the position word `k` names
  (`Sc.gather_apply`) —; then replaces lanes 0–15 and lanes 16–31 of the value scratch, half by half, by
  `1 / (1 + exp (0 - x))` of what the half held (`Sc.pay1_apply`, `Sc.pay2_apply`). After the two half-stores the scratch
  reads, at every lane, that function of the landed entry (`Sc.scratch_read`: a lane below 16 is under the first store
  and not under the second; a lane from 16 on is under the second, whose operand was read off lanes the first store does
  not reach). The tile then copies the value scratch out to the scale vector and waits. So the scale vector is left at
  `sigOf`, the index vector and the table are unchanged, the two scratch buffers and the three semaphores (at zero) are
  handed back, and the three waits are recorded at the kernel's own index.

  The split. SparseCore 0's operands go whole to its tile 0, nothing to its other fifteen tiles; SparseCore 1 is handed
  nothing, and so are its tiles. The results join back the same way.
-/
import proofs.«205909_g45389214384387_cont_8to1c4_201_25_alg».proof.Proof.KernelIdeal.World
import Idealize.ShloMosaic.Lib.Pipeline.Value
import Idealize.ShloMosaic.Lib.Pipeline.FrameBody
import Idealize.ShloMosaic.Lib.Writes

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Sc

/-! ## The kernel's memrefs, as the body table passes them -/

abbrev ipV : Memref sig .scVector .hbm S32 .i32 := Memref.whole main_v3_scv
abbrev lwV : Memref sig .scVector .hbm S100 .f32 := Memref.whole main_arg2_scv
abbrev sgV : Memref sig .scVector .hbm S32 .f32 := Memref.whole main_v4_scv
abbrev sI : Memref sig .scVector .vmem S32 .i32 := Memref.whole cc0_scratch0
abbrev sX : Memref sig .scVector .vmem S32 .f32 := Memref.whole cc0_scratch1

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_scales (coordsV c s)
          ipV (Memref.isWhole_whole _) lwV (Memref.isWhole_whole _) sgV (Memref.isWhole_whole _)
          sI (Memref.isWhole_whole _) sX (Memref.isWhole_whole _) cc0_scratch2 cc0_scoped0 cc0_scoped1) ⟨⟩ c s := rfl

/-- Which tile works: the kernel's condition holds exactly at grid coordinates (0, 0). -/
theorem cond_iff (L : grid0.Coords) :
    (Scalar.cmpi .ne (Scalar.extui (Scalar.andi (Scalar.cmpi .eq (BitVec.ofNat 32 (L 0).val) 0#32) (Scalar.cmpi .eq (BitVec.ofNat 32 (L 1).val) 0#32))) 0#32 = 1#1)
      ↔ ((L 0).val = 0 ∧ (L 1).val = 0) := by
  have h0 : (L 0).val < 2 := (L 0).isLt
  have h1 : (L 1).val < 16 := (L 1).isLt
  generalize (L 0).val = a at h0 ⊢
  generalize (L 1).val = b at h1 ⊢
  interval_cases a <;> interval_cases b <;> decide

/-! ## The value the scratch is left with -/

section Value

variable [FloatOps F]

abbrev rLo : Rect S32 := Rect.unit (s := S32) ![0] S16.size inb_S32_S16_0
abbrev rHi : Rect S32 := Rect.unit (s := S32) ![16] S16.size inb_S32_S16_16

/-- Each half's payload is the lane function, lane by lane. -/
theorem pay1_apply (w : Vec F S16 .f32) (x : S16.Idx) : k0_pay1 w x = sigLane (w x) := by
  unfold k0_pay1 sigLane
  rw [shapeCast_self, shapeCast_self]; rfl
theorem pay2_apply (w : Vec F S16 .f32) (x : S16.Idx) : k0_pay2 w x = sigLane (w x) := by
  unfold k0_pay2 sigLane
  rw [shapeCast_self, shapeCast_self]; rfl

theorem canon_whole (g : S32.Idx → Elt F .f32) (L : List (View.Piece (Elt F) S32 .f32)) (y : S32.Idx) :
    View.canon (⟨Rect.whole S32, g⟩ :: L) y = g y := by
  have e := View.canon_cons_emb (Val := Elt F) (Rect.whole S32) g L y
  rwa [Rect.emb_whole_apply] at e

theorem canon_skip (r : Rect S32) (w : r.shape.Idx → Elt F .f32) (L : List (View.Piece (Elt F) S32 .f32)) {y : S32.Idx} (h : y ∉ r.set) :
    View.canon (⟨r, w⟩ :: L) y = View.canon L y := View.canon_cons_of_not_mem ⟨r, w⟩ L h

theorem lo_of_lt (k : S32.Idx) (h : (k 0).val < 16) : rLo.emb (ix1 (⟨(k 0).val, h⟩ : Fin 16)) = k := by
  funext a; obtain rfl : a = 0 := Subsingleton.elim _ _
  apply Fin.ext; rw [Rect.emb_apply]; simp [ix1]
theorem hi_of_ge (k : S32.Idx) (h : 16 ≤ (k 0).val) : rHi.emb (ix1 (⟨(k 0).val - 16, by have : (k 0).val < 32 := (k 0).isLt; omega⟩ : Fin 16)) = k := by
  funext a; obtain rfl : a = 0 := Subsingleton.elim _ _
  apply Fin.ext; rw [Rect.emb_apply]; simp [ix1]; omega
theorem not_mem_hi (k : S32.Idx) (h : (k 0).val < 16) : k ∉ rHi.set := by
  rw [Rect.mem_set_unit]; intro hk; have := (hk 0).1; simp at this; omega
theorem hi_not_mem_lo (x : rHi.shape.Idx) : rHi.emb x ∉ rLo.set := by
  rw [Rect.mem_set_unit]; intro hk; have := (hk 0).2; rw [Rect.emb_apply] at this; simp at this

/-- The scratch after the gather's landing `g` and the two half-stores reads, lane by lane, the lane function of `g`. -/
theorem scratch_read {κ : Kind} (v : View sig κ .vmem S32 .f32) (fx : v.ty.Contents (Elt F)) (g : S32.Idx → Elt F .f32) (k : S32.Idx) :
    v.read (Elt F) (v.writes (Elt F) fx
      (⟨rHi, k0_pay2 (v.readCov [⟨rLo, k0_pay1 (v.readCov [⟨Rect.whole S32, g⟩] rLo.toLoadRect)⟩, ⟨Rect.whole S32, g⟩] rHi.toLoadRect)⟩
        :: [⟨rLo, k0_pay1 (v.readCov [⟨Rect.whole S32, g⟩] rLo.toLoadRect)⟩, ⟨Rect.whole S32, g⟩])) k = sigLane (g k) := by
  have hv7 : v.readCov [⟨Rect.whole S32, g⟩] rLo.toLoadRect = fun x => g (rLo.emb x) := by
    rw [View.readCov_eq_canon']; funext x; exact canon_whole g [] _
  have hv19 : v.readCov [⟨rLo, k0_pay1 (v.readCov [⟨Rect.whole S32, g⟩] rLo.toLoadRect)⟩, ⟨Rect.whole S32, g⟩] rHi.toLoadRect = fun x => g (rHi.emb x) := by
    rw [View.readCov_eq_canon']; funext x
    show View.canon _ (rHi.emb x) = _
    exact (canon_skip rLo _ _ (hi_not_mem_lo x)).trans (canon_whole g [] _)
  refine (View.read_writes_apply_eq_canon v fx k _ ⟨⟨Rect.whole S32, g⟩, List.mem_cons_of_mem _ (List.mem_cons_of_mem _ List.mem_cons_self),
    by rw [Rect.set_whole]; exact Finset.mem_univ k⟩).trans ?_
  rw [hv19, hv7]
  by_cases h : (k 0).val < 16
  · refine (canon_skip rHi _ _ (not_mem_hi k h)).trans ?_
    have e := View.canon_cons_emb (Val := Elt F) rLo (k0_pay1 fun x => g (rLo.emb x)) [⟨Rect.whole S32, g⟩] (ix1 (⟨(k 0).val, h⟩ : Fin 16))
    rw [lo_of_lt k h] at e
    refine e.trans ?_
    rw [pay1_apply, lo_of_lt k h]
  · have h' : 16 ≤ (k 0).val := Nat.le_of_not_lt h
    have e := View.canon_cons_emb (Val := Elt F) rHi (k0_pay2 fun x => g (rHi.emb x))
      [⟨rLo, k0_pay1 fun x => g (rLo.emb x)⟩, ⟨Rect.whole S32, g⟩] (ix1 (⟨(k 0).val - 16, by have : (k 0).val < 32 := (k 0).isLt; omega⟩ : Fin 16))
    rw [hi_of_ge k h'] at e
    refine e.trans ?_
    rw [pay2_apply, hi_of_ge k h']

end Value

/-! ## What the gather lands -/

section Gather

variable [FloatOps F]

theorem rowMajor_symm_one (k : S32.Idx) (h : S32.size 0 = S32.numel) : S32.rowMajor.symm ((k 0).cast h) = k := by
  rw [Equiv.symm_apply_eq]; apply Fin.ext; rw [Shape.rowMajor_val_one]; rfl

/-- Lane `k` of what the gather lands is the table's entry at the position word `k` of the list names. -/
theorem gather_apply (lw : FVec F S100 .f32) (R : S32.Idx → Elt F .i32) (hn : S32.numel = S32.size gathers_S100_S32.axis')
    (hin : ∀ x, (R x).toNat < S100.size gathers_S100_S32.axis) (h3) (k : S32.Idx) :
    SparseCore.gatherPayload gathers_S100_S32
        (View.read (Elt F) ((lwV : Memref sig .scVector .hbm S100 .f32).slice (Rect.unit (s := S100) ![0] S100.size inb_S100_S100_0) h3).view lw)
        (SparseCore.rows R hn hin) k = lw (ix1 (rowT (R k))) := by
  unfold SparseCore.gatherPayload
  have hy : ∀ y : S100.Idx, View.read (Elt F) ((lwV : Memref sig .scVector .hbm S100 .f32).slice (Rect.unit (s := S100) ![0] S100.size inb_S100_S100_0) h3).view lw y = lw y := by
    intro y
    show lw ((Rect.unit (s := S100) ![0] S100.size inb_S100_S100_0).emb y) = lw y
    refine congrArg lw ?_
    funext a; obtain rfl : a = 0 := Subsingleton.elim _ _
    apply Fin.ext; rw [Rect.emb_apply]; simp
  rw [hy]
  refine congrArg lw ?_
  funext b; obtain rfl : b = 0 := Subsingleton.elim _ _
  apply Fin.ext
  have e := Shape.Gathers.idx_axis gathers_S100_S32 (SparseCore.rows R hn hin) k
  have e' : (gathers_S100_S32.idx (SparseCore.rows R hn hin) k 0).val = (R k).toNat := by
    refine (congrArg Fin.val e).trans ?_
    show (R (S32.rowMajor.symm ((k 0).cast hn.symm))).toNat = _
    rw [rowMajor_symm_one]
  rw [e']
  have := hin k
  show _ = min (R k).toNat 99
  have h100 : (R k).toNat < 100 := this
  omega

end Gather

/-! ## The working tile's storage -/

section Tile

variable (d : Dev nD) (L : grid0.Coords)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The arrays as a vector subcore's memrefs address them are the TensorCore's arrays. -/
theorem pts_ip (f : Buf (Elt F) (v3Loc d)) :
    ((ipV : Memref sig .scVector .hbm S32 .i32).view.loc (V d (cV L) (jV L)) ↦{fullShare} f : sProp 𝕄) = v3Loc d ↦{fullShare} f := rfl
theorem pts_lw (f : Buf (Elt F) (lwLoc d)) :
    ((lwV : Memref sig .scVector .hbm S100 .f32).view.loc (V d (cV L) (jV L)) ↦{fullShare} f : sProp 𝕄) = lwLoc d ↦{fullShare} f := rfl
theorem pts_sg (f : Buf (Elt F) (v4Loc d)) :
    ((sgV : Memref sig .scVector .hbm S32 .f32).view.loc (V d (cV L) (jV L)) ↦{fullShare} f : sProp 𝕄) = v4Loc d ↦{fullShare} f := rfl
theorem pts_sI (f : Buf (Elt F) ((V d (cV L) (jV L)).loc cc0_scratch0)) :
    ((sI : Memref sig .scVector .vmem S32 .i32).view.loc (V d (cV L) (jV L)) ↦{fullShare} f : sProp 𝕄) = (V d (cV L) (jV L)).loc cc0_scratch0 ↦{fullShare} f := rfl
theorem pts_sX (f : Buf (Elt F) ((V d (cV L) (jV L)).loc cc0_scratch1)) :
    ((sX : Memref sig .scVector .vmem S32 .f32).view.loc (V d (cV L) (jV L)) ↦{fullShare} f : sProp 𝕄) = (V d (cV L) (jV L)).loc cc0_scratch1 ↦{fullShare} f := rfl

variable [FloatOps F] (m : (ℓ : Loc nD τ sig) → Buf (Elt F) ℓ) (ip : (d : Dev nD) → Buf (Elt F) (v3Loc d))

/-- The working tile, at grid coordinates (0, 0): the index copy, the gather, the two half-stores, the copy out; the scale
    vector left at `sigOf`, everything else handed back as it came. -/
theorem tile_work (hF : (K (F := F)).Facts) (hip : ∀ (d : Dev nD) (x : S32.Idx), (ip d x).toNat < 100)
    (h0 : (L 0).val = 0 ∧ (L 1).val = 0) (O : CellTallies nD τ sig (HIx 1)) (W : Waits sig (HIx 1)) (hO : ∀ g, O g none = 0) :
    iprop(levAts (K (F := F)).L (K (F := F)).lev ∗ emp ∗ callIn m ip d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scales L ipV (Memref.isWhole_whole _) lwV (Memref.isWhole_whole _) sgV (Memref.isWhole_whole _)
            sI (Memref.isWhole_whole _) sX (Memref.isWhole_whole _) cc0_scratch2 cc0_scoped0 cc0_scoped1)
          fun _ => iprop(callOut m ip d ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := (cond_iff L).mpr h0
  simp only [cc0__sc_scales_eq_skeleton]; unfold cc0__sc_scales_skel
  rw [(K (F := F)).scopedBufs_V hF d (cV L) (jV L), SparseCore.Cfg.scopedSems0_V (Val := Elt F) d (cV L) (jV L), ownSems0_V, ownBufs_V]
  iintro ⟨#Hlv, -, ⟨Hip, Hlw, %fg, Hsg⟩, ⟨⟨%fi, HsI⟩, ⟨%fx, HsX⟩, Hbufs⟩, ⟨HsemG, HsemA, HsemB, Hsems⟩, HO⟩
  ihave Hmw := ((K (F := F)).mayWaits_none (thr := V d (cV L) (jV L)) hO) $$ Hlv
  ihave Hip' := (Entails.of_eq (pts_ip (F := F) d L _).symm) $$ Hip
  ihave Hlw' := (Entails.of_eq (pts_lw (F := F) d L _).symm) $$ Hlw
  ihave Hsg' := (Entails.of_eq (pts_sg (F := F) d L _).symm) $$ Hsg
  ihave HsI' := (Entails.of_eq (pts_sI (F := F) d L _).symm) $$ HsI
  ihave HsX' := (Entails.of_eq (pts_sX (F := F) d L _).symm) $$ HsX
  sl_exec
  -- the list the gather reads is the index vector the first copy landed: every word names a table position
  have hin : ∀ x, ((sI : Memref sig .scVector .vmem S32 .i32).view.read (Elt F)
      (View.write (Elt F) (sI : Memref sig .scVector .vmem S32 .i32).view fi (tile_work.sl.dma0 d ip) Finset.univ) x).toNat
        < S100.size gathers_S100_S32.axis := by
    intro x
    rw [View.write_whole_univ]
    exact hip d x
  sl_exec
  -- what the last copy carried out is the scale vector
  have hval : View.write (Elt F) (sgV : Memref sig .scVector .hbm S32 .f32).view fg (tile_work.sl.dma6 d L m ip fi fx hin) Finset.univ
      = sigOf (ip d) (m (lwLoc d)) := by
    rw [View.write_whole_univ]
    funext k
    sl_unfold_run_names
    refine (scratch_read (sX : Memref sig .scVector .vmem S32 .f32).view fx _ k).trans ?_
    unfold sigOf
    refine congrArg sigLane ?_
    refine (gather_apply (m (lwLoc d)) _ _ _ _ k).trans ?_
    rw [View.write_whole_univ]
    rfl
  rw [hval]
  sl_step
  isplitl [Hip' Hlw' Hsg']
  · isplitl [Hip']; · iapply (Entails.of_eq (pts_ip (F := F) d L _)); iexact Hip'
    isplitl [Hlw']; · iapply (Entails.of_eq (pts_lw (F := F) d L _)); iexact Hlw'
    iapply (Entails.of_eq (pts_sg (F := F) d L _)); iexact Hsg'
  isplitl [HsI' HsX' Hbufs]
  · isplitl [HsI']
    · iexists _; iapply (Entails.of_eq (pts_sI (F := F) d L _)); iexact HsI'
    isplitl [HsX']
    · iexists _; iapply (Entails.of_eq (pts_sX (F := F) d L _)); iexact HsX'
    · iexact Hbufs
  isplitl [HsemG HsemA HsemB Hsems]
  · isplitl [HsemG]; · iexact HsemG
    isplitl [HsemA]; · iexact HsemA
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

/-- Every other tile: the branch not taken. -/
theorem tile_idle (h0 : ¬ ((L 0).val = 0 ∧ (L 1).val = 0)) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_scales L ipV (Memref.isWhole_whole _) lwV (Memref.isWhole_whole _) sgV (Memref.isWhole_whole _)
            sI (Memref.isWhole_whole _) sX (Memref.isWhole_whole _) cc0_scratch2 cc0_scoped0 cc0_scoped1)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 := (cond_iff L).not.mpr h0
  simp only [cc0__sc_scales_eq_skeleton]; unfold cc0__sc_scales_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

/-- The task on vector subcore `(L 0, L 1)` of device `d`. -/
theorem tile_body (hF : (K (F := F)).Facts) (hip : ∀ (d : Dev nD) (x : S32.Idx), (ip d x).toNat < 100)
    (O : CellTallies nD τ sig (HIx 1)) (W : Waits sig (HIx 1)) (hO : ∀ g, O g none = 0) :
    iprop(levAts (K (F := F)).L (K (F := F)).lev ∗ emp ∗ tileIn m ip d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scales L ipV (Memref.isWhole_whole _) lwV (Memref.isWhole_whole _) sgV (Memref.isWhole_whole _)
            sI (Memref.isWhole_whole _) sX (Memref.isWhole_whole _) cc0_scratch2 cc0_scoped0 cc0_scoped1)
          fun _ => iprop(tileOut m ip d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileIn tileOut
  by_cases h0 : (L 0).val = 0 ∧ (L 1).val = 0
  · rw [if_pos h0, if_pos h0]; exact tile_work d L m ip hF hip h0 O W hO
  · rw [if_neg h0, if_neg h0]; exact tile_idle d L h0 O W

end Tile

/-! ## Small facts the obligations use -/

section Glue

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem rest_emp (Φ : ℕ → sProp 𝕄) (h : ∀ i, i ≠ 0 → Φ i = iprop(emp)) :
    (bigSep ((Finset.univ : Finset (Fin 16)).erase 0) fun i => Φ i.val) = iprop(emp) := by
  rw [bigSep_congr (fun i hi => h i.val (fun e => (Finset.mem_erase.mp hi).1 (Fin.ext e)))]; exact bigSep_emp_const _
theorem all_emp (Φ : ℕ → sProp 𝕄) (h : ∀ i, Φ i = iprop(emp)) :
    (bigSep (Finset.univ : Finset (Fin 16)) fun i => Φ i.val) = iprop(emp) := by
  rw [bigSep_congr (fun i _ => h i.val)]; exact bigSep_emp_const _

end Glue

end Sc

/-! ## The launch theorem's obligations -/

section Obligations

open Sc

variable [FloatOps F]

theorem tileObl (m : (ℓ : Loc nD τ sig) → Buf (Elt F) ℓ) (ip : (d : Dev nD) → Buf (Elt F) (v3Loc d))
    (hip : ∀ (d : Dev nD) (x : S32.Idx), (ip d x).toNat < 100) : (K (F := F)).TileObl (D (F := F)) 𝒱 (P m ip) v₀ 0 := by
  intro d c i O W hO _ _
  -- this kernel owes nothing for a protocol of its own
  simp only [show (P m ip).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m ip facts hip O W hO).trans (wp_mono frame _ _ fun _ => obl_post)

theorem vecSplit (m : (ℓ : Loc nD τ sig) → Buf (Elt F) ℓ) (ip : (d : Dev nD) → Buf (Elt F) (v3Loc d)) :
    (K (F := F)).VecSplit' (P m ip) 0 := by
  intro d c
  show coreIn m ip d c.val ⊢ |={Set.univ}=> iprop((bigSep (Finset.univ : Finset (Fin 16)) fun i => tileIn m ip d c.val i.val)
      ∗ ((bigSep (Finset.univ : Finset (Fin 16)) fun i => tileOut m ip d c.val i.val) -∗ coreOut m ip d c.val))
  by_cases hc : c.val = 0
  · rw [hc, SparseCore.bigSep_erase' (Finset.mem_univ (0 : Fin 16)), SparseCore.bigSep_erase' (Finset.mem_univ (0 : Fin 16)),
      rest_emp (fun i => tileIn m ip d 0 i) (fun i hi => if_neg fun h => hi h.2),
      rest_emp (fun i => tileOut m ip d 0 i) (fun i hi => if_neg fun h => hi h.2)]
    unfold coreIn coreOut tileIn tileOut
    rw [if_pos rfl, if_pos rfl, if_pos ⟨rfl, rfl⟩, if_pos ⟨rfl, rfl⟩]
    iintro H; imodintro
    isplitl [H]
    · isplitl [H]; · iexact H
      iempintro
    iintro ⟨H, -⟩; iexact H
  · rw [all_emp (fun i => tileIn m ip d c.val i) (fun i => if_neg fun h => hc h.1),
      all_emp (fun i => tileOut m ip d c.val i) (fun i => if_neg fun h => hc h.1)]
    unfold coreIn coreOut
    rw [if_neg hc, if_neg hc]
    iintro -; imodintro
    isplitr; · iempintro
    iintro -; iempintro

end Obligations

end Cert.KernelIdeal.Hand

end
-- ==== Proof.KernelIdeal.TcData.lean ====
/-
  The TensorCore region's body: what one call of it leaves in the output block, in closed form; its triple; the pipeline's
  proof data; and the body obligation at every point of the grid.

  The body multiplies row `j` of a [26, 1024, 128] input block by lane `j` of the 32-lane scale vector, for `j` from 0 to 25,
  and stores the product as row `j` of the output block. The 26 stores tile the block, so the block ends holding, at
  (j, r, c), the input block's element there times lane `j`.
-/
import proofs.«205909_g45389214384387_cont_8to1c4_201_25_alg».proof.Proof.KernelIdeal.World
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## One block's result in closed form -/

/-- What the body leaves in the output block, from the scale vector and the input block: row `j` of the input block
    times lane `j` of the scale vector. -/
def outB (s : Vec F S32 .f32) (xb : Vec F S26x1024x128 .f32) : Vec F S26x1024x128 .f32 :=
  fun j => FloatOps.mulf (xb j) (s (ix1 (Fin.castLE (by decide) (j 0) : Fin 32)))

/-- The one-word rectangle at lane `k` of the scale vector names the index `k`. -/
theorem lane_idx (k : ℕ) (hk : k < 32) (inb : ∀ a, (![k] : Fin 1 → Nat) a + S1.size a ≤ S32.size a) (h : 0 < (Rect.unit (s := S32) ![k] S1.size inb).toLoadRect.shape.numel) :
    (Rect.unit (s := S32) ![k] S1.size inb).toLoadRect.idx (Shape.Idx.first h) = ix1 (⟨k, hk⟩ : Fin 32) := by
  funext a
  apply Fin.ext
  match a with
  | ⟨0, _⟩ => show k + 1 * 0 = k; omega

/-- A block index whose leading coordinate is the only one of its axis is rebuilt from its other coordinates. -/
theorem cons_tail (x : S1x1024x128.Idx) : (Fin.cons ⟨0, Nat.one_pos⟩ (fun a : Fin 2 => x a.succ) : (⟨2 + 1, Matrix.vecCons 1 ![1024, 128]⟩ : Shape).Idx) = x := by
  funext a
  refine Fin.cases ?_ (fun b => ?_) a
  · apply Fin.ext; have := (x 0).isLt; show 0 = (x 0).val; change (x 0).val < 1 at this; omega
  · rfl

/-- One store's payload, read at an index: the input block's element there times the lane. -/
theorem piece_apply (xb : Vec F S26x1024x128 .f32) (s : Elt F .f32) (k : ℕ) (inb : ∀ a, (![k, 0, 0] : Fin 3 → Nat) a + S1x1024x128.size a ≤ S26x1024x128.size a)
    (x : S1x1024x128.Idx) :
    shapeCast S1x1024x128 (mulf (shapeCast S1024x128 (View.ld xb (Rect.unit (s := S26x1024x128) ![k, 0, 0] S1x1024x128.size inb)) shapeCasts_S1x1024x128_S1024x128) (broadcast S1024x128 s)) shapeCasts_S1024x128_S1x1024x128 x
      = FloatOps.mulf (xb ((Rect.unit (s := S26x1024x128) ![k, 0, 0] S1x1024x128.size inb).emb x)) s := by
  refine (shapeCast_addUnit_apply ![1024, 128] _ shapeCasts_S1024x128_S1x1024x128 x).trans ?_
  show FloatOps.mulf (shapeCast S1024x128 (View.ld xb (Rect.unit (s := S26x1024x128) ![k, 0, 0] S1x1024x128.size inb)) shapeCasts_S1x1024x128_S1024x128 (fun a => x a.succ)) s = _
  refine congrArg (fun z => FloatOps.mulf z s) ?_
  refine (shapeCast_dropUnit_apply ![1024, 128] _ shapeCasts_S1x1024x128_S1024x128 (fun a => x a.succ)).trans ?_
  show xb ((Rect.unit (s := S26x1024x128) ![k, 0, 0] S1x1024x128.size inb).emb (Fin.cons ⟨0, Nat.one_pos⟩ (fun a : Fin 2 => x a.succ))) = _
  rw [cons_tail]

/-- The leading coordinate of an index of row `k`'s rectangle is `k`. -/
theorem row_emb_zero (k : ℕ) (hk : k < 26) (inb : ∀ a, (![k, 0, 0] : Fin 3 → Nat) a + S1x1024x128.size a ≤ S26x1024x128.size a) (x : S1x1024x128.Idx) :
    ((Rect.unit (s := S26x1024x128) ![k, 0, 0] S1x1024x128.size inb).emb x) 0 = (⟨k, hk⟩ : Fin 26) := by
  apply Fin.ext
  have := (x 0).isLt; change (x 0).val < 1 at this
  show k + 1 * (x 0).val = k; omega

/-- One store's payload is the closed form on its rectangle. -/
theorem piece_outB (s : Vec F S32 .f32) (xb : Vec F S26x1024x128 .f32) (k : ℕ) (hk : k < 26) (inb : ∀ a, (![k, 0, 0] : Fin 3 → Nat) a + S1x1024x128.size a ≤ S26x1024x128.size a)
    (sv : Elt F .f32) (hs : sv = s (ix1 (⟨k, by omega⟩ : Fin 32))) (x : S1x1024x128.Idx) :
    shapeCast S1x1024x128 (mulf (shapeCast S1024x128 (View.ld xb (Rect.unit (s := S26x1024x128) ![k, 0, 0] S1x1024x128.size inb)) shapeCasts_S1x1024x128_S1024x128) (broadcast S1024x128 sv)) shapeCasts_S1024x128_S1x1024x128 x
      = outB s xb ((Rect.unit (s := S26x1024x128) ![k, 0, 0] S1x1024x128.size inb).emb x) := by
  rw [piece_apply, hs]; unfold outB; rw [row_emb_zero k hk]; rfl

/-! ## The body's triple -/

set_option maxHeartbeats 4000000 in
/-- The kernel body on whole staging memrefs — the scale vector's at read contents `x0`, the input block's at `x1`, the
    output block's at anything — runs to the continuation holding the first two as they were and the output block's at
    `outB x0 x1`: its 26 stores, one per row, each the row of the input block times its lane, cover the block. -/
theorem sound_kernel (c : Dev nD) (E : Set ℕ) (i : grid1.Coords) (arg1 : Memref sig .tc .smem S32 .f32) (harg1 : arg1.IsWhole) (arg2 : Memref sig .tc .vmem S26x1024x128 .f32) (harg2 : arg2.IsWhole) (arg3 : Memref sig .tc .vmem S26x1024x128 .f32) (harg3 : arg3.IsWhole)
    (x0 : Vec F S32 .f32) (x1 : Vec F S26x1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outB x0 x1)) -∗ K ⟨⟩))
      ⊢ wp frame (wpE (defs₀ (F := F)) Variants.none c none) E (cc1__tc_body i arg1 harg1 arg2 harg2 arg3 harg3) K := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  funext y
  refine (View.read_writes_apply_eq_canon _ _ y _ ?c).trans (View.canon_apply_of_pieces _ _ ?h y ?c)
  case c => exact View.cover_of_tiled (s := S26x1024x128) _ S1x1024x128.size (by rfl) y
  case h =>
    intro p hp
    simp only [List.mem_cons, List.mem_nil_iff, _root_.or_false] at hp
    rcases hp with rfl | rfl | rfl | rfl | rfl | rfl | rfl | rfl | rfl | rfl | rfl | rfl | rfl | rfl | rfl | rfl | rfl | rfl | rfl | rfl | rfl | rfl | rfl | rfl | rfl | rfl
    · intro x; exact piece_outB (View.read (Elt F) arg1.view f0) (View.read (Elt F) arg2.view f1) 25 (by decide) _ _ (congrArg (View.read (Elt F) arg1.view f0) (lane_idx 25 (by decide) _ _)) x
    · intro x; exact piece_outB (View.read (Elt F) arg1.view f0) (View.read (Elt F) arg2.view f1) 24 (by decide) _ _ (congrArg (View.read (Elt F) arg1.view f0) (lane_idx 24 (by decide) _ _)) x
    · intro x; exact piece_outB (View.read (Elt F) arg1.view f0) (View.read (Elt F) arg2.view f1) 23 (by decide) _ _ (congrArg (View.read (Elt F) arg1.view f0) (lane_idx 23 (by decide) _ _)) x
    · intro x; exact piece_outB (View.read (Elt F) arg1.view f0) (View.read (Elt F) arg2.view f1) 22 (by decide) _ _ (congrArg (View.read (Elt F) arg1.view f0) (lane_idx 22 (by decide) _ _)) x
    · intro x; exact piece_outB (View.read (Elt F) arg1.view f0) (View.read (Elt F) arg2.view f1) 21 (by decide) _ _ (congrArg (View.read (Elt F) arg1.view f0) (lane_idx 21 (by decide) _ _)) x
    · intro x; exact piece_outB (View.read (Elt F) arg1.view f0) (View.read (Elt F) arg2.view f1) 20 (by decide) _ _ (congrArg (View.read (Elt F) arg1.view f0) (lane_idx 20 (by decide) _ _)) x
    · intro x; exact piece_outB (View.read (Elt F) arg1.view f0) (View.read (Elt F) arg2.view f1) 19 (by decide) _ _ (congrArg (View.read (Elt F) arg1.view f0) (lane_idx 19 (by decide) _ _)) x
    · intro x; exact piece_outB (View.read (Elt F) arg1.view f0) (View.read (Elt F) arg2.view f1) 18 (by decide) _ _ (congrArg (View.read (Elt F) arg1.view f0) (lane_idx 18 (by decide) _ _)) x
    · intro x; exact piece_outB (View.read (Elt F) arg1.view f0) (View.read (Elt F) arg2.view f1) 17 (by decide) _ _ (congrArg (View.read (Elt F) arg1.view f0) (lane_idx 17 (by decide) _ _)) x
    · intro x; exact piece_outB (View.read (Elt F) arg1.view f0) (View.read (Elt F) arg2.view f1) 16 (by decide) _ _ (congrArg (View.read (Elt F) arg1.view f0) (lane_idx 16 (by decide) _ _)) x
    · intro x; exact piece_outB (View.read (Elt F) arg1.view f0) (View.read (Elt F) arg2.view f1) 15 (by decide) _ _ (congrArg (View.read (Elt F) arg1.view f0) (lane_idx 15 (by decide) _ _)) x
    · intro x; exact piece_outB (View.read (Elt F) arg1.view f0) (View.read (Elt F) arg2.view f1) 14 (by decide) _ _ (congrArg (View.read (Elt F) arg1.view f0) (lane_idx 14 (by decide) _ _)) x
    · intro x; exact piece_outB (View.read (Elt F) arg1.view f0) (View.read (Elt F) arg2.view f1) 13 (by decide) _ _ (congrArg (View.read (Elt F) arg1.view f0) (lane_idx 13 (by decide) _ _)) x
    · intro x; exact piece_outB (View.read (Elt F) arg1.view f0) (View.read (Elt F) arg2.view f1) 12 (by decide) _ _ (congrArg (View.read (Elt F) arg1.view f0) (lane_idx 12 (by decide) _ _)) x
    · intro x; exact piece_outB (View.read (Elt F) arg1.view f0) (View.read (Elt F) arg2.view f1) 11 (by decide) _ _ (congrArg (View.read (Elt F) arg1.view f0) (lane_idx 11 (by decide) _ _)) x
    · intro x; exact piece_outB (View.read (Elt F) arg1.view f0) (View.read (Elt F) arg2.view f1) 10 (by decide) _ _ (congrArg (View.read (Elt F) arg1.view f0) (lane_idx 10 (by decide) _ _)) x
    · intro x; exact piece_outB (View.read (Elt F) arg1.view f0) (View.read (Elt F) arg2.view f1) 9 (by decide) _ _ (congrArg (View.read (Elt F) arg1.view f0) (lane_idx 9 (by decide) _ _)) x
    · intro x; exact piece_outB (View.read (Elt F) arg1.view f0) (View.read (Elt F) arg2.view f1) 8 (by decide) _ _ (congrArg (View.read (Elt F) arg1.view f0) (lane_idx 8 (by decide) _ _)) x
    · intro x; exact piece_outB (View.read (Elt F) arg1.view f0) (View.read (Elt F) arg2.view f1) 7 (by decide) _ _ (congrArg (View.read (Elt F) arg1.view f0) (lane_idx 7 (by decide) _ _)) x
    · intro x; exact piece_outB (View.read (Elt F) arg1.view f0) (View.read (Elt F) arg2.view f1) 6 (by decide) _ _ (congrArg (View.read (Elt F) arg1.view f0) (lane_idx 6 (by decide) _ _)) x
    · intro x; exact piece_outB (View.read (Elt F) arg1.view f0) (View.read (Elt F) arg2.view f1) 5 (by decide) _ _ (congrArg (View.read (Elt F) arg1.view f0) (lane_idx 5 (by decide) _ _)) x
    · intro x; exact piece_outB (View.read (Elt F) arg1.view f0) (View.read (Elt F) arg2.view f1) 4 (by decide) _ _ (congrArg (View.read (Elt F) arg1.view f0) (lane_idx 4 (by decide) _ _)) x
    · intro x; exact piece_outB (View.read (Elt F) arg1.view f0) (View.read (Elt F) arg2.view f1) 3 (by decide) _ _ (congrArg (View.read (Elt F) arg1.view f0) (lane_idx 3 (by decide) _ _)) x
    · intro x; exact piece_outB (View.read (Elt F) arg1.view f0) (View.read (Elt F) arg2.view f1) 2 (by decide) _ _ (congrArg (View.read (Elt F) arg1.view f0) (lane_idx 2 (by decide) _ _)) x
    · intro x; exact piece_outB (View.read (Elt F) arg1.view f0) (View.read (Elt F) arg2.view f1) 1 (by decide) _ _ (congrArg (View.read (Elt F) arg1.view f0) (lane_idx 1 (by decide) _ _)) x
    · intro x; exact piece_outB (View.read (Elt F) arg1.view f0) (View.read (Elt F) arg2.view f1) 0 (by decide) _ _ (congrArg (View.read (Elt F) arg1.view f0) (lane_idx 0 (by decide) _ _)) x

/-! ## The proof data -/

variable (sg : Vec F S32 .f32) (x : Vec F S26x16384x128 .f32) (y0 : Vec F S26x16384x128 .f32)
  (O : CellTallies nD τ sig (HIx 1)) (W : Waits sig (HIx 1))

/-- The three arrays as the region finds them: the scale vector, the input, and the output at what it held. -/
def arrA (c : Dev nD) : (w : Fin cfg1.W) → Buf (Elt F) ((cfg1.win w).arr.view.loc (c.tc : Thread nD τ))
  | ⟨0, _⟩ => sg
  | ⟨1, _⟩ => x
  | ⟨2, _⟩ => y0

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (arrA sg x y0 c w)

/-- The pairs the core's waits may have recorded: those it came with, and any at the kernel's own index. -/
def recB : Set (SemLoc sig × HIx 1) := {p | p ∈ W ∨ p.2 = none}

/-- The proof data of the pipeline on core `c`: the arrays as the region finds them; after the body at point `t` each
    input's buffer at its block and the output's at `outB` of the two; the invariant the scoped buffers the pipeline
    does not stage; the core owing `O` throughout; full shares. -/
def dat (c : Dev nD) : Dat τ (Elt F) (HIx 1) ℕ UU ℕ cfg1 c where
  A w := arrA sg x y0 c w
  after w t := match w with
    | ⟨0, _⟩ => iblk sg x y0 c 0 t
    | ⟨1, _⟩ => iblk sg x y0 c 1 t
    | ⟨2, _⟩ => outB (iblk sg x y0 c 0 t) (iblk sg x y0 c 1 t)
  Φ _ := Pipeline.scopedRest (Ix := HIx 1) (Name := ℕ) (U := UU) (Lvl := ℕ) (Val := Elt F) spec1 c
  q _ := fullShare
  owed _ := O
  recorded _ := recB W

theorem A_eq (c : Dev nD) (w : Fin cfg1.W) : (dat sg x y0 O W c).A w = arrA sg x y0 c w := by dsimp only [dat]
theorem after_0 (c : Dev nD) (t : Fin cfg1.N) : (dat sg x y0 O W c).after 0 t = iblk sg x y0 c 0 t := by dsimp only [dat]
theorem after_1 (c : Dev nD) (t : Fin cfg1.N) : (dat sg x y0 O W c).after 1 t = iblk sg x y0 c 1 t := by dsimp only [dat]
theorem after_2 (c : Dev nD) (t : Fin cfg1.N) : (dat sg x y0 O W c).after 2 t = outB (iblk sg x y0 c 0 t) (iblk sg x y0 c 1 t) := by dsimp only [dat]

/-- Each input's current staging buffer holds its block at every point, fetched there or not: the body leaves it in place. -/
theorem before_0 (c : Dev nD) (t : Fin cfg1.N) (d) : (dat sg x y0 O W c).before 0 t d = iblk sg x y0 c 0 t :=
  ((dat sg x y0 O W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat sg x y0 O W c).before 1 t d = iblk sg x y0 c 1 t :=
  ((dat sg x y0 O W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat sg x y0 O W c).Φ t.castSucc ∗ (dat sg x y0 O W c).owesAt none t.castSucc
    ∗ (∃ d, owns (c : Thread nD τ) (st1_0 t) fullShare ((dat sg x y0 O W c).before 0 t d))
    ∗ (∃ d, owns (c : Thread nD τ) (st1_1 t) fullShare ((dat sg x y0 O W c).before 1 t d))
    ∗ (∃ d, owns (c : Thread nD τ) (st1_2 t) fullShare ((dat sg x y0 O W c).before 2 t d)))

/-- and what it returns. -/
def bodyPost (c : Dev nD) (t : Fin cfg1.N) : sProp 𝕄 :=
  iprop((dat sg x y0 O W c).Φ t.succ ∗ (dat sg x y0 O W c).owesAt none t.succ
    ∗ owns (c : Thread nD τ) (st1_0 t) fullShare ((dat sg x y0 O W c).after 0 t)
    ∗ owns (c : Thread nD τ) (st1_1 t) fullShare ((dat sg x y0 O W c).after 1 t)
    ∗ owns (c : Thread nD τ) (st1_2 t) fullShare ((dat sg x y0 O W c).after 2 t))

/-- The body at any point: the inputs' memrefs hold their blocks, so `sound_kernel` applies; the invariant and what the
    core owes pass through unread. -/
theorem sound_body (c : Dev nD) (t : Fin cfg1.N) :
    bodyPre sg x y0 O W c t ⊢ wp frame (wpE (defs₀ (F := F)) Variants.none c none) Set.univ (bodyAt1 t) (fun _ => bodyPost sg x y0 O W c t) := by
  unfold bodyPre bodyPost bodyAt1
  simp only [before_0, before_1]
  rw [show (dat sg x y0 O W c).Φ t.succ = (dat sg x y0 O W c).Φ t.castSucc from rfl,
    show (dat sg x y0 O W c).owesAt none t.succ = (dat sg x y0 O W c).owesAt none t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk sg x y0 c 0 t) (iblk sg x y0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat sg x y0 O W c) (defs₀ (F := F)) Variants.none none Set.univ := fun t => by
  rw [bigSep_W1, bigSep_W1]
  exact sound_body sg x y0 O W c t

end Cert.KernelIdeal.Hand

end
-- ==== Proof.KernelIdeal.TcRegion.lean ====
/-
  The TensorCore region of the program as one step of the TensorCore's thread.

  The region's pipeline runs the body at the 16 points of its grid; point `t` stages the whole scale vector (fetched at
  the first point only), block `t` of the input along its middle axis, and writes back block `t` of the output. What
  point `t` writes back is block `t` of `tcOut sg x` (row `j` of the input times lane `j` of the scale vector); the 16
  blocks cover the output, so the output array ends at `tcOut sg x`, whatever it held. The region is entered with the
  core still owing the launch's units, none at the kernel's own index, so every wait of the pipeline sits below them.
-/
import proofs.«205909_g45389214384387_cont_8to1c4_201_25_alg».proof.Proof.KernelIdeal.TcData

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ
section Data

variable (sg : Vec F S32 .f32) (x : Vec F S26x16384x128 .f32) (y0 : Vec F S26x16384x128 .f32)
  (O : CellTallies nD τ sig (HIx 1)) (W : Waits sig (HIx 1))

/-! ## From blocks to the array -/

/-- The printed index maps, decided over the grid: the scale vector's window stays at block 0; the input's and the
    output's blocks are block `t` of the middle axis. -/
theorem idx_facts : ∀ t : Fin cfg1.N, win1_0.index t (0 : Fin 1) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0 :=
  (by decide +kernel : ∀ t : Fin grid1.N, _)

/-- WHAT POINT `t` WRITES BACK is block `t` of `tcOut sg x`. -/
theorem flushed_eq (c : Dev nD) (t : Fin cfg1.N) :
    (dat sg x y0 O W c).flushed 2 t = ((cfg1.win 2).blk t).view.read (Elt F) (tcOut sg x) := by
  show (cfg1.win 2).cut (grid1.coords t) ((dat sg x y0 O W c).after 2 t) = _
  rw [after_2]
  obtain ⟨e0, e1, e2, e3, e4, e5, e6⟩ := idx_facts t
  funext j
  show FloatOps.mulf (x (((cfg1.win 1).blk t).view.emb j)) (sg (((cfg1.win 0).blk t).view.emb (ix1 (Fin.castLE _ (j 0) : Fin 32))))
    = FloatOps.mulf (x (((cfg1.win 2).blk t).view.emb j)) (sg (ix1 (Fin.castLE _ ((((cfg1.win 2).blk t).view.emb j) 0) : Fin 32)))
  have h1 : ((cfg1.win 1).blk t).view.emb j = ((cfg1.win 2).blk t).view.emb j := by
    funext a; apply Fin.ext
    match a with
    | ⟨0, _⟩ => show win1_1.index t (0 : Fin 3) * 26 + 1 * (j 0).val = win1_2.index t (0 : Fin 3) * 26 + 1 * (j 0).val; omega
    | ⟨1, _⟩ => show win1_1.index t (1 : Fin 3) * 1024 + 1 * (j 1).val = win1_2.index t (1 : Fin 3) * 1024 + 1 * (j 1).val; omega
    | ⟨2, _⟩ => show win1_1.index t (2 : Fin 3) * 128 + 1 * (j 2).val = win1_2.index t (2 : Fin 3) * 128 + 1 * (j 2).val; omega
  have h0 : ∀ (p1 : 26 ≤ 32) (p2 : 26 ≤ 32), ((cfg1.win 0).blk t).view.emb (ix1 (Fin.castLE p1 (j 0) : Fin 32)) = ix1 (Fin.castLE p2 ((((cfg1.win 2).blk t).view.emb j) 0) : Fin 32) := by
    intro p1 p2
    funext a; apply Fin.ext
    match a with
    | ⟨0, _⟩ => show win1_0.index t (0 : Fin 1) * 32 + 1 * (j 0).val = win1_2.index t (0 : Fin 3) * 26 + 1 * (j 0).val; omega
  rw [h1]
  exact congrArg (fun z => FloatOps.mulf (x (((cfg1.win 2).blk t).view.emb j)) (sg z)) (h0 _ _)

/-- An index of the array is in point `t`'s block iff each coordinate is in the block's range on its axis. -/
theorem mem_blk (t : Fin cfg1.N) (i : S26x16384x128.Idx) :
    i ∈ ((cfg1.win 2).blk t).view.set ↔ ∀ a : Fin 3, win1_2.index t a * S26x1024x128.size a ≤ (i a).val ∧ (i a).val < win1_2.index t a * S26x1024x128.size a + S26x1024x128.size a := by
  show i ∈ ((View.whole main_v6).slice (win1_2.rect t)).set ↔ _
  rw [View.set_slice_whole, Rect.mem_set_unit]
  exact Iff.rfl

/-- Every index of the array is in some point's block. -/
theorem covered (i : S26x16384x128.Idx) : ∃ t : Fin cfg1.N, (cfg1.win 2).flush t = true ∧ i ∈ ((cfg1.win 2).blk t).view.set := by
  have hi0 : (i 0).val < 26 := (i 0).isLt
  have hi1 : (i 1).val < 16384 := (i 1).isLt
  have hi2 : (i 2).val < 128 := (i 2).isLt
  have hN : (i 1).val / 1024 < cfg1.N := by rw [show cfg1.N = 16 from N_1]; omega
  refine ⟨⟨(i 1).val / 1024, hN⟩, flush1_2 _, ?_⟩
  obtain ⟨e0, e1, e2, e3, e4, e5, e6⟩ := idx_facts ⟨(i 1).val / 1024, hN⟩
  rw [mem_blk]
  intro a
  match a with
  | ⟨0, _⟩ => show win1_2.index _ (0 : Fin 3) * 26 ≤ (i 0).val ∧ (i 0).val < win1_2.index _ (0 : Fin 3) * 26 + 26; omega
  | ⟨1, _⟩ => show win1_2.index _ (1 : Fin 3) * 1024 ≤ (i 1).val ∧ (i 1).val < win1_2.index _ (1 : Fin 3) * 1024 + 1024; rw [e5]; show (i 1).val / 1024 * 1024 ≤ (i 1).val ∧ (i 1).val < (i 1).val / 1024 * 1024 + 1024; omega
  | ⟨2, _⟩ => show win1_2.index _ (2 : Fin 3) * 128 ≤ (i 2).val ∧ (i 2).val < win1_2.index _ (2 : Fin 3) * 128 + 128; omega

/-- THE OUTPUT ARRAY after the last point is `tcOut sg x`: every block written is its block, and the blocks cover it. -/
theorem final_2 (c : Dev nD) : (dat sg x y0 O W c).arrAt 2 cfg1.N = tcOut sg x :=
  (dat sg x y0 O W c).arrAt_eq_of_cover 2 (tcOut sg x) (fun t _ => flushed_eq sg x y0 O W c t) covered

/-- The inputs' arrays are never written. -/
theorem final_0 (c : Dev nD) : (dat sg x y0 O W c).arrAt 0 cfg1.N = sg :=
  ((dat sg x y0 O W c).arrAt_in 0 rfl _).trans (A_eq sg x y0 O W c 0)
theorem final_1 (c : Dev nD) : (dat sg x y0 O W c).arrAt 1 cfg1.N = x :=
  ((dat sg x y0 O W c).arrAt_in 1 rfl _).trans (A_eq sg x y0 O W c 1)

/-! ## The region -/

abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c :=
  fun _ c => dat sg x y0 O W c

set_option backward.isDefEq.respectTransparency.types false in
/-- The region over the thread state "the scale vector, the input and the output held whole, and the core owing `O`":
    entered with the three arrays sorted into the pipeline's, left with the output at `tcOut sg x`. Nothing enters the
    invariant but the scoped buffers the pipeline does not stage; the kernel has no semaphore of its own; every wait of
    the pipeline is at the kernel's own index, below everything the core owes. -/
def reg (hO : ∀ g, O g none = 0) : Pipeline.RegionSeg (pcfgs (F := F)) adm (pdats sg x y0 O W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation sg x y0 O W c).loose
  hwaits c := Pipeline.cellsWaits_intro (Pipeline.pin (pcfgs (F := F)) adm) (pdats sg x y0 O W) none 0 c fun w s t => (K (F := F)).mayWait_none _ hO
  pre c := iprop((v4Loc c ↦{fullShare} sg) ∗ (v5Loc c ↦{fullShare} x) ∗ (v6Loc c ↦{fullShare} y0) ∗ owes (SparseCore.T c) O W)
  post c := iprop((v4Loc c ↦{fullShare} sg) ∗ (v5Loc c ↦{fullShare} x) ∗ (v6Loc c ↦{fullShare} tcOut sg x)
    ∗ ∃ W', ⌜∀ p ∈ W', p ∈ W ∨ p.2 = none⌝ ∗ owes (SparseCore.T c) O W')
  X _ := BI.emp
  Y _ := BI.emp
  Z _ := BI.emp
  hentry c := by
    rw [Pipeline.ownSems0_none, Pipeline.arrays_eq (Pipeline.pin (pcfgs (F := F)) adm) (pdats sg x y0 O W) 0 c launch1.arr_whole ((pdats sg x y0 O W 0 c).share_full fun _ => rfl), bigSep_W1]
    iintro ⟨⟨H4, H5, H6, HO⟩, -, -⟩
    imodintro
    isplitl [H4 H5 H6]
    · isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr; · iempintro
    iempintro
  hin c := by
    rw [show (pdats sg x y0 O W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats sg x y0 O W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have h0 : (pdats sg x y0 O W 0 c).arrAt 0 (Pipeline.pin (pcfgs (F := F)) adm 0).N = sg := final_0 sg x y0 O W c
    have h1 : (pdats sg x y0 O W 0 c).arrAt 1 (Pipeline.pin (pcfgs (F := F)) adm 0).N = x := final_1 sg x y0 O W c
    have h2 : (pdats sg x y0 O W 0 c).arrAt 2 (Pipeline.pin (pcfgs (F := F)) adm 0).N = tcOut sg x := final_2 sg x y0 O W c
    rw [Pipeline.arrays_eq (Pipeline.pin (pcfgs (F := F)) adm) (pdats sg x y0 O W) 0 c launch1.arr_whole ((pdats sg x y0 O W 0 c).share_full fun _ => rfl), bigSep_W1, h0, h1, h2]
    iintro ⟨⟨H4, H5, H6⟩, HO, -, -⟩
    imodintro
    isplitl [H4]; · iexact H4
    isplitl [H5]; · iexact H5
    isplitl [H6]; · iexact H6
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

end Data

/-! ## The region as one step of the TensorCore's thread -/

set_option backward.isDefEq.respectTransparency.types false in
/-- The TensorCore region of the program, inside the program's extended body table: from the region boundary, the level
    facts, the scale vector, the input and the output held whole, the core owing `O` with nothing at the kernel's own
    index, and the staging cells' ghost state, the call runs to the boundary, the three arrays with the output at
    `tcOut sg x`, and the core owing `O` still, its recorded pairs those it came with or at the kernel's own index. -/
theorem tc_region (d : Dev nD) (sg : Buf (Elt F) (v4Loc d)) (x : Buf (Elt F) (v5Loc d)) (O : CellTallies nD τ sig (HIx 1)) (W : Waits sig (HIx 1)) (hO : ∀ g, O g none = 0)
    {α : Type} (k : PUnit → Prog (TpuEff nD τ sig (Elt F) (SparseCore.Sig (ΛP (F := F)) 1) .tc) α) (Φ : α → sProp 𝕄) :
    iprop(boundary (SparseCore.T d) ∗ levAts (K (F := F)).L (K (F := F)).lev
        ∗ (v4Loc d ↦{fullShare} sg) ∗ (v5Loc d ↦{fullShare} x) ∗ (∃ f, v6Loc d ↦{fullShare} f)
        ∗ owes (SparseCore.T d) O W
        ∗ Pipeline.cellsGhost cfgs EP 0 d ∗ Pipeline.toksInit cfgs EP 0 d
        ∗ (iprop(boundary (SparseCore.T d) ∗ (v4Loc d ↦{fullShare} sg) ∗ (v5Loc d ↦{fullShare} x) ∗ (v6Loc d ↦{fullShare} tcOut sg x)
              ∗ ∃ W', ⌜∀ p ∈ W', p ∈ W ∨ p.2 = none⌝ ∗ owes (SparseCore.T d) O W')
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (.op (.customCall (SparseCore.inner (Pipeline.entry 0)) ()) k) Φ := by
  iintro ⟨Hb, #HL, H4, H5, ⟨%y0, H6⟩, HO, Hg, Ht, Hk⟩
  rw [show (Prog.op (.customCall (SparseCore.inner (Pipeline.entry 0)) ()) k : Prog (TpuEff nD τ sig (Elt F) (SparseCore.Sig (ΛP (F := F)) 1) .tc) α)
      = ((SparseCore.liftProg (Q := 1) (Prog.op (.customCall (Pipeline.entry 0) ()) Prog.ret : Prog (TpuEff nD τ sig (Elt F) (ΛP (F := F)) .tc) PUnit)) >>= k) from rfl, wp_bind]
  iapply ((K (F := F)).wp_liftProg (D (F := F)) 𝒱 (SparseCore.T d) Set.univ none _ _)
  iapply (Pipeline.RegionSeg.wp (pcfgs (F := F)) adm (pdats sg x y0 O W) none cellOf_inj EP defs₀ 𝒱₀ (K (F := F)).L (K (F := F)).lev (reg sg x y0 O W hO) d none (fun _ h => nomatch h) Prog.ret _)
  rw [show (reg sg x y0 O W hO).post d = iprop((v4Loc d ↦{fullShare} sg) ∗ (v5Loc d ↦{fullShare} x) ∗ (v6Loc d ↦{fullShare} tcOut sg x)
      ∗ ∃ W', ⌜∀ p ∈ W', p ∈ W ∨ p.2 = none⌝ ∗ owes (SparseCore.T d) O W') from rfl,
    show (reg sg x y0 O W hO).pre d = iprop((v4Loc d ↦{fullShare} sg) ∗ (v5Loc d ↦{fullShare} x) ∗ (v6Loc d ↦{fullShare} y0) ∗ owes (SparseCore.T d) O W) from rfl]
  isplitl [Hk]
  · iintro ⟨Hb, H4, H5, H6, HO⟩
    iapply (le_wp_ret _ _ _ _ _)
    iapply Hk
    isplitl [Hb]; · iexact Hb
    isplitl [H4]; · iexact H4
    isplitl [H5]; · iexact H5
    isplitl [H6]; · iexact H6
    iexact HO
  isplitl [Hb]; · iexact Hb
  isplitl [H4 H5 H6 HO]
  · isplitl [H4]; · iexact H4
    isplitl [H5]; · iexact H5
    isplitl [H6]; · iexact H6
    iexact HO
  isplitr; · iexact HL
  isplitl [Hg]; · iexact Hg
  iexact Ht

end Cert.KernelIdeal.Hand

end
-- ==== Proof.KernelIdeal.Launch.lean ====
/-
  The kernel program's run, through the launch theorem of a SparseCore program: the launch element of the ghost state (the
  handshakes' rounds and the one region's staging cells funded, the transfers' counters untouched), @main on the TensorCore — six
  host operations over its thirteen arrays held whole, the SparseCore call handing SparseCore 0 the padded index vector, the table
  and the scale vector's buffer and getting them back with the scale vector written, a transposition, the TensorCore region, a
  transposition —, how the final memory reads the held arrays, and the last valuation read back: the result array is the
  transposition back of the region's output, the arguments are unchanged.
-/
import proofs.«205909_g45389214384387_cont_8to1c4_201_25_alg».proof.Proof.KernelIdeal.HostOps
import proofs.«205909_g45389214384387_cont_8to1c4_201_25_alg».proof.Proof.KernelIdeal.PadIdx
import proofs.«205909_g45389214384387_cont_8to1c4_201_25_alg».proof.Proof.KernelIdeal.ScBody
import proofs.«205909_g45389214384387_cont_8to1c4_201_25_alg».proof.Proof.KernelIdeal.TcRegion
import proofs.«205909_g45389214384387_cont_8to1c4_201_25_alg».proof.Proof.LibHeld

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds, the staging cells' rounds; the counters are not used at launch -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from besides the launch's deal: the staging cells' ghost state and duty tokens of its regions (one). -/
abbrev G (d : Dev nD) : sProp 𝕄 :=
  iprop((bigSep Finset.univ fun p : Fin 1 => Pipeline.cellsGhost cfgs EP p d) ∗ (bigSep Finset.univ fun p : Fin 1 => Pipeline.toksInit cfgs EP p d))

variable (ip : (d : Dev nD) → Buf (Elt F) (v3Loc d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m ip).x q thr) := by
  unfold u₀ G EP
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) (Val := Elt F) (Ix := HIx 1) (Name := ℕ) (U := UU) (Lvl := ℕ) cfgs ((Emb.inl : Emb UP (UP × Counters)).trans embR) cellOf_inj) $$ HP with ⟨Hg, Ht⟩
  imodintro
  isplitl [HH]; · iexact HH
  isplitl [Hg Ht]
  · rw [bigSep_sep']
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The scale vector the call writes. -/
def sgOf (d : Dev nD) : Buf (Elt F) (v4Loc d) := sigOf (ipOf m d) (m (lwLoc d))
/-- After the call; after the transposition before the region; after the region; after the last transposition. -/
def V7 (d : Dev nD) : Valuation τ sig (Elt F) := Function.update (V6 m d) r_v4 (sgOf m d)
def V8 (d : Dev nD) : Valuation τ sig (Elt F) := (op7 (F := F)).result (V7 m d)
def V9 (d : Dev nD) : Valuation τ sig (Elt F) := Function.update (V8 m d) r_v6 (tcOut (V8 m d r_v4) (V8 m d r_v5))
def V10 (d : Dev nD) : Valuation τ sig (Elt F) := (op8 (F := F)).result (V9 m d)

/-- What @main leaves the claim: its thirteen arrays at the last valuation. -/
abbrev FIN (d : Dev nD) : sProp 𝕄 := held (T d) S13 (V10 m d)

theorem h1 : (op1 (F := F)).bufs ⊆ S13 := show ({r_c} : Finset (DevRef τ sig)) ⊆ S13 by decide
theorem h2 : (op2 (F := F)).bufs ⊆ S13 := show ({r_c, r_v0} : Finset (DevRef τ sig)) ⊆ S13 by decide
theorem h3 : (op3 (F := F)).bufs ⊆ S13 := show ({r_a0, r_v1} : Finset (DevRef τ sig)) ⊆ S13 by decide
theorem h4 : (op4 (F := F)).bufs ⊆ S13 := show ({r_c0} : Finset (DevRef τ sig)) ⊆ S13 by decide
theorem h5 : (op5 (F := F)).bufs ⊆ S13 := show ({r_c0, r_v2} : Finset (DevRef τ sig)) ⊆ S13 by decide
theorem h6 : (op6 (F := F)).bufs ⊆ S13 := show ({r_v0, r_v2, r_v1, r_v3} : Finset (DevRef τ sig)) ⊆ S13 by decide
theorem h7 : (op7 (F := F)).bufs ⊆ S13 := show ({r_a1, r_v5} : Finset (DevRef τ sig)) ⊆ S13 by decide
theorem h8 : (op8 (F := F)).bufs ⊆ S13 := show ({r_v6, r_v7} : Finset (DevRef τ sig)) ⊆ S13 by decide

/-- The call's three arrays and the region's three. -/
abbrev Tcall : Finset (DevRef τ sig) := {r_v3, r_a2, r_v4}
abbrev Treg : Finset (DevRef τ sig) := {r_v4, r_v5, r_v6}

omit [FloatOps F] in
theorem held_Tcall (d : Dev nD) (W : Valuation τ sig (Elt F)) :
    (held (T d) Tcall W : sProp 𝕄) = iprop((v3Loc d ↦{fullShare} W r_v3) ∗ (lwLoc d ↦{fullShare} W r_a2) ∗ v4Loc d ↦{fullShare} W r_v4) := by
  unfold held Tcall
  rw [SparseCore.bigSep_insert' (by decide), SparseCore.bigSep_insert' (by decide), bigSep_singleton]
omit [FloatOps F] in
theorem held_Treg (d : Dev nD) (W : Valuation τ sig (Elt F)) :
    (held (T d) Treg W : sProp 𝕄) = iprop((v4Loc d ↦{fullShare} W r_v4) ∗ (v5Loc d ↦{fullShare} W r_v5) ∗ v6Loc d ↦{fullShare} W r_v6) := by
  unfold held Treg
  rw [SparseCore.bigSep_insert' (by decide), SparseCore.bigSep_insert' (by decide), bigSep_singleton]

theorem st0_eq (d : Dev nD) : (bigSep Finset.univ fun c : Fin ((K (F := F)).nCore 0) => (P m ip).st 0 d c) = iprop(callIn m ip d ∗ emp) := by
  show (bigSep (Finset.univ : Finset (Fin 2)) fun c => coreIn m ip d c.val) = _
  rw [show (Finset.univ : Finset (Fin 2)) = {0, 1} by decide, SparseCore.bigSep_insert' (by decide), bigSep_singleton]
  show iprop(coreIn m ip d 0 ∗ coreIn m ip d 1) = _
  rw [show coreIn m ip d 0 = callIn m ip d from if_pos rfl, show coreIn m ip d 1 = iprop(emp) from if_neg Nat.one_ne_zero]
theorem dn0_eq (d : Dev nD) : (bigSep Finset.univ fun c : Fin ((K (F := F)).nCore 0) => (P m ip).dn 0 d c) = iprop(callOut m ip d ∗ emp) := by
  show (bigSep (Finset.univ : Finset (Fin 2)) fun c => coreOut m ip d c.val) = _
  rw [show (Finset.univ : Finset (Fin 2)) = {0, 1} by decide, SparseCore.bigSep_insert' (by decide), bigSep_singleton]
  show iprop(coreOut m ip d 0 ∗ coreOut m ip d 1) = _
  rw [show coreOut m ip d 0 = callOut m ip d from if_pos rfl, show coreOut m ip d 1 = iprop(emp) from if_neg Nat.one_ne_zero]

theorem V7_v3 (d : Dev nD) : V7 m d r_v3 = ipOf m d := Function.update_of_ne (show r_v3 ≠ r_v4 by decide) _ _
theorem V7_a2 (d : Dev nD) : V7 m d r_a2 = m (lwLoc d) := (Function.update_of_ne (show r_a2 ≠ r_v4 by decide) _ _).trans (V6_a2 m d)
theorem V7_v4 (d : Dev nD) : V7 m d r_v4 = sgOf m d := Function.update_self _ _ _
theorem V7_rest (d : Dev nD) : ∀ b ∈ S13 \ Tcall, V7 m d b = V6 m d b := by
  intro b hb
  refine Function.update_of_ne ?_ _ _
  rintro rfl
  exact (Finset.mem_sdiff.mp hb).2 (by decide)
theorem V9_v4 (d : Dev nD) : V9 m d r_v4 = V8 m d r_v4 := Function.update_of_ne (show r_v4 ≠ r_v6 by decide) _ _
theorem V9_v5 (d : Dev nD) : V9 m d r_v5 = V8 m d r_v5 := Function.update_of_ne (show r_v5 ≠ r_v6 by decide) _ _
theorem V9_v6 (d : Dev nD) : V9 m d r_v6 = tcOut (V8 m d r_v4) (V8 m d r_v5) := Function.update_self _ _ _
theorem V9_rest (d : Dev nD) : ∀ b ∈ S13 \ Treg, V9 m d b = V8 m d b := by
  intro b hb
  refine Function.update_of_ne ?_ _ _
  rintro rfl
  exact (Finset.mem_sdiff.mp hb).2 (by decide)

theorem hO1 (d : Dev nD) : ∀ g, (K (F := F)).Otc d 1 g none = 0 := by
  intro g; rw [(K (F := F)).Otc_end d (le_refl 1)]; rfl

/-- The held arrays after the six operations, with the call's three taken out. -/
theorem held_call_split (d : Dev nD) :
    (held (SparseCore.T d) S13 ((op6 (F := F)).result ((op5 (F := F)).result ((op4 (F := F)).result ((op3 (F := F)).result ((op2 (F := F)).result ((op1 (F := F)).result (V0 m d)))))) ) : sProp 𝕄)
      = iprop(((v3Loc d ↦{fullShare} ipOf m d) ∗ (lwLoc d ↦{fullShare} m (lwLoc d)) ∗ v4Loc d ↦{fullShare} V6 m d r_v4) ∗ held (SparseCore.T d) (S13 \ Tcall) (V6 m d)) := by
  rw [show (op6 (F := F)).result ((op5 (F := F)).result ((op4 (F := F)).result ((op3 (F := F)).result ((op2 (F := F)).result ((op1 (F := F)).result (V0 m d)))))) = V6 m d from rfl,
    held_sub_split (SparseCore.T d) (show Tcall ⊆ S13 by decide) (V6 m d), held_Tcall, V6_a2]
  rfl
/-- The held arrays after the call, the scale vector written. -/
theorem held_call_join (d : Dev nD) :
    (iprop(((v3Loc d ↦{fullShare} ipOf m d) ∗ (lwLoc d ↦{fullShare} m (lwLoc d)) ∗ v4Loc d ↦{fullShare} sgOf m d) ∗ held (SparseCore.T d) (S13 \ Tcall) (V6 m d)) : sProp 𝕄)
      = held (SparseCore.T d) S13 (V7 m d) := by
  rw [Cert.LibHeld.held_split_at (c := SparseCore.T d) (show Tcall ⊆ S13 by decide) (V6 m d) (V7 m d) (V7_rest m d), held_Tcall, V7_v3, V7_a2, V7_v4]
/-- The held arrays before the region, with the region's three taken out. -/
theorem held_reg_split (d : Dev nD) :
    (held (SparseCore.T d) S13 ((op7 (F := F)).result (V7 m d)) : sProp 𝕄)
      = iprop(((v4Loc d ↦{fullShare} V8 m d r_v4) ∗ (v5Loc d ↦{fullShare} V8 m d r_v5) ∗ v6Loc d ↦{fullShare} V8 m d r_v6) ∗ held (SparseCore.T d) (S13 \ Treg) (V8 m d)) := by
  rw [show (op7 (F := F)).result (V7 m d) = V8 m d from rfl, held_sub_split (SparseCore.T d) (show Treg ⊆ S13 by decide) (V8 m d), held_Treg]
/-- The held arrays after the region, the output written. -/
theorem held_reg_join (d : Dev nD) :
    (iprop(((v4Loc d ↦{fullShare} V8 m d r_v4) ∗ (v5Loc d ↦{fullShare} V8 m d r_v5) ∗ v6Loc d ↦{fullShare} tcOut (V8 m d r_v4) (V8 m d r_v5)) ∗ held (SparseCore.T d) (S13 \ Treg) (V8 m d)) : sProp 𝕄)
      = held (SparseCore.T d) S13 (V9 m d) := by
  rw [Cert.LibHeld.held_split_at (c := SparseCore.T d) (show Treg ⊆ S13 by decide) (V8 m d) (V9 m d) (V9_rest m d), held_Treg, V9_v4, V9_v5, V9_v6]

/-- The TensorCore's handshake state gives up what it owes and takes it back at any recorded waits below the same bound. -/
theorem tcSt_owes (d : Dev nD) (n : ℕ) :
    ((K (F := F)).tcSt EH d n : sProp 𝕄) ⊢ iprop(∃ W, ⌜(K (F := F)).WBelow (SparseCore.T d) W (8 * n)⌝ ∗ owes (SparseCore.T d) ((K (F := F)).Otc d n) W
      ∗ (∀ W', ⌜(K (F := F)).WBelow (SparseCore.T d) W' (8 * n)⌝ -∗ owes (SparseCore.T d) ((K (F := F)).Otc d n) W' -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' %hW' HO
  isplitl [HO]
  · iexists W'; isplitr
    · ipureintro; exact hW'
    · iexact HO
  · iexact Hrest

/-- @main on device `d`'s TensorCore. -/
theorem hmain (κ : GSem nD τ sig → ℕ) (d : Dev nD) :
    iprop((K (F := F)).ctx EH (P m (ipOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure, Prog.lift]
  iintro ⟨#Hctx, Hst, ⟨Hb, Hheld, -, -⟩, ⟨Hcg, Htk⟩⟩
  iapply (wp_hlo_within 𝒱 (SparseCore.T d) none Set.univ (op := op1) (S := S13) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S13) h2 (V := _)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S13) h3 (V := _)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S13) h4 (V := _)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S13) h5 (V := _)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S13) h6 (V := _)) $$ [Hb Hheld]
  · isplitl [Hb]; · iexact Hb
    iexact Hheld
  iintro ⟨Hb, Hheld⟩
  rw [wp_ret]; imodintro
  -- the call: the padded index vector, the table and the scale vector's buffer to SparseCore 0 and back
  ihave Hheld' := (Entails.of_eq (held_call_split m d)) $$ Hheld
  icases Hheld' with ⟨⟨Hv3, Hlw, Hv4⟩, Hrest⟩
  iapply ((K (F := F)).wp_run (D (F := F)) 𝒱 (EH := EH) (P := P m (ipOf m)) κ d 0) $$ [Hst Hv3 Hlw Hv4 Hb Hrest Hcg Htk]
  isplitr; · iexact Hctx
  isplitl [Hst]; · iexact Hst
  isplitl [Hv3 Hlw Hv4]
  · rw [st0_eq]
    isplitl [Hv3 Hlw Hv4]
    · isplitl [Hv3]; · iexact Hv3
      isplitl [Hlw]; · iexact Hlw
      iexists _; iexact Hv4
    · iempintro
  iintro ⟨Hst, Hdn⟩
  ihave Hdn' := (Entails.of_eq (dn0_eq m (ipOf m) d)) $$ Hdn
  icases Hdn' with ⟨⟨Hv3, Hlw, Hv4⟩, -⟩
  ihave Hheld := (Entails.of_eq (held_call_join m d)) $$ [Hv3 Hlw Hv4 Hrest]
  · isplitr [Hrest]
    · isplitl [Hv3]; · iexact Hv3
      isplitl [Hlw]; · iexact Hlw
      iexact Hv4
    · iexact Hrest
  iapply (wp_hlo_within 𝒱 (SparseCore.T d) none Set.univ (op := op7) (S := S13) h7 (V := V7 m d)) $$ [Hb Hheld]
  · isplitl [Hb]; · iexact Hb
    iexact Hheld
  iintro ⟨Hb, Hheld⟩
  rw [wp_ret]; imodintro
  -- the region: the scale vector, the transposed array and the output's buffer
  ihave Hheld' := (Entails.of_eq (held_reg_split m d)) $$ Hheld
  icases Hheld' with ⟨⟨Hv4, Hv5, Hv6⟩, Hrest⟩
  ihave Hst1 := (Entails.of_eq (show ((K (F := F)).tcSt EH d ((0 : Fin 1).val + 1) : sProp 𝕄) = (K (F := F)).tcSt EH d 1 from rfl)) $$ Hst
  ihave Hst' := (tcSt_owes d 1) $$ Hst1
  icases Hst' with ⟨%W, %hW, HO, Hback⟩
  ihave #Hlev := (SparseCore.Cfg.ctx_levAts κ) $$ Hctx
  ihave Hcg' := (Entails.of_eq (bigSep_univ_of_subsingleton (0 : Fin 1))) $$ Hcg
  ihave Htk' := (Entails.of_eq (bigSep_univ_of_subsingleton (0 : Fin 1))) $$ Htk
  iapply (tc_region (F := F) d (V8 m d r_v4) (V8 m d r_v5) ((K (F := F)).Otc d 1) W (hO1 d) _ _) $$ [Hb Hv4 Hv5 Hv6 HO Hcg' Htk' Hrest Hback]
  isplitl [Hb]; · iexact Hb
  isplitr; · iexact Hlev
  isplitl [Hv4]; · iexact Hv4
  isplitl [Hv5]; · iexact Hv5
  isplitl [Hv6]; · iexists _; iexact Hv6
  isplitl [HO]; · iexact HO
  isplitl [Hcg']; · iexact Hcg'
  isplitl [Htk']; · iexact Htk'
  iintro ⟨Hb, Hv4, Hv5, Hv6, %W', %hW', HO⟩
  rw [wp_ret]; imodintro
  ihave Hheld := (Entails.of_eq (held_reg_join m d)) $$ [Hv4 Hv5 Hv6 Hrest]
  · isplitr [Hrest]
    · isplitl [Hv4]; · iexact Hv4
      isplitl [Hv5]; · iexact Hv5
      iexact Hv6
    · iexact Hrest
  iapply (wp_hlo_within 𝒱 (SparseCore.T d) none Set.univ (op := op8) (S := S13) h8 (V := V9 m d)) $$ [Hb Hheld]
  · isplitl [Hb]; · iexact Hb
    iexact Hheld
  iintro ⟨Hb, Hheld⟩
  rw [wp_ret]; imodintro; imodintro
  isplitr [Hheld]
  · iapply Hback $$ [] [HO]
    · ipureintro
      intro p hp
      rcases hW' p hp with h | h
      · exact hW p h
      · show (K (F := F)).lev _ p.2 ≤ _
        rw [h]; exact Nat.zero_le _
    · iexact HO
  · iexact Hheld

/-! ## The last valuation read back -/

theorem V10_of_old (d : Dev nD) (b : DevRef τ sig) (h7 : b ≠ r_v7) (h6 : b ≠ r_v6) (h5 : b ≠ r_v5) (h4 : b ≠ r_v4) : V10 m d b = V6 m d b := by
  unfold V10
  rw [(op8 (F := F)).result_of_not_mem (V9 m d) (b := b) (show b ∉ ({r_v7} : Finset (DevRef τ sig)) by simpa using h7)]
  unfold V9
  rw [Function.update_of_ne h6]
  unfold V8
  rw [(op7 (F := F)).result_of_not_mem (V7 m d) (b := b) (show b ∉ ({r_v5} : Finset (DevRef τ sig)) by simpa using h5)]
  unfold V7
  rw [Function.update_of_ne h4]

theorem V10_a0 (d : Dev nD) : V10 m d r_a0 = m (a0Loc d) :=
  (V10_of_old m d r_a0 (by decide) (by decide) (by decide) (by decide)).trans (V6_a0 m d)
theorem V10_a1 (d : Dev nD) : V10 m d r_a1 = m (a1Loc d) :=
  (V10_of_old m d r_a1 (by decide) (by decide) (by decide) (by decide)).trans (V6_a1 m d)
theorem V10_a2 (d : Dev nD) : V10 m d r_a2 = m (lwLoc d) :=
  (V10_of_old m d r_a2 (by decide) (by decide) (by decide) (by decide)).trans (V6_a2 m d)

theorem V8_v4 (d : Dev nD) : V8 m d r_v4 = sgOf m d := by
  unfold V8
  rw [(op7 (F := F)).result_of_not_mem (V7 m d) (b := r_v4) (show r_v4 ∉ ({r_v5} : Finset (DevRef τ sig)) by decide), V7_v4]
theorem V8_v5 (d : Dev nD) :
    V8 m d r_v5 = transpose S26x16384x128 [1, 0, 2] (m (a1Loc d)) transposes_S16384x26x128_S26x16384x128_1_0_2 := by
  unfold V8
  rw [show (op7 (F := F)).result (V7 m d) r_v5 = _ from StableHlo.unary_result main_arg1 main_v5 _ _ _ (V7 m d)]
  show transpose S26x16384x128 [1, 0, 2] (V7 m d r_a1) _ = _
  rw [show V7 m d r_a1 = V6 m d r_a1 from Function.update_of_ne (show r_a1 ≠ r_v4 by decide) _ _, V6_a1]

/-- The result array: the transposition back of the region's output on the transposed input and the call's scale vector. -/
theorem V10_v7 (d : Dev nD) :
    V10 m d r_v7 = transpose S16384x26x128 [1, 0, 2]
      (tcOut (sgOf m d) (transpose S26x16384x128 [1, 0, 2] (m (a1Loc d)) transposes_S16384x26x128_S26x16384x128_1_0_2))
      transposes_S26x16384x128_S16384x26x128_1_0_2 := by
  unfold V10
  rw [show (op8 (F := F)).result (V9 m d) r_v7 = _ from StableHlo.unary_result main_v6 main_v7 _ _ _ (V9 m d)]
  show transpose S16384x26x128 [1, 0, 2] (V9 m d r_v6) _ = _
  rw [V9_v6, V8_v4, V8_v5]

/-! ## The final memory, and the program's run -/

def fq (d : Dev nD) (s' : Phys nD τ sig (Elt F)) : Prop := ∀ b ∈ S13, s'.mem.mem ((d, b) : Loc nD τ sig) = V10 m d b

theorem hfin (d : Dev nD) (s' : Phys nD τ sig (Elt F)) : iprop(FIN m d ∗ SI s') ⊢ (⌜fq m d s'⌝ : sProp 𝕄) := by
  iintro ⟨H, HSI⟩
  ihave R := (Cert.LibHeld.held_agree (SparseCore.T d) (V10 m d) s' S13) $$ [HSI H]
  · isplitl [HSI] <;> iassumption
  icases R with %h
  ipureintro; exact h

/-- The run's post: the result array at the last valuation, the three arguments unchanged. -/
def QC : PUnit × MemSt nD τ sig (Elt F) → Prop := fun r => ∀ c : Dev nD,
  r.2.mem ((c.tc : Thread nD τ).loc main_v7) = V10 m c r_v7
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem hQ (s' : Phys nD τ sig (Elt F)) (h : ∀ d, fq m d s') : QC m (⟨⟩, s'.mem) := by
  intro c
  have hc : ∀ b ∈ S13, s'.mem.mem ((c, b) : Loc nD τ sig) = V10 m c b := h c
  exact ⟨hc r_v7 (by decide), (hc r_a0 (by decide)).trans (V10_a0 m c), (hc r_a1 (by decide)).trans (V10_a1 m c), (hc r_a2 (by decide)).trans (V10_a2 m c)⟩

/-- Every weakly fair execution of the program's threads ends, nothing faulting, with the result array at the last valuation and
    the arguments unchanged — when every word of the padded index vector names a table position. -/
theorem run_main [∀ e, Nonempty (Elt F e)] (hip : ∀ (d : Dev nD) (x : S32.Idx), ((ipOf m d : IVec S32 32) x).toNat < 100) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (ipOf m)) facts v₀
    (fun q hq => match q with | 0 => nomatch hq)
    (fun q _ => match q with | 0 => tileObl m (ipOf m) hip)
    (fun q _ => match q with | 0 => SparseCore.Cfg.VecSplit.of_plain (vecSplit m (ipOf m)))
    m ρ main (G (F := F)) (FIN m) (u₀ (F := F)) (sep_elim_left.trans (hu₀ m (ipOf m))) (hmain m ρ) (fq m) (hfin m) (QC m) (hQ m)

end Cert.KernelIdeal.Hand

end
-- ==== Proof.KernelValue.lean ====
/-
  The value the kernel side computes, on the extended reals, against the specification.

  Lane k of the scale vector is 1 / (1 + exp (0 - x)) at the table entry x that index word k names; the float word of
  zero denotes 0 and 0 - x = -x, so the lane is the logistic of that entry. The result is the [16384, 26, 128] array
  transposed to [26, 16384, 128], its row j multiplied by lane j, and transposed back: the two transposes undo each
  other index by index, so entry (b, j, d) of the result is feat (b, j, d) times lane j. The first 26 words of the
  padded index vector are the index words, and both sides clamp a word to the table's last position alike, so lane j
  is row j's scale.
-/
import proofs.«205909_g45389214384387_cont_8to1c4_201_25_alg».proof.Proof.KernelIdeal.World
import proofs.«205909_g45389214384387_cont_8to1c4_201_25_alg».proof.Proof.Spec
import Idealize.ShloMosaic.Lib.Pipeline.Value
import Idealize.ShloMosaic.PureOps.Ideal.Laws

noncomputable section

namespace Cert.KernelValue

open Cert.KernelIdeal Cert.KernelIdeal.Hand
open Idealize.ShloMosaic Idealize.ShloMosaic.ValueIdx

/-- Lane k of the scale vector is the logistic of the table entry index word k names. -/
theorem sigOf_apply (ip : IVec Cert.KernelIdeal.S32 32) (lw : FVec Ideal Cert.KernelIdeal.S100 .f32) (k : Fin 32) :
    Cert.KernelIdeal.Hand.sigOf (F := Ideal) ip lw (ix1 k) = Cert.Spec.logistic (lw (ix1 (Cert.KernelIdeal.Hand.rowT (ip (ix1 k))))) := by
  unfold Cert.KernelIdeal.Hand.sigOf Cert.KernelIdeal.Hand.sigLane Cert.Spec.logistic
  show Ideal.div (Ideal.ofBits .f32 0x3F800000#32)
      (Ideal.ofBits .f32 0x3F800000#32 + Ideal.exp (Ideal.ofBits .f32 0x00000000#32 - lw (ix1 (rowT (ip (ix1 k)))))) = _
  rw [Ideal.ofBits_zero_f32, zero_sub]

/-- The kernel side's result is the specification's array. -/
theorem result_eq [Cert.KernelIdeal.Facts] (idx : IVec Cert.KernelIdeal.S26x1 32) (feat : FVec Ideal Cert.KernelIdeal.S16384x26x128 .f32) (lw : FVec Ideal Cert.KernelIdeal.S100 .f32) (ip : IVec Cert.KernelIdeal.S32 32)
    (hip : ∀ j : Fin 26, ip (ix1 (Fin.castLE (by decide) j : Fin 32)) = idx (ix2 j (0 : Fin 1))) :
    transpose Cert.KernelIdeal.S16384x26x128 [1, 0, 2] (Cert.KernelIdeal.Hand.tcOut (F := Ideal) (Cert.KernelIdeal.Hand.sigOf (F := Ideal) ip lw) (transpose Cert.KernelIdeal.S26x16384x128 [1, 0, 2] feat Cert.KernelIdeal.Facts₀.transposes_S16384x26x128_S26x16384x128_1_0_2)) Cert.KernelIdeal.Facts₀.transposes_S26x16384x128_S16384x26x128_1_0_2
      = Cert.Spec.G idx feat lw := by
  funext i
  obtain ⟨b, j, d, rfl⟩ : ∃ b j d, i = ix3 b j d := ⟨i 0, i 1, i 2, eq_ix3 i⟩
  refine (transpose_apply _ _ _ (ix3 b j d) (ix3 j b d)
    (fun c => match c with | ⟨0, _⟩ => rfl | ⟨1, _⟩ => rfl | ⟨2, _⟩ => rfl)).trans ?_
  show transpose Cert.KernelIdeal.S26x16384x128 [1, 0, 2] feat _ (ix3 j b d) * sigOf ip lw (ix1 (Fin.castLE _ j)) = _
  rw [transpose_apply _ feat _ (ix3 j b d) (ix3 b j d)
      (fun c => match c with | ⟨0, _⟩ => rfl | ⟨1, _⟩ => rfl | ⟨2, _⟩ => rfl),
    sigOf_apply, hip j, Cert.Spec.G_apply]
  rfl

end Cert.KernelValue

end
-- ==== Proof.RefRun.lean ====
/-
  The reference program's run. Its @main calls the outlined function @_take, which calls @_where; with
  both calls unfolded at their call sites @main is a straight line of thirty-four host operations: @_take's
  twenty-two (the in-bounds wrap of the index words through @_where's select, the clamp test, the gather, the
  select against the not-a-number pattern) over the call's own buffers, then @main's twelve (negate, exponential,
  one plus, one over, the two broadcasts, the product). Every weakly fair execution of that line terminates with
  each buffer at the fold of the operations over the launch contents; read at the result buffer the fold is the
  composed pure term `refVal` of the three argument arrays, and at each argument buffer it is what was there.
-/
import proofs.«205909_g45389214384387_cont_8to1c4_201_25_alg».proof.ReferenceIdeal
import Idealize.ShloMosaic.Lib.StableHlo.Run
import Idealize.ShloMosaic.PureOps.Ideal

noncomputable section

namespace Cert.RefSide

open Cert.ReferenceIdeal Cert.ReferenceIdeal.Facts₀ Idealize.ShloMosaic Idealize.ShloMosaic.TcCoe Idealize.SL.Sem
  Idealize.ShloMosaic.StableHlo

variable [Cert.ReferenceIdeal.Facts]

section Line

variable {F : FTy → Type} [FloatOps F]

/-- @main's thirty-four operations in order, the two calls unfolded: @_take's over the buffers of the call's record
    (its argument %arg0 the table, @main's third argument; its %arg1 the index words, @main's first), @_where's one
    select in its place among them, then @main's own. -/
abbrev ops : List (HloOp τ sig (Elt F)) :=
  [ TRef.nullary main_call0.c (constantI S_ 32 0#32),
    TRef.unary main_call0.c main_call0.v0 (broadcastInDim S26x1 ![] bcast_S_S26x1),
    TRef.binary (.of main_arg0) main_call0.v0 main_call0.v1 (cmpi .slt),
    TRef.nullary main_call0.c_0 (constantI S_ 32 100#32),
    TRef.unary main_call0.c_0 main_call0.v2 (broadcastInDim S26x1 ![] bcast_S_S26x1),
    TRef.binary (.of main_arg0) main_call0.v2 main_call0.v3 addi,
    TRef.ternary main_call0.v1 main_call0.v3 (.of main_arg0) main_call0.call0.v0 select,
    TRef.unary main_call0.call0.v0 main_call0.v5 (broadcastInDim S26x1x1 ![0, 1] bcast_S26x1_S26x1x1_0_1),
    TRef.nullary main_call0.c_1 (constantI S1 32 99#32),
    TRef.nullary main_call0.c_2 (constantI S_ 32 0#32),
    TRef.unary main_call0.c_2 main_call0.v6 (broadcastInDim S26x1x1 ![] bcast_S_S26x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S26x1x1 ![0, 1, 2] bcast_S1x1x1_S26x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S26x1x1_S26x1_d2 h_S_),
    TRef.binary (.of main_arg2) main_call0.v5 main_call0.v13 (fun x i => Host.gather gather_S100_S26x1x1_S26x1_n_0_n_n_0_2_1 x i),
    TRef.nullary main_call0.cst (constant S_ .f32 0x7FC00000#32),
    TRef.unary main_call0.cst main_call0.v14 (broadcastInDim S26x1 ![] bcast_S_S26x1),
    TRef.ternary main_call0.v12 main_call0.v13 main_call0.v14 main_call0.v15 select,
    unary main_v0 main_v1 (Host.negf : (⟨S26x1, .f32⟩ : BufTy).Contents (Elt F) → (⟨S26x1, .f32⟩ : BufTy).Contents (Elt F)),
    unary main_v1 main_v2 (Host.exp : (⟨S26x1, .f32⟩ : BufTy).Contents (Elt F) → (⟨S26x1, .f32⟩ : BufTy).Contents (Elt F)),
    nullary main_cst (constant S_ .f32 0x3F800000#32),
    unary main_cst main_v3 (broadcastInDim S26x1 ![] bcast_S_S26x1 : (⟨S_, .f32⟩ : BufTy).Contents (Elt F) → (⟨S26x1, .f32⟩ : BufTy).Contents (Elt F)),
    binary main_v3 main_v2 main_v4 (addf : (⟨S26x1, .f32⟩ : BufTy).Contents (Elt F) → (⟨S26x1, .f32⟩ : BufTy).Contents (Elt F) → (⟨S26x1, .f32⟩ : BufTy).Contents (Elt F)),
    nullary main_cst_0 (constant S_ .f32 0x3F800000#32),
    unary main_cst_0 main_v5 (broadcastInDim S26x1 ![] bcast_S_S26x1 : (⟨S_, .f32⟩ : BufTy).Contents (Elt F) → (⟨S26x1, .f32⟩ : BufTy).Contents (Elt F)),
    binary main_v5 main_v4 main_v6 (Host.divf : (⟨S26x1, .f32⟩ : BufTy).Contents (Elt F) → (⟨S26x1, .f32⟩ : BufTy).Contents (Elt F) → (⟨S26x1, .f32⟩ : BufTy).Contents (Elt F)),
    unary main_v6 main_v7 (broadcastInDim S1x26x1 ![1, 2] bcast_S26x1_S1x26x1_1_2 : (⟨S26x1, .f32⟩ : BufTy).Contents (Elt F) → (⟨S1x26x1, .f32⟩ : BufTy).Contents (Elt F)),
    unary main_v7 main_v8 (broadcastInDim S16384x26x128 ![0, 1, 2] bcast_S1x26x1_S16384x26x128_0_1_2 : (⟨S1x26x1, .f32⟩ : BufTy).Contents (Elt F) → (⟨S16384x26x128, .f32⟩ : BufTy).Contents (Elt F)),
    binary main_arg1 main_v8 main_v9 (mulf : (⟨S16384x26x128, .f32⟩ : BufTy).Contents (Elt F) → (⟨S16384x26x128, .f32⟩ : BufTy).Contents (Elt F) → (⟨S16384x26x128, .f32⟩ : BufTy).Contents (Elt F)) ]

-- thirty-four binds re-associated: the rewrite under the chain recurses once per statement
set_option maxRecDepth 1024 in
/-- @main is that straight line: the two functions' definitions unfolded at their calls, both sides are one chain of
    `hlo` steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub ..⟩

/-- From any memory with zero counters every weakly fair execution of @main terminates, and every final state has
    each buffer at the operations' fold over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The result as a term of the arguments -/

/-- The index words with the negative ones wrapped: a word below zero (read signed) has 100 added. -/
def wrapped (idx : IVec S26x1 32) : IVec S26x1 32 :=
  select (cmpi .slt idx (broadcastInDim S26x1 ![] bcast_S_S26x1 (constantI S_ 32 0#32)))
    (addi idx (broadcastInDim S26x1 ![] bcast_S_S26x1 (constantI S_ 32 100#32))) idx

/-- The wrapped words as the gather's start indices: one coordinate each, on a new trailing unit axis. -/
def starts (idx : IVec S26x1 32) : IVec S26x1x1 32 :=
  broadcastInDim S26x1x1 ![0, 1] bcast_S26x1_S26x1x1_0_1 (wrapped idx)

/-- Which start indices lie in the table, `0 ≤ · ≤ 99` read signed: the conjunction over the unit coordinate axis. -/
def inTable (idx : IVec S26x1 32) : IVec S26x1 1 :=
  Host.reduce IntOp.andi
    (andi (cmpi .sge (starts idx) (broadcastInDim S26x1x1 ![] bcast_S_S26x1x1 (constantI S_ 32 0#32)))
      (cmpi .sle (starts idx) (broadcastInDim S26x1x1 ![0, 1, 2] bcast_S1x1x1_S26x1x1_0_1_2
        (broadcastInDim S1x1x1 ![2] bcast_S1_S1x1x1_2 (constantI S1 32 99#32)))))
    (constantI S_ 1 1#1) reducesTo_S26x1x1_S26x1_d2 h_S_

/-- The table entries the words name: the gather where the start index lies in the table, the not-a-number pattern elsewhere. -/
def taken (idx : IVec S26x1 32) (lw : FVec Ideal S100 .f32) : FVec Ideal S26x1 .f32 :=
  select (inTable idx) (Host.gather gather_S100_S26x1x1_S26x1_n_0_n_n_0_2_1 lw (starts idx))
    (broadcastInDim S26x1 ![] bcast_S_S26x1 (constant S_ .f32 0x7FC00000#32))

/-- The twenty-six scales: one over one plus the exponential of the negated entry. -/
def scales (idx : IVec S26x1 32) (lw : FVec Ideal S100 .f32) : FVec Ideal S26x1 .f32 :=
  Host.divf (broadcastInDim S26x1 ![] bcast_S_S26x1 (constant S_ .f32 0x3F800000#32))
    (addf (broadcastInDim S26x1 ![] bcast_S_S26x1 (constant S_ .f32 0x3F800000#32)) (Host.exp (Host.negf (taken idx lw))))

/-- The reference's result as the composed pure term of its three argument arrays (the host operations of @main with the two calls inlined, in order). -/
def refVal (idx : IVec Cert.ReferenceIdeal.S26x1 32) (feat : FVec Ideal Cert.ReferenceIdeal.S16384x26x128 .f32)
    (lw : FVec Ideal Cert.ReferenceIdeal.S100 .f32) : FVec Ideal Cert.ReferenceIdeal.S16384x26x128 .f32 :=
  mulf feat (broadcastInDim S16384x26x128 ![0, 1, 2] bcast_S1x26x1_S16384x26x128_0_1_2
    (broadcastInDim S1x26x1 ![1, 2] bcast_S26x1_S1x26x1_1_2 (scales idx lw)))

attribute [local irreducible] Host.reduce Host.gather in
set_option maxRecDepth 8192 in
/-- The fold at the result buffer is `refVal` of the fold's argument contents by computation: the fold unrolled, each
    operation's result decides whether the buffer read is the one it writes, and the typed references' casts are the
    identity at these literal references. The reduction and the gather are kept folded meanwhile: the equation never
    looks inside them. -/
theorem out_eq (V : Valuation τ sig (Elt Ideal)) :
    after ops V (main_v9 : DevRef τ sig)
      = refVal (V (main_arg0 : DevRef τ sig)) (V (main_arg1 : DevRef τ sig)) (V (main_arg2 : DevRef τ sig)) := by
  after_results_simp
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

/-- From any memory with zero counters every weakly fair execution of the reference's @main terminates, nothing
    faulting, with the result buffer at `refVal` of the launch contents of the three arguments and the arguments
    unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v9) = refVal (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c => ⟨(h c main_v9).trans (out_eq _), (h c main_arg0).trans (arg0_eq _), (h c main_arg1).trans (arg1_eq _),
      (h c main_arg2).trans (arg2_eq _)⟩)
    (run_line (F := Ideal) m g)

end Cert.RefSide

end
-- ==== Proof.RefValue.lean ====
/-
  The reference's result, index by index. Under `InRange` every index word is below 100, so read signed it is its own
  natural: it is not negative (the wrap adds nothing), it lies in `[0, 99]` (the in-table test is all ones and the select
  returns the gathered entry), and the gather's clamp of it into the table is the identity. Entry `(b, j, d)` of the
  result is then `feat (b, j, d)` times one over one plus the exponential of the negated table entry that word `j`
  names: the specification's `G`.
-/
import proofs.«205909_g45389214384387_cont_8to1c4_201_25_alg».proof.Proof.RefRun
import proofs.«205909_g45389214384387_cont_8to1c4_201_25_alg».proof.Proof.Spec
import Idealize.ShloMosaic.Lib.ValueIdx
import Idealize.ShloMosaic.Lib.Pipeline.Value
import Idealize.ShloMosaic.PureOps.Reduce

noncomputable section

namespace Cert.RefSide

open Cert.ReferenceIdeal Cert.ReferenceIdeal.Facts₀ Idealize.ShloMosaic Idealize.ShloMosaic.ValueIdx

/-! ## Words below 100, read signed -/

/-- A 32-bit word below 100 read signed is its natural. -/
theorem toInt_of_lt {w : BitVec 32} (h : w.toNat < 100) : w.toInt = (w.toNat : Int) :=
  BitVec.toInt_eq_toNat_of_lt (by omega)

/-- Such a word is not below zero … -/
theorem slt_zero_of_lt {w : BitVec 32} (h : w.toNat < 100) : IntOp.cmpi .slt w 0#32 = 0#1 := by
  have hw := toInt_of_lt h
  have hs : w.slt 0#32 = false := by
    rw [BitVec.slt, hw]
    simp
  show BitVec.ofBool (w.slt 0#32) = 0#1
  rw [hs]; rfl

/-- … it is at least zero … -/
theorem sge_zero_of_lt {w : BitVec 32} (h : w.toNat < 100) : IntOp.cmpi .sge w 0#32 = 1#1 := by
  have hw := toInt_of_lt h
  have hs : (0#32).sle w = true := by
    rw [BitVec.sle, hw]
    simp
  show BitVec.ofBool ((0#32).sle w) = 1#1
  rw [hs]; rfl

/-- … and at most 99. -/
theorem sle_99_of_lt {w : BitVec 32} (h : w.toNat < 100) : IntOp.cmpi .sle w 99#32 = 1#1 := by
  have hw := toInt_of_lt h
  have hs : w.sle 99#32 = true := by
    rw [BitVec.sle, hw]
    simp
    omega
  show BitVec.ofBool (w.sle 99#32) = 1#1
  rw [hs]; rfl

/-! ## A conjunction of ones -/

/-- A `stablehlo.reduce` with `and` from the bit one of an array of ones is one everywhere. -/
theorem reduce_andi_of_all_one {s t u : Shape} {axes : List (Fin s.rank)} (x : IVec s 1) (init : IVec u 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    exact ih

variable [Cert.ReferenceIdeal.Facts]

/-! ## The index words through the wrap, the start indices, the in-table test, the gather -/

/-- Under `InRange` the wrap leaves word `a` as it is: it is not negative. -/
theorem wrapped_apply (idx : IVec S26x1 32) (h : Cert.Spec.InRange idx) (a : Fin 26) :
    wrapped idx (ix2 a (0 : Fin 1)) = idx (ix2 a (0 : Fin 1)) := by
  show Scalar.select (IntOp.cmpi .slt (idx (ix2 a (0 : Fin 1))) 0#32) (IntOp.addi (idx (ix2 a (0 : Fin 1))) 100#32)
    (idx (ix2 a (0 : Fin 1))) = _
  rw [slt_zero_of_lt (h a), select_zero]

/-- A start index is the wrapped word of its row. -/
theorem starts_apply (idx : IVec S26x1 32) (a : Fin 26) :
    starts idx (ix3 a (0 : Fin 1) (0 : Fin 1)) = wrapped idx (ix2 a (0 : Fin 1)) := by
  unfold starts
  exact broadcastInDim_apply _ bcast_S26x1_S26x1x1_0_1 (wrapped idx) (ix3 a (0 : Fin 1) (0 : Fin 1)) (ix2 a (0 : Fin 1))
    (fun c => match c with | ⟨0, _⟩ => rfl | ⟨1, _⟩ => rfl)

/-- Under `InRange` every start index lies in the table: the in-table test is one everywhere. -/
theorem inTable_apply (idx : IVec S26x1 32) (h : Cert.Spec.InRange idx) (y : S26x1.Idx) : inTable idx y = 1#1 := by
  unfold inTable
  refine reduce_andi_of_all_one _ _ _ _ (fun i => ?_) (fun _ => rfl) y
  obtain ⟨a, b, c, rfl⟩ : ∃ (a : Fin 26) (b c : Fin 1), i = ix3 a b c := ⟨i 0, i 1, i 2, eq_ix3 i⟩
  obtain rfl : b = 0 := Subsingleton.elim _ _
  obtain rfl : c = 0 := Subsingleton.elim _ _
  show IntOp.andi (IntOp.cmpi .sge (starts idx (ix3 a (0 : Fin 1) (0 : Fin 1))) 0#32)
    (IntOp.cmpi .sle (starts idx (ix3 a (0 : Fin 1) (0 : Fin 1))) 99#32) = 1#1
  rw [starts_apply, wrapped_apply idx h, sge_zero_of_lt (h a), sle_99_of_lt (h a)]
  rfl

/-- Under `InRange` entry `j` of the taken entries is the table at the position word `j` names. -/
theorem taken_apply (idx : IVec S26x1 32) (lw : FVec Ideal S100 .f32) (h : Cert.Spec.InRange idx) (j : Fin 26) :
    taken idx lw (ix2 j (0 : Fin 1)) = lw (ix1 (Cert.Spec.row idx j)) := by
  show Scalar.select (inTable idx (ix2 j (0 : Fin 1)))
    (Host.gather gather_S100_S26x1x1_S26x1_n_0_n_n_0_2_1 lw (starts idx) (ix2 j (0 : Fin 1))) _ = _
  rw [inTable_apply idx h, select_one]
  refine (gather_take_apply (by decide) gather_S100_S26x1x1_S26x1_n_0_n_n_0_2_1_wf lw (starts idx) (ix2 j (0 : Fin 1))).trans ?_
  refine congrArg (fun r : Fin 100 => lw (ix1 r)) (Fin.ext ?_)
  have hy : takeIdx (ix2 j (0 : Fin 1)) = ix3 j (0 : Fin 1) (0 : Fin 1) := by
    funext c; match c with | ⟨0, _⟩ => rfl | ⟨1, _⟩ => rfl | ⟨2, _⟩ => rfl
  show min (starts idx (takeIdx (ix2 j (0 : Fin 1)))).toInt.toNat (100 - 1) = min (idx (ix2 j (0 : Fin 1))).toNat 99
  rw [hy, starts_apply, wrapped_apply idx h, toInt_of_lt (h j), Int.toNat_natCast]

/-- Under `InRange` scale `j` is the specification's. -/
theorem scales_apply (idx : IVec S26x1 32) (lw : FVec Ideal S100 .f32) (h : Cert.Spec.InRange idx) (j : Fin 26) :
    scales idx lw (ix2 j (0 : Fin 1)) = Cert.Spec.scale idx lw j := by
  show Ideal.div (Ideal.ofBits .f32 0x3F800000#32)
    (Ideal.ofBits .f32 0x3F800000#32 + Ideal.exp (-(taken idx lw (ix2 j (0 : Fin 1))))) = _
  rw [taken_apply idx lw h]
  rfl

/-- The two broadcasts read at `(b, j, d)`: row `j` of the twenty-six, whatever `b` and `d`. -/
theorem bcast_apply (v : FVec Ideal S26x1 .f32) (b : Fin 16384) (j : Fin 26) (d : Fin 128) :
    broadcastInDim S16384x26x128 ![0, 1, 2] bcast_S1x26x1_S16384x26x128_0_1_2
      (broadcastInDim S1x26x1 ![1, 2] bcast_S26x1_S1x26x1_1_2 v) (ix3 b j d) = v (ix2 j (0 : Fin 1)) := by
  refine (broadcastInDim_apply _ bcast_S1x26x1_S16384x26x128_0_1_2 _ (ix3 b j d) (ix3 (0 : Fin 1) j (0 : Fin 1))
    (fun a => match a with | ⟨0, _⟩ => rfl | ⟨1, _⟩ => rfl | ⟨2, _⟩ => rfl)).trans ?_
  exact broadcastInDim_apply _ bcast_S26x1_S1x26x1_1_2 v (ix3 (0 : Fin 1) j (0 : Fin 1)) (ix2 j (0 : Fin 1))
    (fun a => match a with | ⟨0, _⟩ => rfl | ⟨1, _⟩ => rfl)

/-- Under `InRange` the reference's result is the specification's `G` of the three arguments. -/
theorem refVal_eq (idx : IVec Cert.ReferenceIdeal.S26x1 32) (feat : FVec Ideal Cert.ReferenceIdeal.S16384x26x128 .f32)
    (lw : FVec Ideal Cert.ReferenceIdeal.S100 .f32) (h : Cert.Spec.InRange idx) :
    refVal idx feat lw = Cert.Spec.G idx feat lw := by
  funext i
  obtain ⟨b, j, d, rfl⟩ : ∃ b j d, i = ix3 b j d := ⟨i 0, i 1, i 2, eq_ix3 i⟩
  show feat (ix3 b j d) * broadcastInDim S16384x26x128 ![0, 1, 2] bcast_S1x26x1_S16384x26x128_0_1_2
      (broadcastInDim S1x26x1 ![1, 2] bcast_S26x1_S1x26x1_1_2 (scales idx lw)) (ix3 b j d) = _
  rw [bcast_apply, scales_apply idx lw h]
  rfl

end Cert.RefSide

end
-- ==== Proof.PreSide.lean ====
/-
  The precondition is the conjunction of three tests, each an "all" over one argument array; the third says that
  every index word, read as a signed integer, lies between 0 and 99. A signed word between 0 and 99 has its top bit
  clear, so its unsigned reading is the same number: every index word names a position of the 100-entry table.
-/
import proofs.«205909_g45389214384387_cont_8to1c4_201_25_alg».proof.Pre_input_domain
import proofs.«205909_g45389214384387_cont_8to1c4_201_25_alg».proof.Proof.Spec
import Idealize.ShloMosaic.Lib.ReduceAll

namespace Cert.PreSide

open Idealize.ShloMosaic Idealize.ShloMosaic.ValueIdx

/-- The rank-0 shape has one index. -/
instance : Subsingleton Cert.Pre_input_domain.S_.Idx := ⟨fun a b => funext fun d => d.elim0⟩

/-- A 32-bit word whose signed reading lies between 0 and 99 reads below 100 unsigned. -/
theorem toNat_lt_of_toInt (v : BitVec 32) (h0 : (0#32 : BitVec 32).toInt ≤ v.toInt) (h1 : v.toInt ≤ (99#32 : BitVec 32).toInt) :
    v.toNat < 100 := by
  rw [show (0#32 : BitVec 32).toInt = 0 from by decide] at h0
  rw [show (99#32 : BitVec 32).toInt = 99 from by decide] at h1
  have hlt := v.isLt
  rw [BitVec.toInt_eq_toNat_cond] at h0 h1
  split at h0 <;> omega

/-- Under the precondition every index word names a position of the table. -/
theorem inRange {F : FTy → Type} [FloatOps F] [Cert.Pre_input_domain.Facts] (idx : IVec Cert.Pre_input_domain.S26x1 32) (feat : FVec F Cert.Pre_input_domain.S16384x26x128 .f32) (lw : FVec F Cert.Pre_input_domain.S100 .f32)
    (h : Cert.Pre_input_domain.fn (F := F) idx feat lw = fun _ => 1#1) : Cert.Spec.InRange idx := by
  intro j
  have h0 := congrFun h ValueIdx.ix0
  dsimp only [Cert.Pre_input_domain.fn] at h0
  obtain ⟨-, h3⟩ := IntOp.andi_eq_one.1 h0
  have hj := Host.reduce_andi_all _ _ _ _ _ h3 (ix2 j (0 : Fin 1))
  obtain ⟨ha, hb⟩ := IntOp.andi_eq_one.1 hj
  exact toNat_lt_of_toInt _ (IntOp.cmpi_sge.1 ha) (IntOp.cmpi_sle.1 hb)

end Cert.PreSide
-- ==== Proof.Claims.lean ====
/-
  The five claims. Both printed kernel programs — the same text, read at the word-level instance and at the extended reals — run to
  the end with their arguments unchanged whenever every index word names a table position, which the precondition states; the
  reference's run is its host line. At the extended reals the kernel's result array is the transposition back of the region's
  output — row `j` of the transposed input times lane `j` of the scale vector, lane `j` the logistic of the table entry word `j`
  names — and the reference's is the input times the broadcast logistic of the gathered entries: one function of the arguments,
  `Cert.Spec.G`, index by index; no law of the extended reals beyond `0 - x = -x` is used, so finiteness is never opened.
-/
import proofs.«205909_g45389214384387_cont_8to1c4_201_25_alg».proof.Defs
import proofs.«205909_g45389214384387_cont_8to1c4_201_25_alg».proof.Proof.Kernel.Launch
import proofs.«205909_g45389214384387_cont_8to1c4_201_25_alg».proof.Proof.KernelIdeal.Launch
import proofs.«205909_g45389214384387_cont_8to1c4_201_25_alg».proof.Proof.Kernel.PadIdx
import proofs.«205909_g45389214384387_cont_8to1c4_201_25_alg».proof.Proof.KernelIdeal.PadIdx
import proofs.«205909_g45389214384387_cont_8to1c4_201_25_alg».proof.Proof.KernelValue
import proofs.«205909_g45389214384387_cont_8to1c4_201_25_alg».proof.Proof.RefValue
import proofs.«205909_g45389214384387_cont_8to1c4_201_25_alg».proof.Proof.PreSide
import proofs.«205909_g45389214384387_cont_8to1c4_201_25_alg».proof.Proof.Gen.Kernel
import proofs.«205909_g45389214384387_cont_8to1c4_201_25_alg».proof.Proof.Gen.KernelIdeal
import proofs.«205909_g45389214384387_cont_8to1c4_201_25_alg».proof.Proof.Gen.ReferenceIdeal
import proofs.«205909_g45389214384387_cont_8to1c4_201_25_alg».proof.Proof.Gen.Pre_input_domain

noncomputable section

namespace Cert.Proof.Claims

open Idealize.ShloMosaic Idealize.SL.Sem

/-- The word-level kernel program runs and keeps its arguments. -/
theorem frame_k : Cert.frame_Kernel := fun m g hpre =>
  (θ_run (Cert.Kernel.defs (F := Bits)) _ _).mono (fun _ h c => (h c).2)
    (Cert.Kernel.Hand.run_main (F := Bits) m g
      (fun d x => Cert.Kernel.Hand.ipOf_lt m d (Cert.PreSide.inRange (F := Bits) _ _ _ (hpre d)) x))

/-- The idealized kernel program runs and keeps its arguments. -/
theorem frame_ki : Cert.frame_KernelIdeal := fun m g hpre =>
  (θ_run (Cert.KernelIdeal.defs (F := Ideal)) _ _).mono (fun _ h c => (h c).2)
    (Cert.KernelIdeal.Hand.run_main (F := Ideal) m g
      (fun d x => Cert.KernelIdeal.Hand.ipOf_lt m d (Cert.PreSide.inRange (F := Ideal) _ _ _ (hpre d)) x))

/-- The reference runs and keeps its arguments: its host line's run with the result dropped. -/
theorem frame_r : Cert.frame_ReferenceIdeal := fun m g _ =>
  (θ_run (Cert.ReferenceIdeal.defs (F := Ideal)) _ _).mono (fun _ h c => (h c).2) (Cert.RefSide.run m g)

/-- The ideal pass rewrote nothing. -/
theorem preserves : Cert.preserves_Kernel_KernelIdeal := trivial

/-- From memories agreeing on the arguments both programs end with the one array `Cert.Spec.G` of the arguments. -/
theorem algebraic : Cert.algebraic_KernelIdeal_ReferenceIdeal := by
  intro m g m' g' hpre hagree
  have hin : ∀ c : Dev Cert.KernelIdeal.nD, Cert.Spec.InRange (m (Cert.KernelIdeal.Hand.a0Loc c)) :=
    fun c => Cert.PreSide.inRange (F := Ideal) _ _ _ (hpre c)
  refine ⟨fun c => Cert.KernelIdeal.Hand.V10 m c Cert.KernelIdeal.Hand.r_v7,
    Cert.KernelIdeal.Hand.run_main (F := Ideal) m g (fun d x => Cert.KernelIdeal.Hand.ipOf_lt m d (hin d) x), ?_⟩
  refine (θ_run (Cert.ReferenceIdeal.defs (F := Ideal)) _ _).mono (fun _ h c => ⟨(h c).1.trans ?_, (h c).2⟩) (Cert.RefSide.run m' g')
  rw [(hagree c).1, (hagree c).2.1, (hagree c).2.2, Cert.RefSide.refVal_eq _ _ _ (hin c)]
  show _ = Cert.KernelIdeal.Hand.V10 m c Cert.KernelIdeal.Hand.r_v7
  rw [Cert.KernelIdeal.Hand.V10_v7]
  exact (Cert.KernelValue.result_eq _ _ _ _ (fun j => Cert.KernelIdeal.Hand.ipOf_low m c j)).symm

end Cert.Proof.Claims

end
-- ==== Proof.lean ====
/-
  The proof of `Cert.Claim`: a SparseCore kernel computes 26 scales — the logistic `1 / (1 + exp (-x))` of the table entries 26 index
  words name —, a TensorCore kernel multiplies row `j` of the transposed input by scale `j`, and the reference multiplies the input
  by the broadcast logistic of the gathered entries. The claims are proved in Proof/Claims.lean over: Proof/Spec.lean (the one
  function of the arguments both sides compute), Proof/KernelIdeal/ and Proof/Kernel/ (the kernel program's run, once per instance:
  the SparseCore subcores' task, the TensorCore region, @main on the TensorCore under the launch theorem), Proof/KernelValue.lean
  (the kernel's result array is that function), Proof/RefRun.lean and Proof/RefValue.lean (the reference's run, and its result is
  that function), Proof/PreSide.lean (the precondition gives the index range). The witnesses of the programs' stated facts are the
  generated instances.
-/
import proofs.«205909_g45389214384387_cont_8to1c4_201_25_alg».proof.Defs
import proofs.«205909_g45389214384387_cont_8to1c4_201_25_alg».proof.Proof.Claims
import proofs.«205909_g45389214384387_cont_8to1c4_201_25_alg».proof.Proof.Gen.Kernel
import proofs.«205909_g45389214384387_cont_8to1c4_201_25_alg».proof.Proof.Gen.KernelIdeal
import proofs.«205909_g45389214384387_cont_8to1c4_201_25_alg».proof.Proof.Gen.ReferenceIdeal
import proofs.«205909_g45389214384387_cont_8to1c4_201_25_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_r, Claims.preserves, Claims.algebraic⟩

end Cert.Proof

end
